-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S1000x4096 .f32) (main_arg6 : FVec F S1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1000x4096 .f32 := Host.absf main_arg5
  let main_cst_8 : FVec F S_ .f32 := constant S_ .f32 0x7F800000#32
  let main_v25 : FVec F S1000x4096 .f32 := broadcastInDim S1000x4096 ![] bcast_S_S1000x4096 main_cst_8
  let main_v26 : IVec S1000x4096 1 := cmpf .olt main_v24 main_v25
  let main_c_9 : IVec S_ 1 := constantI S_ 1 1#1
  let main_v27 : IVec S_ 1 := (fun x v => Host.reduce IntOp.andi x v reducesTo_S1000x4096_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096 .f32) (main_arg3 : FVec F S4096x4096 .f32) (main_arg4 : FVec F S4096 .f32) (main_arg5 : FVec F S1000x4096 .f32) (main_arg6 : FVec F S1000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x1024 : Shape := ⟨2, ![4096, 1024]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩
abbrev S1024x4096 : Shape := ⟨2, ![1024, 4096]⟩
abbrev S1024 : Shape := ⟨1, ![1024]⟩
abbrev S4096x1000 : Shape := ⟨2, ![4096, 1000]⟩

abbrev nBuf : Space → Nat
  | .hbm => 146
  | .vmem => 26
  | .smem => 0
  | _ => 0

abbrev hbmTy0_0 (i : Nat) : BufTy := match i % 128 with
  | 0 => ⟨S4096x1024, .f32⟩
  | 1 => ⟨S4096x1024, .f32⟩
  | 2 => ⟨S4096, .f32⟩
  | 3 => ⟨S4096x4096, .f32⟩
  | 4 => ⟨S4096, .f32⟩
  | 5 => ⟨S1000x4096, .f32⟩
  | 6 => ⟨S1000, .f32⟩
  | 7 => ⟨S4096x1024, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S_, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S4096x1024, .bf16⟩
  | 28 => ⟨S4096x1024, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S_, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S4096x1024, .bf16⟩
  | 49 => ⟨S1x4096, .f32⟩
  | 50 => ⟨S4096x4096, .f32⟩
  | 51 => ⟨S4096x4096, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S4096x4096, .f32⟩
  | 59 => ⟨S4096x4096, .f32⟩
  | 60 => ⟨S4096x4096, .f32⟩
  | 61 => ⟨S_, .f32⟩
  | 62 => ⟨S_, .f32⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S4096x4096, .f32⟩
  | 71 => ⟨S4096x4096, .bf16⟩
  | 72 => ⟨S4096x4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S4096x4096, .f32⟩
  | 80 => ⟨S4096x4096, .f32⟩
  | 81 => ⟨S4096x4096, .f32⟩
  | 82 => ⟨S_, .f32⟩
  | 83 => ⟨S_, .f32⟩
  | 84 => ⟨S_, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S4096x4096, .bf16⟩
  | 93 => ⟨S1x4096, .f32⟩
  | 94 => ⟨S4096x4096, .f32⟩
  | 95 => ⟨S4096x4096, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S_, .f32⟩
  | 107 => ⟨S_, .f32⟩
  | 108 => ⟨S4096x4096, .f32⟩
  | 109 => ⟨S4096x4096, .f32⟩
  | 110 => ⟨S_, .f32⟩
  | 111 => ⟨S4096x4096, .f32⟩
  | 112 => ⟨S4096x4096, .f32⟩
  | 113 => ⟨S4096x4096, .f32⟩
  | 114 => ⟨S4096x4096, .f32⟩
  | 115 => ⟨S4096x4096, .bf16⟩
  | 116 => ⟨S1000x4096, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1000x4096, .f32⟩
  | 124 => ⟨S1000x4096, .f32⟩
  | 125 => ⟨S1000x4096, .f32⟩
  | 126 => ⟨S_, .f32⟩
  | 127 => ⟨S_, .f32⟩
  | _ => ⟨S4096x1024, .f32⟩

abbrev hbmTy0_1 (i : Nat) : BufTy := match i % 128 with
  | 0 => ⟨S_, .f32⟩
  | 1 => ⟨S1000x4096, .f32⟩
  | 2 => ⟨S1000x4096, .f32⟩
  | 3 => ⟨S_, .f32⟩
  | 4 => ⟨S1000x4096, .f32⟩
  | 5 => ⟨S1000x4096, .f32⟩
  | 6 => ⟨S1000x4096, .f32⟩
  | 7 => ⟨S1000x4096, .f32⟩
  | 8 => ⟨S1000x4096, .bf16⟩
  | 9 => ⟨S_, .i32⟩
  | 10 => ⟨S_, .bf16⟩
  | 11 => ⟨S1024x4096, .bf16⟩
  | 12 => ⟨S_, .i32⟩
  | 13 => ⟨S_, .f32⟩
  | 14 => ⟨S1024, .f32⟩
  | 15 => ⟨S1x1024, .f32⟩
  | 16 => ⟨S4096x1024, .f32⟩
  | 17 => ⟨S4096x1000, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_cst_8 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_9 : Ref sig .tc := ⟨.hbm, 52, rfl⟩
abbrev main_v25 : Ref sig .tc := ⟨.hbm, 53, rfl⟩
abbrev main_cst_10 : Ref sig .tc := ⟨.hbm, 54, rfl⟩
abbrev main_v26 : Ref sig .tc := ⟨.hbm, 55, rfl⟩
abbrev main_cst_11 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_12 : Ref sig .tc := ⟨.hbm, 61, rfl⟩
abbrev main_cst_13 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_14 : Ref sig .tc := ⟨.hbm, 73, rfl⟩
abbrev main_v36 : Ref sig .tc := ⟨.hbm, 74, rfl⟩
abbrev main_cst_15 : Ref sig .tc := ⟨.hbm, 75, rfl⟩
abbrev main_v37 : Ref sig .tc := ⟨.hbm, 76, rfl⟩
abbrev main_cst_16 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_17 : Ref sig .tc := ⟨.hbm, 82, rfl⟩
abbrev main_cst_18 : Ref sig .tc := ⟨.hbm, 83, rfl⟩
abbrev main_call7_v0 : Ref sig .tc := ⟨.hbm, 84, rfl⟩
abbrev main_call7_v1 : Ref sig .tc := ⟨.hbm, 85, rfl⟩
abbrev main_call7_v2 : Ref sig .tc := ⟨.hbm, 86, rfl⟩
abbrev main_call7_v3 : Ref sig .tc := ⟨.hbm, 87, rfl⟩
abbrev main_call7_v4 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_19 : Ref sig .tc := ⟨.hbm, 96, rfl⟩
abbrev main_v49 : Ref sig .tc := ⟨.hbm, 97, rfl⟩
abbrev main_cst_20 : Ref sig .tc := ⟨.hbm, 98, rfl⟩
abbrev main_v50 : Ref sig .tc := ⟨.hbm, 99, rfl⟩
abbrev main_cst_21 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_22 : Ref sig .tc := ⟨.hbm, 105, rfl⟩
abbrev main_cst_23 : Ref sig .tc := ⟨.hbm, 106, rfl⟩
abbrev main_call9_v0 : Ref sig .tc := ⟨.hbm, 107, rfl⟩
abbrev main_call9_v1 : Ref sig .tc := ⟨.hbm, 108, rfl⟩
abbrev main_call9_v2 : Ref sig .tc := ⟨.hbm, 109, rfl⟩
abbrev main_call9_v3 : Ref sig .tc := ⟨.hbm, 110, rfl⟩
abbrev main_call9_v4 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_24 : Ref sig .tc := ⟨.hbm, 117, rfl⟩
abbrev main_v60 : Ref sig .tc := ⟨.hbm, 118, rfl⟩
abbrev main_cst_25 : Ref sig .tc := ⟨.hbm, 119, rfl⟩
abbrev main_v61 : Ref sig .tc := ⟨.hbm, 120, rfl⟩
abbrev main_cst_26 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_27 : Ref sig .tc := ⟨.hbm, 126, rfl⟩
abbrev main_cst_28 : Ref sig .tc := ⟨.hbm, 127, rfl⟩
abbrev main_call11_v0 : Ref sig .tc := ⟨.hbm, 128, rfl⟩
abbrev main_call11_v1 : Ref sig .tc := ⟨.hbm, 129, rfl⟩
abbrev main_call11_v2 : Ref sig .tc := ⟨.hbm, 130, rfl⟩
abbrev main_call11_v3 : Ref sig .tc := ⟨.hbm, 131, rfl⟩
abbrev main_call11_v4 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_c : Ref sig .tc := ⟨.hbm, 137, rfl⟩
abbrev main_call12_v0 : Ref sig .tc := ⟨.hbm, 138, rfl⟩
abbrev main_v70 : Ref sig .tc := ⟨.hbm, 139, rfl⟩
abbrev main_c_29 : Ref sig .tc := ⟨.hbm, 140, rfl⟩
abbrev main_call13_v0 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  reducesTo_S4096x1024_S_d0_1 : S4096x1024.ReducesTo [0, 1] S_
  h_S_ : 0 < S_.numel
  bcast_S_S4096x1024 : S_.BroadcastsInDim S4096x1024 (![] : Fin 0 → Fin S4096x1024.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reducesTo_S4096x4096_S_d0_1 : S4096x4096.ReducesTo [0, 1] S_
  bcast_S_S4096x4096 : S_.BroadcastsInDim S4096x4096 (![] : Fin 0 → Fin S4096x4096.rank)
  reducesTo_S1000x4096_S_d0_1 : S1000x4096.ReducesTo [0, 1] S_
  bcast_S_S1000x4096 : S_.BroadcastsInDim S1000x4096 (![] : Fin 0 → Fin S1000x4096.rank)
  pads_S1000x4096_S1024x4096_0240_000 : S1000x4096.Pads (![0, 0] : Fin 2 → Nat) ![24, 0] ![0, 0] S1024x4096
  pads_S1000_S1024_0240 : S1000.Pads (![0] : Fin 1 → Nat) ![24] ![0] S1024
  shapeCasts_S1024_S1x1024 : S1024.ShapeCasts S1x1024
  slices_S4096x1024_S4096x1000_0_0 : S4096x1024.Slices ![0, 0] S4096x1000
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .bf16 = 32 ∨ (Rect.block (s := S1024x4096) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v34) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v58) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S1024x4096 : Shape := ⟨2, ![1024, 4096]⟩
abbrev S1x4096 : Shape := ⟨2, ![1, 4096]⟩
abbrev S4096x1000 : Shape := ⟨2, ![4096, 1000]⟩
abbrev S1x1000 : Shape := ⟨2, ![1, 1000]⟩

abbrev nBuf : Space → Nat
  | .hbm => 160
  | .vmem => 0
  | .smem => 0
  | _ => 0

abbrev hbmTy0_0 (i : Nat) : BufTy := match i % 128 with
  | 0 => ⟨S4096x1024, .f32⟩
  | 1 => ⟨S4096x1024, .f32⟩
  | 2 => ⟨S4096, .f32⟩
  | 3 => ⟨S4096x4096, .f32⟩
  | 4 => ⟨S4096, .f32⟩
  | 5 => ⟨S1000x4096, .f32⟩
  | 6 => ⟨S1000, .f32⟩
  | 7 => ⟨S4096x1024, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S_, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S_, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S1024x4096, .f32⟩
  | 52 => ⟨S4096x4096, .f32⟩
  | 53 => ⟨S1x4096, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S4096x4096, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S4096x4096, .f32⟩
  | 67 => ⟨S4096x4096, .f32⟩
  | 68 => ⟨S4096x4096, .f32⟩
  | 69 => ⟨S_, .f32⟩
  | 70 => ⟨S_, .f32⟩
  | 71 => ⟨S_, .f32⟩
  | 72 => ⟨S4096x4096, .f32⟩
  | 73 => ⟨S4096x4096, .f32⟩
  | 74 => ⟨S_, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S4096x4096, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096x4096, .f32⟩
  | 89 => ⟨S4096x4096, .f32⟩
  | 90 => ⟨S4096x4096, .f32⟩
  | 91 => ⟨S_, .f32⟩
  | 92 => ⟨S_, .f32⟩
  | 93 => ⟨S_, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S1x4096, .f32⟩
  | 106 => ⟨S4096x4096, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S4096x4096, .f32⟩
  | 119 => ⟨S4096x4096, .f32⟩
  | 120 => ⟨S4096x4096, .f32⟩
  | 121 => ⟨S_, .f32⟩
  | 122 => ⟨S_, .f32⟩
  | 123 => ⟨S_, .f32⟩
  | 124 => ⟨S4096x4096, .f32⟩
  | 125 => ⟨S4096x4096, .f32⟩
  | 126 => ⟨S_, .f32⟩
  | 127 => ⟨S4096x4096, .f32⟩
  | _ => ⟨S4096x1024, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S1000x4096, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1000x4096, .f32⟩
  | 13 => ⟨S1000x4096, .f32⟩
  | 14 => ⟨S1000x4096, .f32⟩
  | 15 => ⟨S_, .f32⟩
  | 16 => ⟨S_, .f32⟩
  | 17 => ⟨S_, .f32⟩
  | 18 => ⟨S1000x4096, .f32⟩
  | 19 => ⟨S1000x4096, .f32⟩
  | 20 => ⟨S_, .f32⟩
  | 21 => ⟨S1000x4096, .f32⟩
  | 22 => ⟨S1000x4096, .f32⟩
  | 23 => ⟨S1000x4096, .f32⟩
  | 24 => ⟨S1000x4096, .f32⟩
  | 25 => ⟨S1000x4096, .f32⟩
  | 26 => ⟨S1000x4096, .f32⟩
  | 27 => ⟨S4096x1000, .f32⟩
  | 28 => ⟨S4096x1000, .f32⟩
  | 29 => ⟨S1x1000, .f32⟩
  | 30 => ⟨S4096x1000, .f32⟩
  | 31 => ⟨S4096x1000, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_10 : Ref sig .tc := ⟨.hbm, 60, rfl⟩
abbrev main_v32 : Ref sig .tc := ⟨.hbm, 61, rfl⟩
abbrev main_cst_11 : Ref sig .tc := ⟨.hbm, 62, rfl⟩
abbrev main_v33 : Ref sig .tc := ⟨.hbm, 63, rfl⟩
abbrev main_cst_12 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_13 : Ref sig .tc := ⟨.hbm, 69, rfl⟩
abbrev main_cst_14 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_15 : Ref sig .tc := ⟨.hbm, 82, rfl⟩
abbrev main_v44 : Ref sig .tc := ⟨.hbm, 83, rfl⟩
abbrev main_cst_16 : Ref sig .tc := ⟨.hbm, 84, rfl⟩
abbrev main_v45 : Ref sig .tc := ⟨.hbm, 85, rfl⟩
abbrev main_cst_17 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_18 : Ref sig .tc := ⟨.hbm, 91, rfl⟩
abbrev main_cst_19 : Ref sig .tc := ⟨.hbm, 92, rfl⟩
abbrev main_call7_v0 : Ref sig .tc := ⟨.hbm, 93, rfl⟩
abbrev main_call7_v1 : Ref sig .tc := ⟨.hbm, 94, rfl⟩
abbrev main_call7_v2 : Ref sig .tc := ⟨.hbm, 95, rfl⟩
abbrev main_call7_v3 : Ref sig .tc := ⟨.hbm, 96, rfl⟩
abbrev main_call7_v4 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_20 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_21 : Ref sig .tc := ⟨.hbm, 112, rfl⟩
abbrev main_v63 : Ref sig .tc := ⟨.hbm, 113, rfl⟩
abbrev main_cst_22 : Ref sig .tc := ⟨.hbm, 114, rfl⟩
abbrev main_v64 : Ref sig .tc := ⟨.hbm, 115, rfl⟩
abbrev main_cst_23 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_24 : Ref sig .tc := ⟨.hbm, 121, rfl⟩
abbrev main_cst_25 : Ref sig .tc := ⟨.hbm, 122, rfl⟩
abbrev main_call9_v0 : Ref sig .tc := ⟨.hbm, 123, rfl⟩
abbrev main_call9_v1 : Ref sig .tc := ⟨.hbm, 124, rfl⟩
abbrev main_call9_v2 : Ref sig .tc := ⟨.hbm, 125, rfl⟩
abbrev main_call9_v3 : Ref sig .tc := ⟨.hbm, 126, rfl⟩
abbrev main_call9_v4 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_26 : Ref sig .tc := ⟨.hbm, 134, rfl⟩
abbrev main_v75 : Ref sig .tc := ⟨.hbm, 135, rfl⟩
abbrev main_cst_27 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_29 : Ref sig .tc := ⟨.hbm, 143, rfl⟩
abbrev main_cst_30 : Ref sig .tc := ⟨.hbm, 144, rfl⟩
abbrev main_call11_v0 : Ref sig .tc := ⟨.hbm, 145, rfl⟩
abbrev main_call11_v1 : Ref sig .tc := ⟨.hbm, 146, rfl⟩
abbrev main_call11_v2 : Ref sig .tc := ⟨.hbm, 147, rfl⟩
abbrev main_call11_v3 : Ref sig .tc := ⟨.hbm, 148, rfl⟩
abbrev main_call11_v4 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩

abbrev nD : Nat := 1
abbrev τ : Topo := Topo.v7x

variable {F : FTy → Type} [FloatOps F]

class Facts₀ : Prop where
  reducesTo_S4096x1024_S_d0_1 : S4096x1024.ReducesTo [0, 1] S_
  h_S_ : 0 < S_.numel
  bcast_S_S4096x1024 : S_.BroadcastsInDim S4096x1024 (![] : Fin 0 → Fin S4096x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  transposes_S4096x4096_S4096x4096_1_0 : S4096x4096.Transposes [1, 0] S4096x4096
  reducesTo_S1000x4096_S_d0_1 : S1000x4096.ReducesTo [0, 1] S_
  bcast_S_S1000x4096 : S_.BroadcastsInDim S1000x4096 (![] : Fin 0 → Fin S1000x4096.rank)
  transposes_S1000x4096_S4096x1000_1_0 : S1000x4096.Transposes [1, 0] S4096x1000
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.KR0.lean ====
/-
  Region 0 of the program (the first dense layer): a grid of 4 x 4 x 1 points. The contraction is one block, so at
  every point the body zeroes its accumulator (a scratch buffer), adds the product of the two operand blocks into
  it, and stores the accumulator plus the bias row, taken to its positive part, to the output block, which is
  written back at every point. Nothing is carried from point to point.
-/
import proofs.«135747_j2697239461893_2_alg».proof.Proof.Gen.Kernel.Launch
import proofs.«135747_j2697239461893_2_alg».proof.Proof.Gen.Kernel.Skeleton
import proofs.«135747_j2697239461893_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions hold at every point -/

abbrev condZ (i : grid0.Coords) : Prop := (Scalar.cmpi .ne (Scalar.extui (Scalar.cmpi .eq (BitVec.ofNat 32 (i 2).val) 0#32)) 0#32) = 1#1
theorem hcondZ : ∀ t : Fin cfg0.N, condZ (grid0.coords t) :=
  (by decide +kernel : ∀ t : Fin grid0.N, condZ (grid0.coords t))
abbrev condL (i : grid0.Coords) : Prop := k0_cond2 i = 1#1
theorem hcondL : ∀ t : Fin cfg0.N, condL (grid0.coords t) :=
  (by decide +kernel : ∀ t : Fin grid0.N, condL (grid0.coords t))

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev scM : Memref sig .tc .vmem S1024x1024 .f32 := Memref.whole cc0_scratch0
abbrev VO : View sig .tc .vmem S1024x1024 .f32 := (Memref.whole cc0_stg3_0 : Memref sig .tc .vmem S1024x1024 .f32).view

abbrev Rest (c : Dev nD) : sProp 𝕄 :=
  Pipeline.scopedRestBut (Ix := Unit) (Name := ℕ) (U := UR sig nD τ) (Lvl := ℕ) (Val := Elt F) spec0 c [cc0_scratch0]

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ Rest (F := F) c) :=
  Pipeline.scopedRest_split_of_list spec0 c [cc0_scratch0] (by decide) (by decide)

theorem PhiA_eq (c : Dev nD) :
    (Pipeline.ΦA spec0 c : sProp 𝕄)
      = iprop(iprop((∃ d, owns (c : Thread nD τ) scM fullShare d) ∗ Rest (F := F) c) ∗ (∃ r, prngReg c r)) := by
  unfold Pipeline.ΦA; rw [scopedRest_split]; simp only [scM, owns_whole]; try rfl

/-! ## The body on any staging buffers -/

set_option maxHeartbeats 1000000 in
/-- At every point of this region: the accumulator is zeroed, the product of the two operand blocks is added into it, and the accumulator plus the bias row is stored to the output block. -/
noncomputable def runBoth (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i)
    (x3 : Vec F S1024x1024 .bf16) (x4 : Vec F S1024x1024 .bf16) (x5 : Vec F S1x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%d6, %f6, -, H6⟩, ⟨%ds, %fs, -, HS⟩, Hk⟩
    obtain rfl := harg3.eq_unread hf3; obtain rfl := harg4.eq_unread hf4; obtain rfl := harg5.eq_unread hf5
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

theorem coverBoth (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i) (x3 : Vec F S1024x1024 .bf16) (x4 : Vec F S1024x1024 .bf16) (x5 : Vec F S1x1024 .f32) (y : S1024x1024.Idx) :
    ∃ pc ∈ (runBoth c i arg3 harg3 arg4 harg4 arg5 harg5 arg6 harg6 arg7 harg7 hz hl x3 x4 x5).1, y ∈ pc.1.set :=
  View.cover_of_tiledL (runBoth c i arg3 harg3 arg4 harg4 arg5 harg5 arg6 harg6 arg7 harg7 hz hl x3 x4 x5).1 S1024x1024.size (by sl_kernel_rfl) y
/-- The output block after a point. -/
def outBoth (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i) (x3 : Vec F S1024x1024 .bf16) (x4 : Vec F S1024x1024 .bf16) (x5 : Vec F S1x1024 .f32) : Vec F S1024x1024 .f32 :=
  VO.read (Elt F) (VO.writes (Elt F) VO.junk (runBoth c i arg3 harg3 arg4 harg4 arg5 harg5 arg6 harg6 arg7 harg7 hz hl x3 x4 x5).1)

/-! ## The region at the contents it is entered from -/

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output block's buffer holds after the body at point `t`. -/
def outAt (c : Dev nD) (t : Fin cfg0.N) : Vec F S1024x1024 .f32 :=
  outBoth c (grid0.coords t) (ms0 t) (hs0 t) (ms1 t) (hs1 t) (ms2 t) (hs2 t) (ms3 t) (hs3 t) scM (Memref.isWhole_whole _) (hcondZ t) (hcondL t) (iblk V c 0 t) (iblk V c 1 t) (iblk V c 2 t)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg0.N) : (dat V c).leavesExact 0 t = owns (c : Thread nD τ) (ms0 t) fullShare (iblk V c 0 t) := by
  unfold Dat.leavesExact; rw [live0 t, after0]
theorem leaves1 (c : Dev nD) (t : Fin cfg0.N) : (dat V c).leavesExact 1 t = owns (c : Thread nD τ) (ms1 t) fullShare (iblk V c 1 t) := by
  unfold Dat.leavesExact; rw [live1 t, after1]
theorem leaves2 (c : Dev nD) (t : Fin cfg0.N) : (dat V c).leavesExact 2 t = owns (c : Thread nD τ) (ms2 t) fullShare (iblk V c 2 t) := by
  unfold Dat.leavesExact; rw [live2 t, after2]
theorem leaves3 (c : Dev nD) (t : Fin cfg0.N) : (dat V c).leavesExact 3 t = owns (c : Thread nD τ) (ms3 t) fullShare (outAt V c t) := by
  unfold Dat.leavesExact; rw [live3 t, after3]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = Pipeline.ΦA spec0 c from rfl, show (dat V c).Φ t.castSucc = Pipeline.ΦA spec0 c from rfl]
  rw [leaves0, leaves1, leaves2, leaves3, PhiA_eq]
  unfold outAt outBoth; (try dsimp only)
  iintro ⟨⟨⟨HS, HR⟩, Hg⟩, Ho, ⟨%d0, H0⟩, ⟨%d1, H1⟩, ⟨%d2, H2⟩, ⟨%d3, H3⟩⟩
  iapply ((runBoth c (grid0.coords t) _ _ _ _ _ _ _ _ _ _ (hcondZ t) (hcondL t) (iblk V c 0 t) (iblk V c 1 t) (iblk V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverBoth c _ _ _ _ _ _ _ _ _ _ _ _ _ _ _ _)

theorem body_obligation (c : Dev nD) : BodyObligation (dat (F := F) V c) (defs₀ (F := F)) Variants.none () Set.univ := fun t => by
  rw [bigSep_W0, bigSep_W0]
  exact sound_body V c t

end Cert.Kernel.R0

end
-- ==== Proof.KR1.lean ====
/-
  Region 1 of the program (one dense layer): a grid of 4 x 4 x 4 points, the last axis the contraction's blocks.
  At a point the body adds the product of the two operand blocks into an accumulator that lives in a scratch
  buffer across the points of one output block: it is zeroed where the contraction index is 0, and where the
  index is 3 the accumulator plus the bias row, taken to its positive part, is stored to the output block, which is
  written back there and idle at the other points.  Below: the body run once per control case on any staging
  buffers; what the scratch and the output block hold after each point, by recursion on the point; the
  invariant that carries the scratch from point to point; and the body's obligation at every point.
-/
import proofs.«135747_j2697239461893_2_alg».proof.Proof.Gen.Kernel.Launch
import proofs.«135747_j2697239461893_2_alg».proof.Proof.Gen.Kernel.Skeleton
import proofs.«135747_j2697239461893_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The contraction index is 0: the accumulator is zeroed first. -/
abbrev condZ (i : grid1.Coords) : Prop := (Scalar.cmpi .ne (Scalar.extui (Scalar.cmpi .eq (BitVec.ofNat 32 (i 2).val) 0#32)) 0#32) = 1#1
theorem hcondZ : ∀ t : Fin cfg1.N, condZ (grid1.coords t) ↔ t.val % 4 = 0 :=
  (by decide +kernel : ∀ t : Fin grid1.N, condZ (grid1.coords t) ↔ t.val % 4 = 0)
/-- The contraction index is the last: the output block is stored. -/
abbrev condL (i : grid1.Coords) : Prop := k1_cond2 i = 1#1
theorem hcondL : ∀ t : Fin cfg1.N, condL (grid1.coords t) ↔ t.val % 4 = 3 :=
  (by decide +kernel : ∀ t : Fin grid1.N, condL (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last contraction index the output block is idle, -/
theorem idle3 : ∀ t : Fin cfg1.N, ¬condL (grid1.coords t) → cfg1.idle 3 (grid1.coords t) = true := by decide +kernel
/-- and not written back; -/
theorem noFlush3 : ∀ t : Fin cfg1.N, ¬condL (grid1.coords t) → (cfg1.win 3).flush t = false := by decide +kernel
/-- at the last it is live. -/
theorem live3 : ∀ t : Fin cfg1.N, condL (grid1.coords t) → cfg1.idle 3 (grid1.coords t) = false := by decide +kernel

/-! ## The staging buffers at a point, the scratch, and the invariant's scoped part -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev scM : Memref sig .tc .vmem S1024x1024 .f32 := Memref.whole cc1_scratch0
abbrev VS : View sig .tc .vmem S1024x1024 .f32 := (scM).view
/-- One staging buffer of the output window, through which its contents are stated. -/
abbrev VO : View sig .tc .vmem S1024x1024 .f32 := (Memref.whole cc1_stg3_0 : Memref sig .tc .vmem S1024x1024 .f32).view

/-- Every other scoped buffer of the core that is no staging buffer of this region, at some contents: unopened. -/
abbrev Rest (c : Dev nD) : sProp 𝕄 :=
  Pipeline.scopedRestBut (Ix := Unit) (Name := ℕ) (U := UR sig nD τ) (Lvl := ℕ) (Val := Elt F) spec1 c [cc1_scratch0]

theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest (F := F) c) :=
  Pipeline.scopedRest_split_of_list spec1 c [cc1_scratch0] (by decide) (by decide)

/-- The region's invariant before its first point: the accumulator at anything, the other scoped buffers, the
    generator register at some state. -/
theorem PhiA_eq (c : Dev nD) :
    (Pipeline.ΦA spec1 c : sProp 𝕄)
      = iprop(iprop((∃ d, owns (c : Thread nD τ) scM fullShare d) ∗ Rest (F := F) c) ∗ (∃ r, prngReg c r)) := by
  unfold Pipeline.ΦA; rw [scopedRest_split]; simp only [scM, owns_whole]; try rfl

/-! ## The body on any staging buffers, one run per control case -/

set_option maxHeartbeats 1000000 in
/-- At a point whose contraction index is 0 (and not the last): the accumulator is zeroed, then the product of the two operand blocks is added into it. The pieces the accumulator ends with are the witness the run finds. -/
noncomputable def runFirst (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg7 fullShare d)
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is neither 0 nor the last: the product of the two operand blocks is added into the accumulator the point before left. -/
noncomputable def runMid (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg7 fullShare xs
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is the last (and not 0): the product is added into the accumulator, and the accumulator plus the bias row is stored to the output block. -/
noncomputable def runLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i)
    (x3 : Vec F S1024x1024 .bf16) (x4 : Vec F S1024x1024 .bf16) (x5 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

/-! ## What each case leaves in the accumulator and in the output block -/

theorem scoverFirst (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) (y : S1024x1024.Idx) :
    ∃ pc ∈ (runFirst c i arg3 harg3 arg4 harg4 arg5 harg5 arg6 harg6 arg7 harg7 hz hl x3 x4).1, y ∈ pc.1.set :=
  View.cover_of_tiledL (runFirst c i arg3 harg3 arg4 harg4 arg5 harg5 arg6 harg6 arg7 harg7 hz hl x3 x4).1 S1024x1024.size (by sl_kernel_rfl) y
/-- The accumulator after a first point: its pieces read back. -/
def soutFirst (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) : Vec F S1024x1024 .f32 :=
  VS.read (Elt F) (VS.writes (Elt F) VS.junk (runFirst c i arg3 harg3 arg4 harg4 arg5 harg5 arg6 harg6 arg7 harg7 hz hl x3 x4).1)

theorem scoverMid (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) (y : S1024x1024.Idx) :
    ∃ pc ∈ (runMid c i arg3 harg3 arg4 harg4 arg5 harg5 arg6 harg6 arg7 harg7 hz hl x3 x4 xs).1, y ∈ pc.1.set :=
  View.cover_of_tiledL (runMid c i arg3 harg3 arg4 harg4 arg5 harg5 arg6 harg6 arg7 harg7 hz hl x3 x4 xs).1 S1024x1024.size (by sl_kernel_rfl) y
/-- The accumulator after a middle point, over what the point before left. -/
def soutMid (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) : Vec F S1024x1024 .f32 :=
  VS.read (Elt F) (VS.writes (Elt F) VS.junk (runMid c i arg3 harg3 arg4 harg4 arg5 harg5 arg6 harg6 arg7 harg7 hz hl x3 x4 xs).1)

theorem scoverLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).2.1, y ∈ pc.1.set :=
  View.cover_of_tiledL (runLast c i arg3 harg3 arg4 harg4 arg5 harg5 arg6 harg6 arg7 harg7 hz hl x3 x4 x5 xs).2.1 S1024x1024.size (by sl_kernel_rfl) y
/-- The accumulator after a last point. -/
def soutLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VS.read (Elt F) (VS.writes (Elt F) VS.junk (runLast c i arg3 harg3 arg4 harg4 arg5 harg5 arg6 harg6 arg7 harg7 hz hl x3 x4 x5 xs).2.1)
theorem coverLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).1, y ∈ pc.1.set :=
  View.cover_of_tiledL (runLast c i arg3 harg3 arg4 harg4 arg5 harg5 arg6 harg6 arg7 harg7 hz hl x3 x4 x5 xs).1 S1024x1024.size (by sl_kernel_rfl) y
/-- The output block after a last point. -/
def outLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hz hl x3 x4 x5 xs).1)

/-! ## The region at the contents it is entered from -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block's buffer (first) and the accumulator (second) hold after the body at position `n`. At a
    point where the output block is idle the first component is a placeholder nothing consults. -/
def outsAt (c : Dev nD) : (n : ℕ) → n < cfg1.N → Vec F S1024x1024 .f32 × Vec F S1024x1024 .f32
  | 0, hn => (VO.read (Elt F) VO.junk,
      soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondZ ⟨0, hn⟩).mpr (Nat.zero_mod _)) (fun h => by have := (hcondL ⟨0, hn⟩).mp h; (try dsimp only at this); omega) (iblk V c 0 ⟨0, hn⟩) (iblk V c 1 ⟨0, hn⟩))
  | n + 1, hn =>
    if h0 : (n + 1) % 4 = 0 then
      (VO.read (Elt F) VO.junk,
        soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondZ ⟨n + 1, hn⟩).mpr h0) (fun h => by have := (hcondL ⟨n + 1, hn⟩).mp h; (try dsimp only at this); omega) (iblk V c 0 ⟨n + 1, hn⟩) (iblk V c 1 ⟨n + 1, hn⟩))
    else if h3 : (n + 1) % 4 = 3 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2,
        soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2)
    else
      (VO.read (Elt F) VO.junk,
        soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) (fun h => h3 ((hcondL ⟨n + 1, hn⟩).mp h)) (iblk V c 0 ⟨n + 1, hn⟩) (iblk V c 1 ⟨n + 1, hn⟩) (outsAt c n (Nat.lt_of_succ_lt hn)).2)

/-- `outsAt` at a first point. -/
theorem outsAt_first (c : Dev nD) (t : Fin cfg1.N) (h0 : t.val % 4 = 0) (h3 : ¬t.val % 4 = 3) :
    outsAt V c t.val t.isLt = (VO.read (Elt F) VO.junk,
      soutFirst c (grid1.coords t) (ms0 t) (hs0 t) (ms1 t) (hs1 t) (ms2 t) (hs2 t) (ms3 t) (hs3 t) scM (Memref.isWhole_whole _) ((hcondZ t).mpr h0) (fun h => h3 ((hcondL t).mp h)) (iblk V c 0 t) (iblk V c 1 t)) := by
  obtain ⟨n, hn⟩ := t
  cases n with
  | zero => exact rfl
  | succ n => exact (dif_pos h0).trans rfl

/-- `outsAt` at a middle point, over what the point before left. -/
theorem outsAt_mid (c : Dev nD) (t : Fin cfg1.N) (h0 : ¬t.val % 4 = 0) (h3 : ¬t.val % 4 = 3) :
    outsAt V c t.val t.isLt = (VO.read (Elt F) VO.junk,
      soutMid c (grid1.coords t) (ms0 t) (hs0 t) (ms1 t) (hs1 t) (ms2 t) (hs2 t) (ms3 t) (hs3 t) scM (Memref.isWhole_whole _) (fun h => h0 ((hcondZ t).mp h)) (fun h => h3 ((hcondL t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- `outsAt` at a last point, over what the point before left. -/
theorem outsAt_last (c : Dev nD) (t : Fin cfg1.N) (h0 : ¬t.val % 4 = 0) (h3 : t.val % 4 = 3) :
    outsAt V c t.val t.isLt = (outLast c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2,
      soutLast c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant that carries the accumulator -/

/-- Before position `n`: at the first point the accumulator is at anything; afterwards at what the point before left. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Rest (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ Rest (F := F) c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ Rest (F := F) c) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]

/-- Each input's current staging buffer holds its block at every point, fetched there or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg1.N) : (dat V c).leavesExact 0 t = owns (c : Thread nD τ) (ms0 t) fullShare (iblk V c 0 t) := by
  unfold Dat.leavesExact; rw [live0 t, after0]
theorem leaves1 (c : Dev nD) (t : Fin cfg1.N) : (dat V c).leavesExact 1 t = owns (c : Thread nD τ) (ms1 t) fullShare (iblk V c 1 t) := by
  unfold Dat.leavesExact; rw [live1 t, after1]
theorem leaves2 (c : Dev nD) (t : Fin cfg1.N) : (dat V c).leavesExact 2 t = owns (c : Thread nD τ) (ms2 t) fullShare (iblk V c 2 t) := by
  unfold Dat.leavesExact; rw [live2 t, after2]

set_option maxHeartbeats 4800000 in
/-- The body at any point: the inputs' buffers hold their blocks; the point's contraction index says which case it is
    in; the invariant hands the body the accumulator at what the point before left (at anything at a first point) and
    takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2]
  by_cases h0 : t.val % 4 = 0
  · have h3 : ¬t.val % 4 = 3 := by omega
    rw [Dat.leavesExact_idle (dat V c) 3 t (idle3 t (fun h => h3 ((hcondL t).mp h))) (noFlush3 t (fun h => h3 ((hcondL t).mp h)))]
    rw [outsAt_first V c t h0 h3]
    unfold soutFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply ((runFirst c (grid1.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid1.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [live3 t ((hcondL t).mpr h3)], after3]
      rw [outsAt_last V c t h0 h3]
      unfold outLast soutLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid1.coords t) _ _ _ _ _ _ _ _ _ _ (fun h => h0 ((hcondZ t).mp h)) ((hcondL t).mpr h3) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scoverLast c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle3 t (fun h => h3 ((hcondL t).mp h))) (noFlush3 t (fun h => h3 ((hcondL t).mp h)))]
      rw [outsAt_mid V c t h0 h3]
      unfold soutMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid1.coords t) _ _ _ _ _ _ _ _ _ _ (fun h => h0 ((hcondZ t).mp h)) (fun h => h3 ((hcondL t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverMid c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry form back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg1.N) ⊢ Pipeline.ΦA spec1 c :=
  Phi_out V c _ (by rw [Fin.val_last]; have : cfg1.N = 64 := N_1; omega)

end Cert.Kernel.R1

end
-- ==== Proof.KR2.lean ====
/-
  Region 2 of the program (one dense layer): a grid of 4 x 1 x 4 points, the last axis the contraction's blocks.
  At a point the body adds the product of the two operand blocks into an accumulator that lives in a scratch
  buffer across the points of one output block: it is zeroed where the contraction index is 0, and where the
  index is 3 the accumulator plus the bias row is stored to the output block, which is
  written back there and idle at the other points.  Below: the body run once per control case on any staging
  buffers; what the scratch and the output block hold after each point, by recursion on the point; the
  invariant that carries the scratch from point to point; and the body's obligation at every point.
-/
import proofs.«135747_j2697239461893_2_alg».proof.Proof.Gen.Kernel.Launch
import proofs.«135747_j2697239461893_2_alg».proof.Proof.Gen.Kernel.Skeleton
import proofs.«135747_j2697239461893_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The contraction index is 0: the accumulator is zeroed first. -/
abbrev condZ (i : grid2.Coords) : Prop := (Scalar.cmpi .ne (Scalar.extui (Scalar.cmpi .eq (BitVec.ofNat 32 (i 2).val) 0#32)) 0#32) = 1#1
theorem hcondZ : ∀ t : Fin cfg2.N, condZ (grid2.coords t) ↔ t.val % 4 = 0 :=
  (by decide +kernel : ∀ t : Fin grid2.N, condZ (grid2.coords t) ↔ t.val % 4 = 0)
/-- The contraction index is the last: the output block is stored. -/
abbrev condL (i : grid2.Coords) : Prop := k2_cond2 i = 1#1
theorem hcondL : ∀ t : Fin cfg2.N, condL (grid2.coords t) ↔ t.val % 4 = 3 :=
  (by decide +kernel : ∀ t : Fin grid2.N, condL (grid2.coords t) ↔ t.val % 4 = 3)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- Away from the last contraction index the output block is idle, -/
theorem idle3 : ∀ t : Fin cfg2.N, ¬condL (grid2.coords t) → cfg2.idle 3 (grid2.coords t) = true := by decide +kernel
/-- and not written back; -/
theorem noFlush3 : ∀ t : Fin cfg2.N, ¬condL (grid2.coords t) → (cfg2.win 3).flush t = false := by decide +kernel
/-- at the last it is live. -/
theorem live3 : ∀ t : Fin cfg2.N, condL (grid2.coords t) → cfg2.idle 3 (grid2.coords t) = false := by decide +kernel

/-! ## The staging buffers at a point, the scratch, and the invariant's scoped part -/

abbrev ms0 (t : Fin cfg2.N) : Memref sig .tc .vmem S1024x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x1024 .f32 := win2_3.stage (cfg2.slots t 3)
abbrev hs3 (t : Fin cfg2.N) : (ms3 t).IsWhole := hstage2_3 ((cfg2.slots t 3).cast nbuf2_3)
/-- The accumulator: a whole scoped buffer of the kernel's own. -/
abbrev scM : Memref sig .tc .vmem S1024x1024 .f32 := Memref.whole cc2_scratch0
abbrev VS : View sig .tc .vmem S1024x1024 .f32 := (scM).view
/-- One staging buffer of the output window, through which its contents are stated. -/
abbrev VO : View sig .tc .vmem S1024x1024 .f32 := (Memref.whole cc2_stg3_0 : Memref sig .tc .vmem S1024x1024 .f32).view

/-- Every other scoped buffer of the core that is no staging buffer of this region, at some contents: unopened. -/
abbrev Rest (c : Dev nD) : sProp 𝕄 :=
  Pipeline.scopedRestBut (Ix := Unit) (Name := ℕ) (U := UR sig nD τ) (Lvl := ℕ) (Val := Elt F) spec2 c [cc2_scratch0]

theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ Rest (F := F) c) :=
  Pipeline.scopedRest_split_of_list spec2 c [cc2_scratch0] (by decide) (by decide)

/-- The region's invariant before its first point: the accumulator at anything, the other scoped buffers, the
    generator register at some state. -/
theorem PhiA_eq (c : Dev nD) :
    (Pipeline.ΦA spec2 c : sProp 𝕄)
      = iprop(iprop((∃ d, owns (c : Thread nD τ) scM fullShare d) ∗ Rest (F := F) c) ∗ (∃ r, prngReg c r)) := by
  unfold Pipeline.ΦA; rw [scopedRest_split]; simp only [scM, owns_whole]; try rfl

/-! ## The body on any staging buffers, one run per control case -/

set_option maxHeartbeats 1000000 in
/-- At a point whose contraction index is 0 (and not the last): the accumulator is zeroed, then the product of the two operand blocks is added into it. The pieces the accumulator ends with are the witness the run finds. -/
noncomputable def runFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg7 fullShare d)
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun E K => ?run⟩
  case run =>
    simp only [cc2__matmul_kernel_eq_skeleton]; unfold cc2__matmul_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is neither 0 nor the last: the product of the two operand blocks is added into the accumulator the point before left. -/
noncomputable def runMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg7 fullShare xs
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun E K => ?run⟩
  case run =>
    simp only [cc2__matmul_kernel_eq_skeleton]; unfold cc2__matmul_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is the last (and not 0): the product is added into the accumulator, and the accumulator plus the bias row is stored to the output block. -/
noncomputable def runLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i)
    (x3 : Vec F S1024x1024 .bf16) (x4 : Vec F S1024x1024 .bf16) (x5 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

/-! ## What each case leaves in the accumulator and in the output block -/

theorem scoverFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) (y : S1024x1024.Idx) :
    ∃ pc ∈ (runFirst c i arg3 harg3 arg4 harg4 arg5 harg5 arg6 harg6 arg7 harg7 hz hl x3 x4).1, y ∈ pc.1.set :=
  View.cover_of_tiledL (runFirst c i arg3 harg3 arg4 harg4 arg5 harg5 arg6 harg6 arg7 harg7 hz hl x3 x4).1 S1024x1024.size (by sl_kernel_rfl) y
/-- The accumulator after a first point: its pieces read back. -/
def soutFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) : Vec F S1024x1024 .f32 :=
  VS.read (Elt F) (VS.writes (Elt F) VS.junk (runFirst c i arg3 harg3 arg4 harg4 arg5 harg5 arg6 harg6 arg7 harg7 hz hl x3 x4).1)

theorem scoverMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) (y : S1024x1024.Idx) :
    ∃ pc ∈ (runMid c i arg3 harg3 arg4 harg4 arg5 harg5 arg6 harg6 arg7 harg7 hz hl x3 x4 xs).1, y ∈ pc.1.set :=
  View.cover_of_tiledL (runMid c i arg3 harg3 arg4 harg4 arg5 harg5 arg6 harg6 arg7 harg7 hz hl x3 x4 xs).1 S1024x1024.size (by sl_kernel_rfl) y
/-- The accumulator after a middle point, over what the point before left. -/
def soutMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) : Vec F S1024x1024 .f32 :=
  VS.read (Elt F) (VS.writes (Elt F) VS.junk (runMid c i arg3 harg3 arg4 harg4 arg5 harg5 arg6 harg6 arg7 harg7 hz hl x3 x4 xs).1)

theorem scoverLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).2.1, y ∈ pc.1.set :=
  View.cover_of_tiledL (runLast c i arg3 harg3 arg4 harg4 arg5 harg5 arg6 harg6 arg7 harg7 hz hl x3 x4 x5 xs).2.1 S1024x1024.size (by sl_kernel_rfl) y
/-- The accumulator after a last point. -/
def soutLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VS.read (Elt F) (VS.writes (Elt F) VS.junk (runLast c i arg3 harg3 arg4 harg4 arg5 harg5 arg6 harg6 arg7 harg7 hz hl x3 x4 x5 xs).2.1)
theorem coverLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).1, y ∈ pc.1.set :=
  View.cover_of_tiledL (runLast c i arg3 harg3 arg4 harg4 arg5 harg5 arg6 harg6 arg7 harg7 hz hl x3 x4 x5 xs).1 S1024x1024.size (by sl_kernel_rfl) y
/-- The output block after a last point. -/
def outLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hz hl x3 x4 x5 xs).1)

/-! ## The region at the contents it is entered from -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output block's buffer (first) and the accumulator (second) hold after the body at position `n`. At a
    point where the output block is idle the first component is a placeholder nothing consults. -/
def outsAt (c : Dev nD) : (n : ℕ) → n < cfg2.N → Vec F S1024x1024 .f32 × Vec F S1024x1024 .f32
  | 0, hn => (VO.read (Elt F) VO.junk,
      soutFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondZ ⟨0, hn⟩).mpr (Nat.zero_mod _)) (fun h => by have := (hcondL ⟨0, hn⟩).mp h; (try dsimp only at this); omega) (iblk V c 0 ⟨0, hn⟩) (iblk V c 1 ⟨0, hn⟩))
  | n + 1, hn =>
    if h0 : (n + 1) % 4 = 0 then
      (VO.read (Elt F) VO.junk,
        soutFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondZ ⟨n + 1, hn⟩).mpr h0) (fun h => by have := (hcondL ⟨n + 1, hn⟩).mp h; (try dsimp only at this); omega) (iblk V c 0 ⟨n + 1, hn⟩) (iblk V c 1 ⟨n + 1, hn⟩))
    else if h3 : (n + 1) % 4 = 3 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2,
        soutLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2)
    else
      (VO.read (Elt F) VO.junk,
        soutMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) (fun h => h3 ((hcondL ⟨n + 1, hn⟩).mp h)) (iblk V c 0 ⟨n + 1, hn⟩) (iblk V c 1 ⟨n + 1, hn⟩) (outsAt c n (Nat.lt_of_succ_lt hn)).2)

/-- `outsAt` at a first point. -/
theorem outsAt_first (c : Dev nD) (t : Fin cfg2.N) (h0 : t.val % 4 = 0) (h3 : ¬t.val % 4 = 3) :
    outsAt V c t.val t.isLt = (VO.read (Elt F) VO.junk,
      soutFirst c (grid2.coords t) (ms0 t) (hs0 t) (ms1 t) (hs1 t) (ms2 t) (hs2 t) (ms3 t) (hs3 t) scM (Memref.isWhole_whole _) ((hcondZ t).mpr h0) (fun h => h3 ((hcondL t).mp h)) (iblk V c 0 t) (iblk V c 1 t)) := by
  obtain ⟨n, hn⟩ := t
  cases n with
  | zero => exact rfl
  | succ n => exact (dif_pos h0).trans rfl

/-- `outsAt` at a middle point, over what the point before left. -/
theorem outsAt_mid (c : Dev nD) (t : Fin cfg2.N) (h0 : ¬t.val % 4 = 0) (h3 : ¬t.val % 4 = 3) :
    outsAt V c t.val t.isLt = (VO.read (Elt F) VO.junk,
      soutMid c (grid2.coords t) (ms0 t) (hs0 t) (ms1 t) (hs1 t) (ms2 t) (hs2 t) (ms3 t) (hs3 t) scM (Memref.isWhole_whole _) (fun h => h0 ((hcondZ t).mp h)) (fun h => h3 ((hcondL t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- `outsAt` at a last point, over what the point before left. -/
theorem outsAt_last (c : Dev nD) (t : Fin cfg2.N) (h0 : ¬t.val % 4 = 0) (h3 : t.val % 4 = 3) :
    outsAt V c t.val t.isLt = (outLast c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2,
      soutLast c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant that carries the accumulator -/

/-- Before position `n`: at the first point the accumulator is at anything; afterwards at what the point before left. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Rest (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Rest (F := F) c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Rest (F := F) c) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = (outsAt V c t.val t.isLt).1 := by dsimp only [dat]

/-- Each input's current staging buffer holds its block at every point, fetched there or not. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg2.N) : (dat V c).leavesExact 0 t = owns (c : Thread nD τ) (ms0 t) fullShare (iblk V c 0 t) := by
  unfold Dat.leavesExact; rw [live0 t, after0]
theorem leaves1 (c : Dev nD) (t : Fin cfg2.N) : (dat V c).leavesExact 1 t = owns (c : Thread nD τ) (ms1 t) fullShare (iblk V c 1 t) := by
  unfold Dat.leavesExact; rw [live1 t, after1]
theorem leaves2 (c : Dev nD) (t : Fin cfg2.N) : (dat V c).leavesExact 2 t = owns (c : Thread nD τ) (ms2 t) fullShare (iblk V c 2 t) := by
  unfold Dat.leavesExact; rw [live2 t, after2]

set_option maxHeartbeats 4800000 in
/-- The body at any point: the inputs' buffers hold their blocks; the point's contraction index says which case it is
    in; the invariant hands the body the accumulator at what the point before left (at anything at a first point) and
    takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2]
  by_cases h0 : t.val % 4 = 0
  · have h3 : ¬t.val % 4 = 3 := by omega
    rw [Dat.leavesExact_idle (dat V c) 3 t (idle3 t (fun h => h3 ((hcondL t).mp h))) (noFlush3 t (fun h => h3 ((hcondL t).mp h)))]
    rw [outsAt_first V c t h0 h3]
    unfold soutFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply ((runFirst c (grid2.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid2.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [live3 t ((hcondL t).mpr h3)], after3]
      rw [outsAt_last V c t h0 h3]
      unfold outLast soutLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid2.coords t) _ _ _ _ _ _ _ _ _ _ (fun h => h0 ((hcondZ t).mp h)) ((hcondL t).mpr h3) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scoverLast c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle3 t (fun h => h3 ((hcondL t).mp h))) (noFlush3 t (fun h => h3 ((hcondL t).mp h)))]
      rw [outsAt_mid V c t h0 h3]
      unfold soutMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid2.coords t) _ _ _ _ _ _ _ _ _ _ (fun h => h0 ((hcondZ t).mp h)) (fun h => h3 ((hcondL t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverMid c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry form back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg2.N) ⊢ Pipeline.ΦA spec2 c :=
  Phi_out V c _ (by rw [Fin.val_last]; have : cfg2.N = 16 := N_2; omega)

end Cert.Kernel.R2

end
-- ==== Proof.KRunA.lean ====
/-
  The program as a run: @main is 35 items, stretches of host operations around three kernel regions. Each region is
  a segment entered from every unscoped buffer at the contents the items before it leave and left with its result
  array at what its write-backs fold to; chained with the host stretches, every weakly fair execution terminates
  with every unscoped buffer at the last item's contents.
-/
import proofs.«135747_j2697239461893_2_alg».proof.Proof.RegionsKernel
import proofs.«135747_j2697239461893_2_alg».proof.Proof.KR0
import proofs.«135747_j2697239461893_2_alg».proof.Proof.KR1
import proofs.«135747_j2697239461893_2_alg».proof.Proof.KR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-- The contents each region is entered from, read at the TensorCore's references. -/
abbrev Ve0 : (c : Dev nD) → (b : Ref sig .tc) → Buf (Elt F) ((c : Thread nD τ).loc b) := fun c b => V9 m c b
abbrev Ve1 : (c : Dev nD) → (b : Ref sig .tc) → Buf (Elt F) ((c : Thread nD τ).loc b) := fun c b => V19 m outs c b
abbrev Ve2 : (c : Dev nD) → (b : Ref sig .tc) → Buf (Elt F) ((c : Thread nD τ).loc b) := fun c b => V33 m outs c b

/-- Every pipeline's proof data, each at its region's entry contents. -/
def pdats : (p : Fin 3) → (c : Dev nD) → Dat τ (Elt F) Unit ℕ (UR sig nD τ) ℕ (cfgs p) c
  | ⟨0, _⟩ => fun c => R0.dat (Ve0 m) c
  | ⟨1, _⟩ => fun c => R1.dat (Ve1 m outs) c
  | ⟨2, _⟩ => fun c => R2.dat (Ve2 m outs) c

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

/-- At region 0's exit each of its arrays holds what the pipeline leaves: the inputs as entered, the result what the
    write-backs fold to, -/
theorem hF0 (ho0 : ∀ c, outs 10 main_v23 c = (R0.dat (Ve0 m) c).arrAt 3 cfg0.N) (c : Dev nD) (w : Fin cfg0.W) :
    (pdats m outs 0 c).arrAt w cfg0.N = (fun b : Ref sig .tc => V10 m outs c b) (Pipeline.arrRef spec0 w) := by
  by_cases hw : w = 3
  · subst hw
    refine (ho0 c).symm.trans ?_
    show outs 10 main_v23 c = Function.update (V9 m c) (Proc.devRef .tc main_v23) (outs 10 main_v23 c) (Proc.devRef .tc main_v23)
    exact (Function.update_self (β := fun b : DevRef τ sig => Buf (Elt F) ((c : Thread nD τ).1, b)) _ _ _).symm
  · have hin : (cfg0.win w).isOut = false := by revert hw; revert w; decide
    have hne : Pipeline.arrRef spec0 w ∉ ([main_v23] : List (Ref sig .tc)) := by revert hw; revert w; decide
    exact ((R0.dat (Ve0 m) c).arrAt_in w hin _).trans
      ((R0.A_eq (Ve0 m) c w).trans (V10_of m outs c (Pipeline.arrRef spec0 w) hne).symm)
/-- and every other buffer what it held at entry. -/
theorem hrest0 (c : Dev nD) : ∀ b : Ref sig .tc, b ∉ Finset.univ.image (Pipeline.arrRef spec0) → (fun b : Ref sig .tc => V10 m outs c b) b = Ve0 m c b :=
  fun b hb => V10_of m outs c b (by
    intro hmem
    rw [List.mem_singleton] at hmem
    exact hb (Finset.mem_image.mpr ⟨3, Finset.mem_univ _, hmem.symm⟩))

/-- At region 1's exit each of its arrays holds what the pipeline leaves: the inputs as entered, the result what the
    write-backs fold to, -/
theorem hF1 (ho1 : ∀ c, outs 20 main_v47 c = (R1.dat (Ve1 m outs) c).arrAt 3 cfg1.N) (c : Dev nD) (w : Fin cfg1.W) :
    (pdats m outs 1 c).arrAt w cfg1.N = (fun b : Ref sig .tc => V20 m outs c b) (Pipeline.arrRef spec1 w) := by
  by_cases hw : w = 3
  · subst hw
    refine (ho1 c).symm.trans ?_
    show outs 20 main_v47 c = Function.update (V19 m outs c) (Proc.devRef .tc main_v47) (outs 20 main_v47 c) (Proc.devRef .tc main_v47)
    exact (Function.update_self (β := fun b : DevRef τ sig => Buf (Elt F) ((c : Thread nD τ).1, b)) _ _ _).symm
  · have hin : (cfg1.win w).isOut = false := by revert hw; revert w; decide
    have hne : Pipeline.arrRef spec1 w ∉ ([main_v47] : List (Ref sig .tc)) := by revert hw; revert w; decide
    exact ((R1.dat (Ve1 m outs) c).arrAt_in w hin _).trans
      ((R1.A_eq (Ve1 m outs) c w).trans (V20_of m outs c (Pipeline.arrRef spec1 w) hne).symm)
/-- and every other buffer what it held at entry. -/
theorem hrest1 (c : Dev nD) : ∀ b : Ref sig .tc, b ∉ Finset.univ.image (Pipeline.arrRef spec1) → (fun b : Ref sig .tc => V20 m outs c b) b = Ve1 m outs c b :=
  fun b hb => V20_of m outs c b (by
    intro hmem
    rw [List.mem_singleton] at hmem
    exact hb (Finset.mem_image.mpr ⟨3, Finset.mem_univ _, hmem.symm⟩))

/-- At region 2's exit each of its arrays holds what the pipeline leaves: the inputs as entered, the result what the
    write-backs fold to, -/
theorem hF2 (ho2 : ∀ c, outs 34 main_v73 c = (R2.dat (Ve2 m outs) c).arrAt 3 cfg2.N) (c : Dev nD) (w : Fin cfg2.W) :
    (pdats m outs 2 c).arrAt w cfg2.N = (fun b : Ref sig .tc => V34 m outs c b) (Pipeline.arrRef spec2 w) := by
  by_cases hw : w = 3
  · subst hw
    refine (ho2 c).symm.trans ?_
    show outs 34 main_v73 c = Function.update (V33 m outs c) (Proc.devRef .tc main_v73) (outs 34 main_v73 c) (Proc.devRef .tc main_v73)
    exact (Function.update_self (β := fun b : DevRef τ sig => Buf (Elt F) ((c : Thread nD τ).1, b)) _ _ _).symm
  · have hin : (cfg2.win w).isOut = false := by revert hw; revert w; decide
    have hne : Pipeline.arrRef spec2 w ∉ ([main_v73] : List (Ref sig .tc)) := by revert hw; revert w; decide
    exact ((R2.dat (Ve2 m outs) c).arrAt_in w hin _).trans
      ((R2.A_eq (Ve2 m outs) c w).trans (V34_of m outs c (Pipeline.arrRef spec2 w) hne).symm)
/-- and every other buffer what it held at entry. -/
theorem hrest2 (c : Dev nD) : ∀ b : Ref sig .tc, b ∉ Finset.univ.image (Pipeline.arrRef spec2) → (fun b : Ref sig .tc => V34 m outs c b) b = Ve2 m outs c b :=
  fun b hb => V34_of m outs c b (by
    intro hmem
    rw [List.mem_singleton] at hmem
    exact hb (Finset.mem_image.mpr ⟨3, Finset.mem_univ _, hmem.symm⟩))

-- a library lemma stated over the pinned configuration unifies with the printed one only when unification may
-- unfold plain definitions in a metavariable's type
set_option backward.isDefEq.respectTransparency.types false in
/-- Region 0 over the thread state: entered from every unscoped buffer at `V9 m`, left at `V10 m outs`. Its arrays
    are split out of the unscoped buffers and put back at the exit contents; the generator register goes into the
    region's invariant and comes back; nothing is owed; the kernel has no semaphore of its own. -/
def reg0 (ho0 : ∀ c, outs 10 main_v23 c = (R0.dat (Ve0 m) c).arrAt 3 cfg0.N) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Ve0 m) c).loose
  hwaits := Pipeline.hwaits_of_owed_zero _ _ _ _ L lv 0 fun _ _ => rfl
  pre c := iprop(StableHlo.held (c : Thread nD τ) (Pipeline.ucRefs τ sig) (V9 m c) ∗ Rr c)
  post c := iprop(StableHlo.held (c : Thread nD τ) (Pipeline.ucRefs τ sig) (V10 m outs c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (show (pdats m outs 0 c).Φ (Fin.last _) ⊢ Pipeline.ΦA spec0 c from BIBase.Entails.rfl) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Ve0 m c) (fun b => V10 m outs c b) ((pdats m outs 0 c).arrAt · cfg0.N) (hF0 m outs ho0 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `V19 m outs`, left at `V20 m outs`. Its arrays
    are split out of the unscoped buffers and put back at the exit contents; the generator register goes into the
    region's invariant and comes back; nothing is owed; the kernel has no semaphore of its own. -/
def reg1 (ho1 : ∀ c, outs 20 main_v47 c = (R1.dat (Ve1 m outs) c).arrAt 3 cfg1.N) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (Ve1 m outs) c).loose
  hwaits := Pipeline.hwaits_of_owed_zero _ _ _ _ L lv 1 fun _ _ => rfl
  pre c := iprop(StableHlo.held (c : Thread nD τ) (Pipeline.ucRefs τ sig) (V19 m outs c) ∗ Rr c)
  post c := iprop(StableHlo.held (c : Thread nD τ) (Pipeline.ucRefs τ sig) (V20 m outs c) ∗ Rr c)
  X c := iprop(∃ r, prngReg c r)
  Y c := iprop(∃ r, prngReg c r)
  Z c := Pipeline.unscopedRest (Ix := Unit) (Name := ℕ) (U := UR sig nD τ) (Lvl := ℕ) spec1 c (Ve1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Ve1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (show (pdats m outs 1 c).Φ (Fin.last _) ⊢ Pipeline.ΦA spec1 c from R1.hout (Ve1 m outs) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Ve1 m outs c) (fun b => V20 m outs c b) ((pdats m outs 1 c).arrAt · cfg1.N) (hF1 m outs ho1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `V33 m outs`, left at `V34 m outs`. Its arrays
    are split out of the unscoped buffers and put back at the exit contents; the generator register goes into the
    region's invariant and comes back; nothing is owed; the kernel has no semaphore of its own. -/
def reg2 (ho2 : ∀ c, outs 34 main_v73 c = (R2.dat (Ve2 m outs) c).arrAt 3 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (Ve2 m outs) c).loose
  hwaits := Pipeline.hwaits_of_owed_zero _ _ _ _ L lv 2 fun _ _ => rfl
  pre c := iprop(StableHlo.held (c : Thread nD τ) (Pipeline.ucRefs τ sig) (V33 m outs c) ∗ Rr c)
  post c := iprop(StableHlo.held (c : Thread nD τ) (Pipeline.ucRefs τ sig) (V34 m outs c) ∗ Rr c)
  X c := iprop(∃ r, prngReg c r)
  Y c := iprop(∃ r, prngReg c r)
  Z c := Pipeline.unscopedRest (Ix := Unit) (Name := ℕ) (U := UR sig nD τ) (Lvl := ℕ) spec2 c (Ve2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Ve2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    refine BIBase.Entails.trans (show (pdats m outs 2 c).Φ (Fin.last _) ⊢ Pipeline.ΦA spec2 c from R2.hout (Ve2 m outs) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Ve2 m outs c) (fun b => V34 m outs c b) ((pdats m outs 2 c).arrAt · cfg2.N) (hF2 m outs ho2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The launch's ghost element is the pipeline library's, with nothing else dealt. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

-- the library theorem's implicit arguments are found by unifying its conclusion with this one, which takes unfolding
-- plain definitions in a metavariable's type
set_option backward.isDefEq.respectTransparency.types false in
/-- Every weakly fair execution of @main from memory `m` with zero counters terminates, and every final memory holds
    every unscoped buffer at the last item's contents — given that `outs` names what each region's write-backs fold to. -/
theorem run_all (ho0 : ∀ c, outs 10 main_v23 c = (R0.dat (Ve0 m) c).arrAt 3 cfg0.N)
    (ho1 : ∀ c, outs 20 main_v47 c = (R1.dat (Ve1 m outs) c).arrAt 3 cfg1.N)
    (ho2 : ∀ c, outs 34 main_v73 c = (R2.dat (Ve2 m outs) c).arrAt 3 cfg2.N) :
    θ_run defs (onTc (τ := τ) (main (F := F))) ⟨m, fun _ => 0, ρ⟩ (fun r => ∀ c : Dev nD,
      ∀ b ∈ Pipeline.ucRefs τ sig, r.2.mem ((c : Thread nD τ).1, b) = V35 m outs c b) :=
  Pipeline.θ_run_regions_kit_dev (pcfgs (F := F)) adm (pdats m outs) () cellOf_inj emb₁ defs₀ 𝒱₀ L lv m ρ main
    (segs m outs 𝒱₀ L lv (fun _ => Rr) () (pdats m outs) (reg0 m outs ho0) (reg1 m outs ho1) (reg2 m outs ho2))
    (fun c Q => by rw [main_chain c, Pipeline.Seg.run_eq_chain]; exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (V0 m c) ∗ Rr c))
    (Tₙ := fun c => StableHlo.held (c : Thread nD τ) (Pipeline.ucRefs τ sig) (V35 m outs c))
    (hch := fun c => ⟨.rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, .rfl,
      sep_mono .rfl (show (Rr c : sProp 𝕄) ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V35 m outs c b)
    (hfin := fun c s' => by
      iintro ⟨Hh, HSI⟩
      unfold StableHlo.held
      imodintro
      iapply (pointsTo_read_all (Pipeline.ucRefs τ sig) (fun b => ((c : Thread nD τ).1, b)) (V35 m outs c) s')
      isplitl [Hh] <;> iassumption)
    (hQ := fun _ h => h)

end Cert.Kernel.Run

end
-- ==== Proof.KRunB.lean ====
/-
  What the three regions leave, named: the unknown contents the program's boundary valuations are written over are
  chosen here, one region after the other, as what each region's write-backs fold to; each later region's entry
  contents depend on the earlier choices only through the earlier regions' result buffers.
-/
import proofs.«135747_j2697239461893_2_alg».proof.Proof.KRunA

set_option maxRecDepth 16384

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Contents for the three result buffers, every other reference at its launch contents (never read). -/
def outsOf (o10 : (c : Dev nD) → Buf (Elt F) ((c : Thread nD τ).loc main_v23)) (o20 : (c : Dev nD) → Buf (Elt F) ((c : Thread nD τ).loc main_v47))
    (o34 : (c : Dev nD) → Buf (Elt F) ((c : Thread nD τ).loc main_v73)) : Outs (F := F) :=
  fun _ r c =>
    if h : r = main_v23 then h ▸ o10 c
    else if h : r = main_v47 then h ▸ o20 c
    else if h : r = main_v73 then h ▸ o34 c
    else m ((c : Thread nD τ).loc r)

theorem outsOf_23 (o10 o20 o34) (n : ℕ) (c : Dev nD) : outsOf m o10 o20 o34 n main_v23 c = o10 c := by
  unfold outsOf; rw [dif_pos rfl]
theorem outsOf_47 (o10 o20 o34) (n : ℕ) (c : Dev nD) : outsOf m o10 o20 o34 n main_v47 c = o20 c := by
  unfold outsOf; rw [dif_neg (by decide), dif_pos rfl]
theorem outsOf_73 (o10 o20 o34) (n : ℕ) (c : Dev nD) : outsOf m o10 o20 o34 n main_v73 c = o34 c := by
  unfold outsOf; rw [dif_neg (by decide), dif_neg (by decide), dif_pos rfl]

/-- Region 1's entry contents depend on the unknowns only through region 0's result buffer, -/
theorem V19_congr (o o' : Outs (F := F)) (c : Dev nD) (h : o 10 main_v23 c = o' 10 main_v23 c) : V19 m o c = V19 m o' c := by
  dsimp only [V19, V18, V17, V16, V15, V14, V13, V12, V11, V10]; rw [h]
/-- and region 2's through regions 0's and 1's. -/
theorem V33_congr (o o' : Outs (F := F)) (c : Dev nD) (h : o 10 main_v23 c = o' 10 main_v23 c) (h' : o 20 main_v47 c = o' 20 main_v47 c) :
    V33 m o c = V33 m o' c := by
  dsimp only [V33, V32, V31, V30, V29, V28, V27, V26, V25, V24, V23, V22, V21, V20, V19, V18, V17, V16, V15, V14, V13, V12, V11, V10]; rw [h, h']

/-- What region 0 leaves in its result buffer. -/
def O10 (c : Dev nD) : Buf (Elt F) ((c : Thread nD τ).loc main_v23) := (R0.dat (Ve0 m) c).arrAt 3 cfg0.N
/-- What region 1 leaves, entered after region 0. -/
def O20 (c : Dev nD) : Buf (Elt F) ((c : Thread nD τ).loc main_v47) :=
  (R1.dat (Ve1 m (outsOf m (O10 m) (fun c => m ((c : Thread nD τ).loc main_v47)) (fun c => m ((c : Thread nD τ).loc main_v73)))) c).arrAt 3 cfg1.N
/-- What region 2 leaves, entered after regions 0 and 1. -/
def O34 (c : Dev nD) : Buf (Elt F) ((c : Thread nD τ).loc main_v73) :=
  (R2.dat (Ve2 m (outsOf m (O10 m) (O20 m) (fun c => m ((c : Thread nD τ).loc main_v73)))) c).arrAt 3 cfg2.N
/-- The three together. -/
def theOuts : Outs (F := F) := outsOf m (O10 m) (O20 m) (O34 m)

theorem ho0 (c : Dev nD) : theOuts m 10 main_v23 c = (R0.dat (Ve0 m) c).arrAt 3 cfg0.N := outsOf_23 m _ _ _ 10 c
theorem ho1 (c : Dev nD) : theOuts m 20 main_v47 c = (R1.dat (Ve1 m (theOuts m)) c).arrAt 3 cfg1.N := by
  refine (outsOf_47 m _ _ _ 20 c).trans ?_
  unfold O20
  have e : Ve1 m (outsOf m (O10 m) (fun c => m ((c : Thread nD τ).loc main_v47)) (fun c => m ((c : Thread nD τ).loc main_v73))) = Ve1 m (theOuts m) := by
    funext c' b
    exact congrFun (V19_congr m _ _ c' ((outsOf_23 m _ _ _ 10 c').trans (outsOf_23 m _ _ _ 10 c').symm)) _
  rw [e]
theorem ho2 (c : Dev nD) : theOuts m 34 main_v73 c = (R2.dat (Ve2 m (theOuts m)) c).arrAt 3 cfg2.N := by
  refine (outsOf_73 m _ _ _ 34 c).trans ?_
  unfold O34
  have e : Ve2 m (outsOf m (O10 m) (O20 m) (fun c => m ((c : Thread nD τ).loc main_v73))) = Ve2 m (theOuts m) := by
    funext c' b
    exact congrFun (V33_congr m _ _ c' ((outsOf_23 m _ _ _ 10 c').trans (outsOf_23 m _ _ _ 10 c').symm)
      ((outsOf_47 m _ _ _ 20 c').trans (outsOf_47 m _ _ _ 20 c').symm)) _
  rw [e]

/-- The program's run with the regions' results named. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V35 m (theOuts m) c b) :=
  run_all m ρ (theOuts m) (ho0 m) (ho1 m) (ho2 m)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c (Proc.devRef .tc main_arg0) (Finset.mem_filter.mpr ⟨StableHlo.devRef_mem_tcRefs main_arg0, by decide⟩)).trans (V35_main_arg0 m (theOuts m) c),
     (h c (Proc.devRef .tc main_arg1) (Finset.mem_filter.mpr ⟨StableHlo.devRef_mem_tcRefs main_arg1, by decide⟩)).trans (V35_main_arg1 m (theOuts m) c),
     (h c (Proc.devRef .tc main_arg2) (Finset.mem_filter.mpr ⟨StableHlo.devRef_mem_tcRefs main_arg2, by decide⟩)).trans (V35_main_arg2 m (theOuts m) c),
     (h c (Proc.devRef .tc main_arg3) (Finset.mem_filter.mpr ⟨StableHlo.devRef_mem_tcRefs main_arg3, by decide⟩)).trans (V35_main_arg3 m (theOuts m) c),
     (h c (Proc.devRef .tc main_arg4) (Finset.mem_filter.mpr ⟨StableHlo.devRef_mem_tcRefs main_arg4, by decide⟩)).trans (V35_main_arg4 m (theOuts m) c),
     (h c (Proc.devRef .tc main_arg5) (Finset.mem_filter.mpr ⟨StableHlo.devRef_mem_tcRefs main_arg5, by decide⟩)).trans (V35_main_arg5 m (theOuts m) c),
     (h c (Proc.devRef .tc main_arg6) (Finset.mem_filter.mpr ⟨StableHlo.devRef_mem_tcRefs main_arg6, by decide⟩)).trans (V35_main_arg6 m (theOuts m) c)⟩)
    (run m ρ)

end Cert.Kernel.Run

end
-- ==== Proof.R0.lean ====
/-
  Region 0 of the program (the first dense layer): a grid of 4 x 4 x 1 points. The contraction is one block, so at
  every point the body zeroes its accumulator (a scratch buffer), adds the product of the two operand blocks into
  it, and stores the accumulator plus the bias row, taken to its positive part, to the output block, which is
  written back at every point. Nothing is carried from point to point.
-/
import proofs.«135747_j2697239461893_2_alg».proof.Proof.Gen.KernelIdeal.Launch
import proofs.«135747_j2697239461893_2_alg».proof.Proof.Gen.KernelIdeal.Skeleton
import proofs.«135747_j2697239461893_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions hold at every point -/

abbrev condZ (i : grid0.Coords) : Prop := (Scalar.cmpi .ne (Scalar.extui (Scalar.cmpi .eq (BitVec.ofNat 32 (i 2).val) 0#32)) 0#32) = 1#1
theorem hcondZ : ∀ t : Fin cfg0.N, condZ (grid0.coords t) :=
  (by decide +kernel : ∀ t : Fin grid0.N, condZ (grid0.coords t))
abbrev condL (i : grid0.Coords) : Prop := k0_cond2 i = 1#1
theorem hcondL : ∀ t : Fin cfg0.N, condL (grid0.coords t) :=
  (by decide +kernel : ∀ t : Fin grid0.N, condL (grid0.coords t))

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev scM : Memref sig .tc .vmem S1024x1024 .f32 := Memref.whole cc0_scratch0
abbrev VO : View sig .tc .vmem S1024x1024 .f32 := (Memref.whole cc0_stg3_0 : Memref sig .tc .vmem S1024x1024 .f32).view

abbrev Rest (c : Dev nD) : sProp 𝕄 :=
  Pipeline.scopedRestBut (Ix := Unit) (Name := ℕ) (U := UR sig nD τ) (Lvl := ℕ) (Val := Elt F) spec0 c [cc0_scratch0]

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ Rest (F := F) c) :=
  Pipeline.scopedRest_split_of_list spec0 c [cc0_scratch0] (by decide) (by decide)

theorem PhiA_eq (c : Dev nD) :
    (Pipeline.ΦA spec0 c : sProp 𝕄)
      = iprop(iprop((∃ d, owns (c : Thread nD τ) scM fullShare d) ∗ Rest (F := F) c) ∗ (∃ r, prngReg c r)) := by
  unfold Pipeline.ΦA; rw [scopedRest_split]; simp only [scM, owns_whole]; try rfl

/-! ## The body on any staging buffers -/

set_option maxHeartbeats 1000000 in
/-- At every point of this region: the accumulator is zeroed, the product of the two operand blocks is added into it, and the accumulator plus the bias row is stored to the output block. -/
noncomputable def runBoth (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i)
    (x3 : Vec F S1024x1024 .bf16) (x4 : Vec F S1024x1024 .bf16) (x5 : Vec F S1x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f3, %hf3, H3⟩, ⟨%f4, %hf4, H4⟩, ⟨%f5, %hf5, H5⟩, ⟨%d6, %f6, -, H6⟩, ⟨%ds, %fs, -, HS⟩, Hk⟩
    obtain rfl := harg3.eq_unread hf3; obtain rfl := harg4.eq_unread hf4; obtain rfl := harg5.eq_unread hf5
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

theorem coverBoth (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i) (x3 : Vec F S1024x1024 .bf16) (x4 : Vec F S1024x1024 .bf16) (x5 : Vec F S1x1024 .f32) (y : S1024x1024.Idx) :
    ∃ pc ∈ (runBoth c i arg3 harg3 arg4 harg4 arg5 harg5 arg6 harg6 arg7 harg7 hz hl x3 x4 x5).1, y ∈ pc.1.set :=
  View.cover_of_tiledL (runBoth c i arg3 harg3 arg4 harg4 arg5 harg5 arg6 harg6 arg7 harg7 hz hl x3 x4 x5).1 S1024x1024.size (by sl_kernel_rfl) y
/-- The output block after a point. -/
def outBoth (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i) (x3 : Vec F S1024x1024 .bf16) (x4 : Vec F S1024x1024 .bf16) (x5 : Vec F S1x1024 .f32) : Vec F S1024x1024 .f32 :=
  VO.read (Elt F) (VO.writes (Elt F) VO.junk (runBoth c i arg3 harg3 arg4 harg4 arg5 harg5 arg6 harg6 arg7 harg7 hz hl x3 x4 x5).1)

/-! ## The region at the contents it is entered from -/

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output block's buffer holds after the body at point `t`. -/
def outAt (c : Dev nD) (t : Fin cfg0.N) : Vec F S1024x1024 .f32 :=
  outBoth c (grid0.coords t) (ms0 t) (hs0 t) (ms1 t) (hs1 t) (ms2 t) (hs2 t) (ms3 t) (hs3 t) scM (Memref.isWhole_whole _) (hcondZ t) (hcondL t) (iblk V c 0 t) (iblk V c 1 t) (iblk V c 2 t)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg0.N) : (dat V c).leavesExact 0 t = owns (c : Thread nD τ) (ms0 t) fullShare (iblk V c 0 t) := by
  unfold Dat.leavesExact; rw [live0 t, after0]
theorem leaves1 (c : Dev nD) (t : Fin cfg0.N) : (dat V c).leavesExact 1 t = owns (c : Thread nD τ) (ms1 t) fullShare (iblk V c 1 t) := by
  unfold Dat.leavesExact; rw [live1 t, after1]
theorem leaves2 (c : Dev nD) (t : Fin cfg0.N) : (dat V c).leavesExact 2 t = owns (c : Thread nD τ) (ms2 t) fullShare (iblk V c 2 t) := by
  unfold Dat.leavesExact; rw [live2 t, after2]
theorem leaves3 (c : Dev nD) (t : Fin cfg0.N) : (dat V c).leavesExact 3 t = owns (c : Thread nD τ) (ms3 t) fullShare (outAt V c t) := by
  unfold Dat.leavesExact; rw [live3 t, after3]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = Pipeline.ΦA spec0 c from rfl, show (dat V c).Φ t.castSucc = Pipeline.ΦA spec0 c from rfl]
  rw [leaves0, leaves1, leaves2, leaves3, PhiA_eq]
  unfold outAt outBoth; (try dsimp only)
  iintro ⟨⟨⟨HS, HR⟩, Hg⟩, Ho, ⟨%d0, H0⟩, ⟨%d1, H1⟩, ⟨%d2, H2⟩, ⟨%d3, H3⟩⟩
  iapply ((runBoth c (grid0.coords t) _ _ _ _ _ _ _ _ _ _ (hcondZ t) (hcondL t) (iblk V c 0 t) (iblk V c 1 t) (iblk V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverBoth c _ _ _ _ _ _ _ _ _ _ _ _ _ _ _ _)

theorem body_obligation (c : Dev nD) : BodyObligation (dat (F := F) V c) (defs₀ (F := F)) Variants.none () Set.univ := fun t => by
  rw [bigSep_W0, bigSep_W0]
  exact sound_body V c t

end Cert.KernelIdeal.R0

end
-- ==== Proof.R1.lean ====
/-
  Region 1 of the program (one dense layer): a grid of 4 x 4 x 4 points, the last axis the contraction's blocks.
  At a point the body adds the product of the two operand blocks into an accumulator that lives in a scratch
  buffer across the points of one output block: it is zeroed where the contraction index is 0, and where the
  index is 3 the accumulator plus the bias row, taken to its positive part, is stored to the output block, which is
  written back there and idle at the other points.  Below: the body run once per control case on any staging
  buffers; what the scratch and the output block hold after each point, by recursion on the point; the
  invariant that carries the scratch from point to point; and the body's obligation at every point.
-/
import proofs.«135747_j2697239461893_2_alg».proof.Proof.Gen.KernelIdeal.Launch
import proofs.«135747_j2697239461893_2_alg».proof.Proof.Gen.KernelIdeal.Skeleton
import proofs.«135747_j2697239461893_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The contraction index is 0: the accumulator is zeroed first. -/
abbrev condZ (i : grid1.Coords) : Prop := (Scalar.cmpi .ne (Scalar.extui (Scalar.cmpi .eq (BitVec.ofNat 32 (i 2).val) 0#32)) 0#32) = 1#1
theorem hcondZ : ∀ t : Fin cfg1.N, condZ (grid1.coords t) ↔ t.val % 4 = 0 :=
  (by decide +kernel : ∀ t : Fin grid1.N, condZ (grid1.coords t) ↔ t.val % 4 = 0)
/-- The contraction index is the last: the output block is stored. -/
abbrev condL (i : grid1.Coords) : Prop := k1_cond2 i = 1#1
theorem hcondL : ∀ t : Fin cfg1.N, condL (grid1.coords t) ↔ t.val % 4 = 3 :=
  (by decide +kernel : ∀ t : Fin grid1.N, condL (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last contraction index the output block is idle, -/
theorem idle3 : ∀ t : Fin cfg1.N, ¬condL (grid1.coords t) → cfg1.idle 3 (grid1.coords t) = true := by decide +kernel
/-- and not written back; -/
theorem noFlush3 : ∀ t : Fin cfg1.N, ¬condL (grid1.coords t) → (cfg1.win 3).flush t = false := by decide +kernel
/-- at the last it is live. -/
theorem live3 : ∀ t : Fin cfg1.N, condL (grid1.coords t) → cfg1.idle 3 (grid1.coords t) = false := by decide +kernel

/-! ## The staging buffers at a point, the scratch, and the invariant's scoped part -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev scM : Memref sig .tc .vmem S1024x1024 .f32 := Memref.whole cc1_scratch0
abbrev VS : View sig .tc .vmem S1024x1024 .f32 := (scM).view
/-- One staging buffer of the output window, through which its contents are stated. -/
abbrev VO : View sig .tc .vmem S1024x1024 .f32 := (Memref.whole cc1_stg3_0 : Memref sig .tc .vmem S1024x1024 .f32).view

/-- Every other scoped buffer of the core that is no staging buffer of this region, at some contents: unopened. -/
abbrev Rest (c : Dev nD) : sProp 𝕄 :=
  Pipeline.scopedRestBut (Ix := Unit) (Name := ℕ) (U := UR sig nD τ) (Lvl := ℕ) (Val := Elt F) spec1 c [cc1_scratch0]

theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest (F := F) c) :=
  Pipeline.scopedRest_split_of_list spec1 c [cc1_scratch0] (by decide) (by decide)

/-- The region's invariant before its first point: the accumulator at anything, the other scoped buffers, the
    generator register at some state. -/
theorem PhiA_eq (c : Dev nD) :
    (Pipeline.ΦA spec1 c : sProp 𝕄)
      = iprop(iprop((∃ d, owns (c : Thread nD τ) scM fullShare d) ∗ Rest (F := F) c) ∗ (∃ r, prngReg c r)) := by
  unfold Pipeline.ΦA; rw [scopedRest_split]; simp only [scM, owns_whole]; try rfl

/-! ## The body on any staging buffers, one run per control case -/

set_option maxHeartbeats 1000000 in
/-- At a point whose contraction index is 0 (and not the last): the accumulator is zeroed, then the product of the two operand blocks is added into it. The pieces the accumulator ends with are the witness the run finds. -/
noncomputable def runFirst (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg7 fullShare d)
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is neither 0 nor the last: the product of the two operand blocks is added into the accumulator the point before left. -/
noncomputable def runMid (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg7 fullShare xs
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is the last (and not 0): the product is added into the accumulator, and the accumulator plus the bias row is stored to the output block. -/
noncomputable def runLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i)
    (x3 : Vec F S1024x1024 .bf16) (x4 : Vec F S1024x1024 .bf16) (x5 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

/-! ## What each case leaves in the accumulator and in the output block -/

theorem scoverFirst (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) (y : S1024x1024.Idx) :
    ∃ pc ∈ (runFirst c i arg3 harg3 arg4 harg4 arg5 harg5 arg6 harg6 arg7 harg7 hz hl x3 x4).1, y ∈ pc.1.set :=
  View.cover_of_tiledL (runFirst c i arg3 harg3 arg4 harg4 arg5 harg5 arg6 harg6 arg7 harg7 hz hl x3 x4).1 S1024x1024.size (by sl_kernel_rfl) y
/-- The accumulator after a first point: its pieces read back. -/
def soutFirst (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) : Vec F S1024x1024 .f32 :=
  VS.read (Elt F) (VS.writes (Elt F) VS.junk (runFirst c i arg3 harg3 arg4 harg4 arg5 harg5 arg6 harg6 arg7 harg7 hz hl x3 x4).1)

theorem scoverMid (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) (y : S1024x1024.Idx) :
    ∃ pc ∈ (runMid c i arg3 harg3 arg4 harg4 arg5 harg5 arg6 harg6 arg7 harg7 hz hl x3 x4 xs).1, y ∈ pc.1.set :=
  View.cover_of_tiledL (runMid c i arg3 harg3 arg4 harg4 arg5 harg5 arg6 harg6 arg7 harg7 hz hl x3 x4 xs).1 S1024x1024.size (by sl_kernel_rfl) y
/-- The accumulator after a middle point, over what the point before left. -/
def soutMid (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) : Vec F S1024x1024 .f32 :=
  VS.read (Elt F) (VS.writes (Elt F) VS.junk (runMid c i arg3 harg3 arg4 harg4 arg5 harg5 arg6 harg6 arg7 harg7 hz hl x3 x4 xs).1)

theorem scoverLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).2.1, y ∈ pc.1.set :=
  View.cover_of_tiledL (runLast c i arg3 harg3 arg4 harg4 arg5 harg5 arg6 harg6 arg7 harg7 hz hl x3 x4 x5 xs).2.1 S1024x1024.size (by sl_kernel_rfl) y
/-- The accumulator after a last point. -/
def soutLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VS.read (Elt F) (VS.writes (Elt F) VS.junk (runLast c i arg3 harg3 arg4 harg4 arg5 harg5 arg6 harg6 arg7 harg7 hz hl x3 x4 x5 xs).2.1)
theorem coverLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).1, y ∈ pc.1.set :=
  View.cover_of_tiledL (runLast c i arg3 harg3 arg4 harg4 arg5 harg5 arg6 harg6 arg7 harg7 hz hl x3 x4 x5 xs).1 S1024x1024.size (by sl_kernel_rfl) y
/-- The output block after a last point. -/
def outLast (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hz hl x3 x4 x5 xs).1)

/-! ## The region at the contents it is entered from -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block's buffer (first) and the accumulator (second) hold after the body at position `n`. At a
    point where the output block is idle the first component is a placeholder nothing consults. -/
def outsAt (c : Dev nD) : (n : ℕ) → n < cfg1.N → Vec F S1024x1024 .f32 × Vec F S1024x1024 .f32
  | 0, hn => (VO.read (Elt F) VO.junk,
      soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondZ ⟨0, hn⟩).mpr (Nat.zero_mod _)) (fun h => by have := (hcondL ⟨0, hn⟩).mp h; (try dsimp only at this); omega) (iblk V c 0 ⟨0, hn⟩) (iblk V c 1 ⟨0, hn⟩))
  | n + 1, hn =>
    if h0 : (n + 1) % 4 = 0 then
      (VO.read (Elt F) VO.junk,
        soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondZ ⟨n + 1, hn⟩).mpr h0) (fun h => by have := (hcondL ⟨n + 1, hn⟩).mp h; (try dsimp only at this); omega) (iblk V c 0 ⟨n + 1, hn⟩) (iblk V c 1 ⟨n + 1, hn⟩))
    else if h3 : (n + 1) % 4 = 3 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2,
        soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2)
    else
      (VO.read (Elt F) VO.junk,
        soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) (fun h => h3 ((hcondL ⟨n + 1, hn⟩).mp h)) (iblk V c 0 ⟨n + 1, hn⟩) (iblk V c 1 ⟨n + 1, hn⟩) (outsAt c n (Nat.lt_of_succ_lt hn)).2)

/-- `outsAt` at a first point. -/
theorem outsAt_first (c : Dev nD) (t : Fin cfg1.N) (h0 : t.val % 4 = 0) (h3 : ¬t.val % 4 = 3) :
    outsAt V c t.val t.isLt = (VO.read (Elt F) VO.junk,
      soutFirst c (grid1.coords t) (ms0 t) (hs0 t) (ms1 t) (hs1 t) (ms2 t) (hs2 t) (ms3 t) (hs3 t) scM (Memref.isWhole_whole _) ((hcondZ t).mpr h0) (fun h => h3 ((hcondL t).mp h)) (iblk V c 0 t) (iblk V c 1 t)) := by
  obtain ⟨n, hn⟩ := t
  cases n with
  | zero => exact rfl
  | succ n => exact (dif_pos h0).trans rfl

/-- `outsAt` at a middle point, over what the point before left. -/
theorem outsAt_mid (c : Dev nD) (t : Fin cfg1.N) (h0 : ¬t.val % 4 = 0) (h3 : ¬t.val % 4 = 3) :
    outsAt V c t.val t.isLt = (VO.read (Elt F) VO.junk,
      soutMid c (grid1.coords t) (ms0 t) (hs0 t) (ms1 t) (hs1 t) (ms2 t) (hs2 t) (ms3 t) (hs3 t) scM (Memref.isWhole_whole _) (fun h => h0 ((hcondZ t).mp h)) (fun h => h3 ((hcondL t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- `outsAt` at a last point, over what the point before left. -/
theorem outsAt_last (c : Dev nD) (t : Fin cfg1.N) (h0 : ¬t.val % 4 = 0) (h3 : t.val % 4 = 3) :
    outsAt V c t.val t.isLt = (outLast c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2,
      soutLast c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant that carries the accumulator -/

/-- Before position `n`: at the first point the accumulator is at anything; afterwards at what the point before left. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Rest (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ Rest (F := F) c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ Rest (F := F) c) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]

/-- Each input's current staging buffer holds its block at every point, fetched there or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg1.N) : (dat V c).leavesExact 0 t = owns (c : Thread nD τ) (ms0 t) fullShare (iblk V c 0 t) := by
  unfold Dat.leavesExact; rw [live0 t, after0]
theorem leaves1 (c : Dev nD) (t : Fin cfg1.N) : (dat V c).leavesExact 1 t = owns (c : Thread nD τ) (ms1 t) fullShare (iblk V c 1 t) := by
  unfold Dat.leavesExact; rw [live1 t, after1]
theorem leaves2 (c : Dev nD) (t : Fin cfg1.N) : (dat V c).leavesExact 2 t = owns (c : Thread nD τ) (ms2 t) fullShare (iblk V c 2 t) := by
  unfold Dat.leavesExact; rw [live2 t, after2]

set_option maxHeartbeats 4800000 in
/-- The body at any point: the inputs' buffers hold their blocks; the point's contraction index says which case it is
    in; the invariant hands the body the accumulator at what the point before left (at anything at a first point) and
    takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2]
  by_cases h0 : t.val % 4 = 0
  · have h3 : ¬t.val % 4 = 3 := by omega
    rw [Dat.leavesExact_idle (dat V c) 3 t (idle3 t (fun h => h3 ((hcondL t).mp h))) (noFlush3 t (fun h => h3 ((hcondL t).mp h)))]
    rw [outsAt_first V c t h0 h3]
    unfold soutFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply ((runFirst c (grid1.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid1.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [live3 t ((hcondL t).mpr h3)], after3]
      rw [outsAt_last V c t h0 h3]
      unfold outLast soutLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid1.coords t) _ _ _ _ _ _ _ _ _ _ (fun h => h0 ((hcondZ t).mp h)) ((hcondL t).mpr h3) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scoverLast c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle3 t (fun h => h3 ((hcondL t).mp h))) (noFlush3 t (fun h => h3 ((hcondL t).mp h)))]
      rw [outsAt_mid V c t h0 h3]
      unfold soutMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid1.coords t) _ _ _ _ _ _ _ _ _ _ (fun h => h0 ((hcondZ t).mp h)) (fun h => h3 ((hcondL t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverMid c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry form back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg1.N) ⊢ Pipeline.ΦA spec1 c :=
  Phi_out V c _ (by rw [Fin.val_last]; have : cfg1.N = 64 := N_1; omega)

end Cert.KernelIdeal.R1

end
-- ==== Proof.R2.lean ====
/-
  Region 2 of the program (one dense layer): a grid of 4 x 1 x 4 points, the last axis the contraction's blocks.
  At a point the body adds the product of the two operand blocks into an accumulator that lives in a scratch
  buffer across the points of one output block: it is zeroed where the contraction index is 0, and where the
  index is 3 the accumulator plus the bias row is stored to the output block, which is
  written back there and idle at the other points.  Below: the body run once per control case on any staging
  buffers; what the scratch and the output block hold after each point, by recursion on the point; the
  invariant that carries the scratch from point to point; and the body's obligation at every point.
-/
import proofs.«135747_j2697239461893_2_alg».proof.Proof.Gen.KernelIdeal.Launch
import proofs.«135747_j2697239461893_2_alg».proof.Proof.Gen.KernelIdeal.Skeleton
import proofs.«135747_j2697239461893_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The contraction index is 0: the accumulator is zeroed first. -/
abbrev condZ (i : grid2.Coords) : Prop := (Scalar.cmpi .ne (Scalar.extui (Scalar.cmpi .eq (BitVec.ofNat 32 (i 2).val) 0#32)) 0#32) = 1#1
theorem hcondZ : ∀ t : Fin cfg2.N, condZ (grid2.coords t) ↔ t.val % 4 = 0 :=
  (by decide +kernel : ∀ t : Fin grid2.N, condZ (grid2.coords t) ↔ t.val % 4 = 0)
/-- The contraction index is the last: the output block is stored. -/
abbrev condL (i : grid2.Coords) : Prop := k2_cond2 i = 1#1
theorem hcondL : ∀ t : Fin cfg2.N, condL (grid2.coords t) ↔ t.val % 4 = 3 :=
  (by decide +kernel : ∀ t : Fin grid2.N, condL (grid2.coords t) ↔ t.val % 4 = 3)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- Away from the last contraction index the output block is idle, -/
theorem idle3 : ∀ t : Fin cfg2.N, ¬condL (grid2.coords t) → cfg2.idle 3 (grid2.coords t) = true := by decide +kernel
/-- and not written back; -/
theorem noFlush3 : ∀ t : Fin cfg2.N, ¬condL (grid2.coords t) → (cfg2.win 3).flush t = false := by decide +kernel
/-- at the last it is live. -/
theorem live3 : ∀ t : Fin cfg2.N, condL (grid2.coords t) → cfg2.idle 3 (grid2.coords t) = false := by decide +kernel

/-! ## The staging buffers at a point, the scratch, and the invariant's scoped part -/

abbrev ms0 (t : Fin cfg2.N) : Memref sig .tc .vmem S1024x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x1024 .f32 := win2_3.stage (cfg2.slots t 3)
abbrev hs3 (t : Fin cfg2.N) : (ms3 t).IsWhole := hstage2_3 ((cfg2.slots t 3).cast nbuf2_3)
/-- The accumulator: a whole scoped buffer of the kernel's own. -/
abbrev scM : Memref sig .tc .vmem S1024x1024 .f32 := Memref.whole cc2_scratch0
abbrev VS : View sig .tc .vmem S1024x1024 .f32 := (scM).view
/-- One staging buffer of the output window, through which its contents are stated. -/
abbrev VO : View sig .tc .vmem S1024x1024 .f32 := (Memref.whole cc2_stg3_0 : Memref sig .tc .vmem S1024x1024 .f32).view

/-- Every other scoped buffer of the core that is no staging buffer of this region, at some contents: unopened. -/
abbrev Rest (c : Dev nD) : sProp 𝕄 :=
  Pipeline.scopedRestBut (Ix := Unit) (Name := ℕ) (U := UR sig nD τ) (Lvl := ℕ) (Val := Elt F) spec2 c [cc2_scratch0]

theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ Rest (F := F) c) :=
  Pipeline.scopedRest_split_of_list spec2 c [cc2_scratch0] (by decide) (by decide)

/-- The region's invariant before its first point: the accumulator at anything, the other scoped buffers, the
    generator register at some state. -/
theorem PhiA_eq (c : Dev nD) :
    (Pipeline.ΦA spec2 c : sProp 𝕄)
      = iprop(iprop((∃ d, owns (c : Thread nD τ) scM fullShare d) ∗ Rest (F := F) c) ∗ (∃ r, prngReg c r)) := by
  unfold Pipeline.ΦA; rw [scopedRest_split]; simp only [scM, owns_whole]; try rfl

/-! ## The body on any staging buffers, one run per control case -/

set_option maxHeartbeats 1000000 in
/-- At a point whose contraction index is 0 (and not the last): the accumulator is zeroed, then the product of the two operand blocks is added into it. The pieces the accumulator ends with are the witness the run finds. -/
noncomputable def runFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg7 fullShare d)
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun E K => ?run⟩
  case run =>
    simp only [cc2__matmul_kernel_eq_skeleton]; unfold cc2__matmul_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is neither 0 nor the last: the product of the two operand blocks is added into the accumulator the point before left. -/
noncomputable def runMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg7 fullShare xs
            ∗ (iprop(owns (c : Thread nD τ) arg3 fullShare x3 ∗ owns (c : Thread nD τ) arg4 fullShare x4 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun E K => ?run⟩
  case run =>
    simp only [cc2__matmul_kernel_eq_skeleton]; unfold cc2__matmul_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 1000000 in
/-- At a point whose contraction index is the last (and not 0): the product is added into the accumulator, and the accumulator plus the bias row is stored to the output block. -/
noncomputable def runLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i)
    (x3 : Vec F S1024x1024 .bf16) (x4 : Vec F S1024x1024 .bf16) (x5 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hz | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

/-! ## What each case leaves in the accumulator and in the output block -/

theorem scoverFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) (y : S1024x1024.Idx) :
    ∃ pc ∈ (runFirst c i arg3 harg3 arg4 harg4 arg5 harg5 arg6 harg6 arg7 harg7 hz hl x3 x4).1, y ∈ pc.1.set :=
  View.cover_of_tiledL (runFirst c i arg3 harg3 arg4 harg4 arg5 harg5 arg6 harg6 arg7 harg7 hz hl x3 x4).1 S1024x1024.size (by sl_kernel_rfl) y
/-- The accumulator after a first point: its pieces read back. -/
def soutFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : ¬condL i) (x3 : Vec F S1024x1024 .bf16) (x4 : Vec F S1024x1024 .bf16) : Vec F S1024x1024 .f32 :=
  VS.read (Elt F) (VS.writes (Elt F) VS.junk (runFirst c i arg3 harg3 arg4 harg4 arg5 harg5 arg6 harg6 arg7 harg7 hz hl x3 x4).1)

theorem scoverMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) (y : S1024x1024.Idx) :
    ∃ pc ∈ (runMid c i arg3 harg3 arg4 harg4 arg5 harg5 arg6 harg6 arg7 harg7 hz hl x3 x4 xs).1, y ∈ pc.1.set :=
  View.cover_of_tiledL (runMid c i arg3 harg3 arg4 harg4 arg5 harg5 arg6 harg6 arg7 harg7 hz hl x3 x4 xs).1 S1024x1024.size (by sl_kernel_rfl) y
/-- The accumulator after a middle point, over what the point before left. -/
def soutMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : ¬condL i) (x3 : Vec F S1024x1024 .bf16) (x4 : Vec F S1024x1024 .bf16) (xs : Vec F S1024x1024 .f32) : Vec F S1024x1024 .f32 :=
  VS.read (Elt F) (VS.writes (Elt F) VS.junk (runMid c i arg3 harg3 arg4 harg4 arg5 harg5 arg6 harg6 arg7 harg7 hz hl x3 x4 xs).1)

theorem scoverLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).2.1, y ∈ pc.1.set :=
  View.cover_of_tiledL (runLast c i arg3 harg3 arg4 harg4 arg5 harg5 arg6 harg6 arg7 harg7 hz hl x3 x4 x5 xs).2.1 S1024x1024.size (by sl_kernel_rfl) y
/-- The accumulator after a last point. -/
def soutLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VS.read (Elt F) (VS.writes (Elt F) VS.junk (runLast c i arg3 harg3 arg4 harg4 arg5 harg5 arg6 harg6 arg7 harg7 hz hl x3 x4 x5 xs).2.1)
theorem coverLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) (y : S1024x1024.Idx) :
    ∃ pc ∈ (runLast c i arg3 harg3 arg4 harg4 arg5 harg5 arg6 harg6 arg7 harg7 hz hl x3 x4 x5 xs).1, y ∈ pc.1.set :=
  View.cover_of_tiledL (runLast c i arg3 harg3 arg4 harg4 arg5 harg5 arg6 harg6 arg7 harg7 hz hl x3 x4 x5 xs).1 S1024x1024.size (by sl_kernel_rfl) y
/-- The output block after a last point. -/
def outLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : ¬condZ i) (hl : condL i) (x3 : Vec F S1024x1024 .bf16) (x4 : Vec F S1024x1024 .bf16) (x5 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hz hl x3 x4 x5 xs).1)

/-! ## The region at the contents it is entered from -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output block's buffer (first) and the accumulator (second) hold after the body at position `n`. At a
    point where the output block is idle the first component is a placeholder nothing consults. -/
def outsAt (c : Dev nD) : (n : ℕ) → n < cfg2.N → Vec F S1024x1024 .f32 × Vec F S1024x1024 .f32
  | 0, hn => (VO.read (Elt F) VO.junk,
      soutFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondZ ⟨0, hn⟩).mpr (Nat.zero_mod _)) (fun h => by have := (hcondL ⟨0, hn⟩).mp h; (try dsimp only at this); omega) (iblk V c 0 ⟨0, hn⟩) (iblk V c 1 ⟨0, hn⟩))
  | n + 1, hn =>
    if h0 : (n + 1) % 4 = 0 then
      (VO.read (Elt F) VO.junk,
        soutFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondZ ⟨n + 1, hn⟩).mpr h0) (fun h => by have := (hcondL ⟨n + 1, hn⟩).mp h; (try dsimp only at this); omega) (iblk V c 0 ⟨n + 1, hn⟩) (iblk V c 1 ⟨n + 1, hn⟩))
    else if h3 : (n + 1) % 4 = 3 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2,
        soutLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) ((hcondL ⟨n + 1, hn⟩).mpr h3) (iblk V c 0 ⟨n + 1, hn⟩) (iblk V c 1 ⟨n + 1, hn⟩) (iblk V c 2 ⟨n + 1, hn⟩) (outsAt c n (Nat.lt_of_succ_lt hn)).2)
    else
      (VO.read (Elt F) VO.junk,
        soutMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondZ ⟨n + 1, hn⟩).mp h)) (fun h => h3 ((hcondL ⟨n + 1, hn⟩).mp h)) (iblk V c 0 ⟨n + 1, hn⟩) (iblk V c 1 ⟨n + 1, hn⟩) (outsAt c n (Nat.lt_of_succ_lt hn)).2)

/-- `outsAt` at a first point. -/
theorem outsAt_first (c : Dev nD) (t : Fin cfg2.N) (h0 : t.val % 4 = 0) (h3 : ¬t.val % 4 = 3) :
    outsAt V c t.val t.isLt = (VO.read (Elt F) VO.junk,
      soutFirst c (grid2.coords t) (ms0 t) (hs0 t) (ms1 t) (hs1 t) (ms2 t) (hs2 t) (ms3 t) (hs3 t) scM (Memref.isWhole_whole _) ((hcondZ t).mpr h0) (fun h => h3 ((hcondL t).mp h)) (iblk V c 0 t) (iblk V c 1 t)) := by
  obtain ⟨n, hn⟩ := t
  cases n with
  | zero => exact rfl
  | succ n => exact (dif_pos h0).trans rfl

/-- `outsAt` at a middle point, over what the point before left. -/
theorem outsAt_mid (c : Dev nD) (t : Fin cfg2.N) (h0 : ¬t.val % 4 = 0) (h3 : ¬t.val % 4 = 3) :
    outsAt V c t.val t.isLt = (VO.read (Elt F) VO.junk,
      soutMid c (grid2.coords t) (ms0 t) (hs0 t) (ms1 t) (hs1 t) (ms2 t) (hs2 t) (ms3 t) (hs3 t) scM (Memref.isWhole_whole _) (fun h => h0 ((hcondZ t).mp h)) (fun h => h3 ((hcondL t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- `outsAt` at a last point, over what the point before left. -/
theorem outsAt_last (c : Dev nD) (t : Fin cfg2.N) (h0 : ¬t.val % 4 = 0) (h3 : t.val % 4 = 3) :
    outsAt V c t.val t.isLt = (outLast c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2,
      soutLast c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant that carries the accumulator -/

/-- Before position `n`: at the first point the accumulator is at anything; afterwards at what the point before left. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Rest (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Rest (F := F) c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Rest (F := F) c) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = (outsAt V c t.val t.isLt).1 := by dsimp only [dat]

/-- Each input's current staging buffer holds its block at every point, fetched there or not. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg2.N) : (dat V c).leavesExact 0 t = owns (c : Thread nD τ) (ms0 t) fullShare (iblk V c 0 t) := by
  unfold Dat.leavesExact; rw [live0 t, after0]
theorem leaves1 (c : Dev nD) (t : Fin cfg2.N) : (dat V c).leavesExact 1 t = owns (c : Thread nD τ) (ms1 t) fullShare (iblk V c 1 t) := by
  unfold Dat.leavesExact; rw [live1 t, after1]
theorem leaves2 (c : Dev nD) (t : Fin cfg2.N) : (dat V c).leavesExact 2 t = owns (c : Thread nD τ) (ms2 t) fullShare (iblk V c 2 t) := by
  unfold Dat.leavesExact; rw [live2 t, after2]

set_option maxHeartbeats 4800000 in
/-- The body at any point: the inputs' buffers hold their blocks; the point's contraction index says which case it is
    in; the invariant hands the body the accumulator at what the point before left (at anything at a first point) and
    takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2]
  by_cases h0 : t.val % 4 = 0
  · have h3 : ¬t.val % 4 = 3 := by omega
    rw [Dat.leavesExact_idle (dat V c) 3 t (idle3 t (fun h => h3 ((hcondL t).mp h))) (noFlush3 t (fun h => h3 ((hcondL t).mp h)))]
    rw [outsAt_first V c t h0 h3]
    unfold soutFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply ((runFirst c (grid2.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid2.coords t) _ _ _ _ _ _ _ _ _ _ ((hcondZ t).mpr h0) (fun h => h3 ((hcondL t).mp h)) (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverFirst c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [live3 t ((hcondL t).mpr h3)], after3]
      rw [outsAt_last V c t h0 h3]
      unfold outLast soutLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid2.coords t) _ _ _ _ _ _ _ _ _ _ (fun h => h0 ((hcondZ t).mp h)) ((hcondL t).mpr h3) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scoverLast c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle3 t (fun h => h3 ((hcondL t).mp h))) (noFlush3 t (fun h => h3 ((hcondL t).mp h)))]
      rw [outsAt_mid V c t h0 h3]
      unfold soutMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid2.coords t) _ _ _ _ _ _ _ _ _ _ (fun h => h0 ((hcondZ t).mp h)) (fun h => h3 ((hcondL t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverMid c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry form back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg2.N) ⊢ Pipeline.ΦA spec2 c :=
  Phi_out V c _ (by rw [Fin.val_last]; have : cfg2.N = 16 := N_2; omega)

end Cert.KernelIdeal.R2

end
-- ==== Proof.RunA.lean ====
/-
  The program as a run: @main is 35 items, stretches of host operations around three kernel regions. Each region is
  a segment entered from every unscoped buffer at the contents the items before it leave and left with its result
  array at what its write-backs fold to; chained with the host stretches, every weakly fair execution terminates
  with every unscoped buffer at the last item's contents.
-/
import proofs.«135747_j2697239461893_2_alg».proof.Proof.RegionsKernelIdeal
import proofs.«135747_j2697239461893_2_alg».proof.Proof.R0
import proofs.«135747_j2697239461893_2_alg».proof.Proof.R1
import proofs.«135747_j2697239461893_2_alg».proof.Proof.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-- The contents each region is entered from, read at the TensorCore's references. -/
abbrev Ve0 : (c : Dev nD) → (b : Ref sig .tc) → Buf (Elt F) ((c : Thread nD τ).loc b) := fun c b => V9 m c b
abbrev Ve1 : (c : Dev nD) → (b : Ref sig .tc) → Buf (Elt F) ((c : Thread nD τ).loc b) := fun c b => V19 m outs c b
abbrev Ve2 : (c : Dev nD) → (b : Ref sig .tc) → Buf (Elt F) ((c : Thread nD τ).loc b) := fun c b => V33 m outs c b

/-- Every pipeline's proof data, each at its region's entry contents. -/
def pdats : (p : Fin 3) → (c : Dev nD) → Dat τ (Elt F) Unit ℕ (UR sig nD τ) ℕ (cfgs p) c
  | ⟨0, _⟩ => fun c => R0.dat (Ve0 m) c
  | ⟨1, _⟩ => fun c => R1.dat (Ve1 m outs) c
  | ⟨2, _⟩ => fun c => R2.dat (Ve2 m outs) c

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

/-- At region 0's exit each of its arrays holds what the pipeline leaves: the inputs as entered, the result what the
    write-backs fold to, -/
theorem hF0 (ho0 : ∀ c, outs 10 main_v23 c = (R0.dat (Ve0 m) c).arrAt 3 cfg0.N) (c : Dev nD) (w : Fin cfg0.W) :
    (pdats m outs 0 c).arrAt w cfg0.N = (fun b : Ref sig .tc => V10 m outs c b) (Pipeline.arrRef spec0 w) := by
  by_cases hw : w = 3
  · subst hw
    refine (ho0 c).symm.trans ?_
    show outs 10 main_v23 c = Function.update (V9 m c) (Proc.devRef .tc main_v23) (outs 10 main_v23 c) (Proc.devRef .tc main_v23)
    exact (Function.update_self (β := fun b : DevRef τ sig => Buf (Elt F) ((c : Thread nD τ).1, b)) _ _ _).symm
  · have hin : (cfg0.win w).isOut = false := by revert hw; revert w; decide
    have hne : Pipeline.arrRef spec0 w ∉ ([main_v23] : List (Ref sig .tc)) := by revert hw; revert w; decide
    exact ((R0.dat (Ve0 m) c).arrAt_in w hin _).trans
      ((R0.A_eq (Ve0 m) c w).trans (V10_of m outs c (Pipeline.arrRef spec0 w) hne).symm)
/-- and every other buffer what it held at entry. -/
theorem hrest0 (c : Dev nD) : ∀ b : Ref sig .tc, b ∉ Finset.univ.image (Pipeline.arrRef spec0) → (fun b : Ref sig .tc => V10 m outs c b) b = Ve0 m c b :=
  fun b hb => V10_of m outs c b (by
    intro hmem
    rw [List.mem_singleton] at hmem
    exact hb (Finset.mem_image.mpr ⟨3, Finset.mem_univ _, hmem.symm⟩))

/-- At region 1's exit each of its arrays holds what the pipeline leaves: the inputs as entered, the result what the
    write-backs fold to, -/
theorem hF1 (ho1 : ∀ c, outs 20 main_v47 c = (R1.dat (Ve1 m outs) c).arrAt 3 cfg1.N) (c : Dev nD) (w : Fin cfg1.W) :
    (pdats m outs 1 c).arrAt w cfg1.N = (fun b : Ref sig .tc => V20 m outs c b) (Pipeline.arrRef spec1 w) := by
  by_cases hw : w = 3
  · subst hw
    refine (ho1 c).symm.trans ?_
    show outs 20 main_v47 c = Function.update (V19 m outs c) (Proc.devRef .tc main_v47) (outs 20 main_v47 c) (Proc.devRef .tc main_v47)
    exact (Function.update_self (β := fun b : DevRef τ sig => Buf (Elt F) ((c : Thread nD τ).1, b)) _ _ _).symm
  · have hin : (cfg1.win w).isOut = false := by revert hw; revert w; decide
    have hne : Pipeline.arrRef spec1 w ∉ ([main_v47] : List (Ref sig .tc)) := by revert hw; revert w; decide
    exact ((R1.dat (Ve1 m outs) c).arrAt_in w hin _).trans
      ((R1.A_eq (Ve1 m outs) c w).trans (V20_of m outs c (Pipeline.arrRef spec1 w) hne).symm)
/-- and every other buffer what it held at entry. -/
theorem hrest1 (c : Dev nD) : ∀ b : Ref sig .tc, b ∉ Finset.univ.image (Pipeline.arrRef spec1) → (fun b : Ref sig .tc => V20 m outs c b) b = Ve1 m outs c b :=
  fun b hb => V20_of m outs c b (by
    intro hmem
    rw [List.mem_singleton] at hmem
    exact hb (Finset.mem_image.mpr ⟨3, Finset.mem_univ _, hmem.symm⟩))

/-- At region 2's exit each of its arrays holds what the pipeline leaves: the inputs as entered, the result what the
    write-backs fold to, -/
theorem hF2 (ho2 : ∀ c, outs 34 main_v73 c = (R2.dat (Ve2 m outs) c).arrAt 3 cfg2.N) (c : Dev nD) (w : Fin cfg2.W) :
    (pdats m outs 2 c).arrAt w cfg2.N = (fun b : Ref sig .tc => V34 m outs c b) (Pipeline.arrRef spec2 w) := by
  by_cases hw : w = 3
  · subst hw
    refine (ho2 c).symm.trans ?_
    show outs 34 main_v73 c = Function.update (V33 m outs c) (Proc.devRef .tc main_v73) (outs 34 main_v73 c) (Proc.devRef .tc main_v73)
    exact (Function.update_self (β := fun b : DevRef τ sig => Buf (Elt F) ((c : Thread nD τ).1, b)) _ _ _).symm
  · have hin : (cfg2.win w).isOut = false := by revert hw; revert w; decide
    have hne : Pipeline.arrRef spec2 w ∉ ([main_v73] : List (Ref sig .tc)) := by revert hw; revert w; decide
    exact ((R2.dat (Ve2 m outs) c).arrAt_in w hin _).trans
      ((R2.A_eq (Ve2 m outs) c w).trans (V34_of m outs c (Pipeline.arrRef spec2 w) hne).symm)
/-- and every other buffer what it held at entry. -/
theorem hrest2 (c : Dev nD) : ∀ b : Ref sig .tc, b ∉ Finset.univ.image (Pipeline.arrRef spec2) → (fun b : Ref sig .tc => V34 m outs c b) b = Ve2 m outs c b :=
  fun b hb => V34_of m outs c b (by
    intro hmem
    rw [List.mem_singleton] at hmem
    exact hb (Finset.mem_image.mpr ⟨3, Finset.mem_univ _, hmem.symm⟩))

-- a library lemma stated over the pinned configuration unifies with the printed one only when unification may
-- unfold plain definitions in a metavariable's type
set_option backward.isDefEq.respectTransparency.types false in
/-- Region 0 over the thread state: entered from every unscoped buffer at `V9 m`, left at `V10 m outs`. Its arrays
    are split out of the unscoped buffers and put back at the exit contents; the generator register goes into the
    region's invariant and comes back; nothing is owed; the kernel has no semaphore of its own. -/
def reg0 (ho0 : ∀ c, outs 10 main_v23 c = (R0.dat (Ve0 m) c).arrAt 3 cfg0.N) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Ve0 m) c).loose
  hwaits := Pipeline.hwaits_of_owed_zero _ _ _ _ L lv 0 fun _ _ => rfl
  pre c := iprop(StableHlo.held (c : Thread nD τ) (Pipeline.ucRefs τ sig) (V9 m c) ∗ Rr c)
  post c := iprop(StableHlo.held (c : Thread nD τ) (Pipeline.ucRefs τ sig) (V10 m outs c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (show (pdats m outs 0 c).Φ (Fin.last _) ⊢ Pipeline.ΦA spec0 c from BIBase.Entails.rfl) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Ve0 m c) (fun b => V10 m outs c b) ((pdats m outs 0 c).arrAt · cfg0.N) (hF0 m outs ho0 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `V19 m outs`, left at `V20 m outs`. Its arrays
    are split out of the unscoped buffers and put back at the exit contents; the generator register goes into the
    region's invariant and comes back; nothing is owed; the kernel has no semaphore of its own. -/
def reg1 (ho1 : ∀ c, outs 20 main_v47 c = (R1.dat (Ve1 m outs) c).arrAt 3 cfg1.N) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (Ve1 m outs) c).loose
  hwaits := Pipeline.hwaits_of_owed_zero _ _ _ _ L lv 1 fun _ _ => rfl
  pre c := iprop(StableHlo.held (c : Thread nD τ) (Pipeline.ucRefs τ sig) (V19 m outs c) ∗ Rr c)
  post c := iprop(StableHlo.held (c : Thread nD τ) (Pipeline.ucRefs τ sig) (V20 m outs c) ∗ Rr c)
  X c := iprop(∃ r, prngReg c r)
  Y c := iprop(∃ r, prngReg c r)
  Z c := Pipeline.unscopedRest (Ix := Unit) (Name := ℕ) (U := UR sig nD τ) (Lvl := ℕ) spec1 c (Ve1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Ve1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (show (pdats m outs 1 c).Φ (Fin.last _) ⊢ Pipeline.ΦA spec1 c from R1.hout (Ve1 m outs) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Ve1 m outs c) (fun b => V20 m outs c b) ((pdats m outs 1 c).arrAt · cfg1.N) (hF1 m outs ho1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `V33 m outs`, left at `V34 m outs`. Its arrays
    are split out of the unscoped buffers and put back at the exit contents; the generator register goes into the
    region's invariant and comes back; nothing is owed; the kernel has no semaphore of its own. -/
def reg2 (ho2 : ∀ c, outs 34 main_v73 c = (R2.dat (Ve2 m outs) c).arrAt 3 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (Ve2 m outs) c).loose
  hwaits := Pipeline.hwaits_of_owed_zero _ _ _ _ L lv 2 fun _ _ => rfl
  pre c := iprop(StableHlo.held (c : Thread nD τ) (Pipeline.ucRefs τ sig) (V33 m outs c) ∗ Rr c)
  post c := iprop(StableHlo.held (c : Thread nD τ) (Pipeline.ucRefs τ sig) (V34 m outs c) ∗ Rr c)
  X c := iprop(∃ r, prngReg c r)
  Y c := iprop(∃ r, prngReg c r)
  Z c := Pipeline.unscopedRest (Ix := Unit) (Name := ℕ) (U := UR sig nD τ) (Lvl := ℕ) spec2 c (Ve2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Ve2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    refine BIBase.Entails.trans (show (pdats m outs 2 c).Φ (Fin.last _) ⊢ Pipeline.ΦA spec2 c from R2.hout (Ve2 m outs) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Ve2 m outs c) (fun b => V34 m outs c b) ((pdats m outs 2 c).arrAt · cfg2.N) (hF2 m outs ho2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The launch's ghost element is the pipeline library's, with nothing else dealt. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

-- the library theorem's implicit arguments are found by unifying its conclusion with this one, which takes unfolding
-- plain definitions in a metavariable's type
set_option backward.isDefEq.respectTransparency.types false in
/-- Every weakly fair execution of @main from memory `m` with zero counters terminates, and every final memory holds
    every unscoped buffer at the last item's contents — given that `outs` names what each region's write-backs fold to. -/
theorem run_all (ho0 : ∀ c, outs 10 main_v23 c = (R0.dat (Ve0 m) c).arrAt 3 cfg0.N)
    (ho1 : ∀ c, outs 20 main_v47 c = (R1.dat (Ve1 m outs) c).arrAt 3 cfg1.N)
    (ho2 : ∀ c, outs 34 main_v73 c = (R2.dat (Ve2 m outs) c).arrAt 3 cfg2.N) :
    θ_run defs (onTc (τ := τ) (main (F := F))) ⟨m, fun _ => 0, ρ⟩ (fun r => ∀ c : Dev nD,
      ∀ b ∈ Pipeline.ucRefs τ sig, r.2.mem ((c : Thread nD τ).1, b) = V35 m outs c b) :=
  Pipeline.θ_run_regions_kit_dev (pcfgs (F := F)) adm (pdats m outs) () cellOf_inj emb₁ defs₀ 𝒱₀ L lv m ρ main
    (segs m outs 𝒱₀ L lv (fun _ => Rr) () (pdats m outs) (reg0 m outs ho0) (reg1 m outs ho1) (reg2 m outs ho2))
    (fun c Q => by rw [main_chain c, Pipeline.Seg.run_eq_chain]; exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (V0 m c) ∗ Rr c))
    (Tₙ := fun c => StableHlo.held (c : Thread nD τ) (Pipeline.ucRefs τ sig) (V35 m outs c))
    (hch := fun c => ⟨.rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, .rfl,
      sep_mono .rfl (show (Rr c : sProp 𝕄) ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V35 m outs c b)
    (hfin := fun c s' => by
      iintro ⟨Hh, HSI⟩
      unfold StableHlo.held
      imodintro
      iapply (pointsTo_read_all (Pipeline.ucRefs τ sig) (fun b => ((c : Thread nD τ).1, b)) (V35 m outs c) s')
      isplitl [Hh] <;> iassumption)
    (hQ := fun _ h => h)

end Cert.KernelIdeal.Run

end
-- ==== Proof.RunB.lean ====
/-
  What the three regions leave, named: the unknown contents the program's boundary valuations are written over are
  chosen here, one region after the other, as what each region's write-backs fold to; each later region's entry
  contents depend on the earlier choices only through the earlier regions' result buffers.
-/
import proofs.«135747_j2697239461893_2_alg».proof.Proof.RunA

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Contents for the three result buffers, every other reference at its launch contents (never read). -/
def outsOf (o10 : (c : Dev nD) → Buf (Elt F) ((c : Thread nD τ).loc main_v23)) (o20 : (c : Dev nD) → Buf (Elt F) ((c : Thread nD τ).loc main_v47))
    (o34 : (c : Dev nD) → Buf (Elt F) ((c : Thread nD τ).loc main_v73)) : Outs (F := F) :=
  fun _ r c =>
    if h : r = main_v23 then h ▸ o10 c
    else if h : r = main_v47 then h ▸ o20 c
    else if h : r = main_v73 then h ▸ o34 c
    else m ((c : Thread nD τ).loc r)

theorem outsOf_23 (o10 o20 o34) (n : ℕ) (c : Dev nD) : outsOf m o10 o20 o34 n main_v23 c = o10 c := by
  unfold outsOf; rw [dif_pos rfl]
theorem outsOf_47 (o10 o20 o34) (n : ℕ) (c : Dev nD) : outsOf m o10 o20 o34 n main_v47 c = o20 c := by
  unfold outsOf; rw [dif_neg (by decide), dif_pos rfl]
theorem outsOf_73 (o10 o20 o34) (n : ℕ) (c : Dev nD) : outsOf m o10 o20 o34 n main_v73 c = o34 c := by
  unfold outsOf; rw [dif_neg (by decide), dif_neg (by decide), dif_pos rfl]

/-- Region 1's entry contents depend on the unknowns only through region 0's result buffer, -/
theorem V19_congr (o o' : Outs (F := F)) (c : Dev nD) (h : o 10 main_v23 c = o' 10 main_v23 c) : V19 m o c = V19 m o' c := by
  dsimp only [V19, V18, V17, V16, V15, V14, V13, V12, V11, V10]; rw [h]
/-- and region 2's through regions 0's and 1's. -/
theorem V33_congr (o o' : Outs (F := F)) (c : Dev nD) (h : o 10 main_v23 c = o' 10 main_v23 c) (h' : o 20 main_v47 c = o' 20 main_v47 c) :
    V33 m o c = V33 m o' c := by
  dsimp only [V33, V32, V31, V30, V29, V28, V27, V26, V25, V24, V23, V22, V21, V20, V19, V18, V17, V16, V15, V14, V13, V12, V11, V10]; rw [h, h']

/-- What region 0 leaves in its result buffer. -/
def O10 (c : Dev nD) : Buf (Elt F) ((c : Thread nD τ).loc main_v23) := (R0.dat (Ve0 m) c).arrAt 3 cfg0.N
/-- What region 1 leaves, entered after region 0. -/
def O20 (c : Dev nD) : Buf (Elt F) ((c : Thread nD τ).loc main_v47) :=
  (R1.dat (Ve1 m (outsOf m (O10 m) (fun c => m ((c : Thread nD τ).loc main_v47)) (fun c => m ((c : Thread nD τ).loc main_v73)))) c).arrAt 3 cfg1.N
/-- What region 2 leaves, entered after regions 0 and 1. -/
def O34 (c : Dev nD) : Buf (Elt F) ((c : Thread nD τ).loc main_v73) :=
  (R2.dat (Ve2 m (outsOf m (O10 m) (O20 m) (fun c => m ((c : Thread nD τ).loc main_v73)))) c).arrAt 3 cfg2.N
/-- The three together. -/
def theOuts : Outs (F := F) := outsOf m (O10 m) (O20 m) (O34 m)

theorem ho0 (c : Dev nD) : theOuts m 10 main_v23 c = (R0.dat (Ve0 m) c).arrAt 3 cfg0.N := outsOf_23 m _ _ _ 10 c
theorem ho1 (c : Dev nD) : theOuts m 20 main_v47 c = (R1.dat (Ve1 m (theOuts m)) c).arrAt 3 cfg1.N := by
  refine (outsOf_47 m _ _ _ 20 c).trans ?_
  unfold O20
  have e : Ve1 m (outsOf m (O10 m) (fun c => m ((c : Thread nD τ).loc main_v47)) (fun c => m ((c : Thread nD τ).loc main_v73))) = Ve1 m (theOuts m) := by
    funext c' b
    exact congrFun (V19_congr m _ _ c' ((outsOf_23 m _ _ _ 10 c').trans (outsOf_23 m _ _ _ 10 c').symm)) _
  rw [e]
theorem ho2 (c : Dev nD) : theOuts m 34 main_v73 c = (R2.dat (Ve2 m (theOuts m)) c).arrAt 3 cfg2.N := by
  refine (outsOf_73 m _ _ _ 34 c).trans ?_
  unfold O34
  have e : Ve2 m (outsOf m (O10 m) (O20 m) (fun c => m ((c : Thread nD τ).loc main_v73))) = Ve2 m (theOuts m) := by
    funext c' b
    exact congrFun (V33_congr m _ _ c' ((outsOf_23 m _ _ _ 10 c').trans (outsOf_23 m _ _ _ 10 c').symm)
      ((outsOf_47 m _ _ _ 20 c').trans (outsOf_47 m _ _ _ 20 c').symm)) _
  rw [e]

/-- The program's run with the regions' results named. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V35 m (theOuts m) c b) :=
  run_all m ρ (theOuts m) (ho0 m) (ho1 m) (ho2 m)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c (Proc.devRef .tc main_arg0) (Finset.mem_filter.mpr ⟨StableHlo.devRef_mem_tcRefs main_arg0, by decide⟩)).trans (V35_main_arg0 m (theOuts m) c),
     (h c (Proc.devRef .tc main_arg1) (Finset.mem_filter.mpr ⟨StableHlo.devRef_mem_tcRefs main_arg1, by decide⟩)).trans (V35_main_arg1 m (theOuts m) c),
     (h c (Proc.devRef .tc main_arg2) (Finset.mem_filter.mpr ⟨StableHlo.devRef_mem_tcRefs main_arg2, by decide⟩)).trans (V35_main_arg2 m (theOuts m) c),
     (h c (Proc.devRef .tc main_arg3) (Finset.mem_filter.mpr ⟨StableHlo.devRef_mem_tcRefs main_arg3, by decide⟩)).trans (V35_main_arg3 m (theOuts m) c),
     (h c (Proc.devRef .tc main_arg4) (Finset.mem_filter.mpr ⟨StableHlo.devRef_mem_tcRefs main_arg4, by decide⟩)).trans (V35_main_arg4 m (theOuts m) c),
     (h c (Proc.devRef .tc main_arg5) (Finset.mem_filter.mpr ⟨StableHlo.devRef_mem_tcRefs main_arg5, by decide⟩)).trans (V35_main_arg5 m (theOuts m) c),
     (h c (Proc.devRef .tc main_arg6) (Finset.mem_filter.mpr ⟨StableHlo.devRef_mem_tcRefs main_arg6, by decide⟩)).trans (V35_main_arg6 m (theOuts m) c)⟩)
    (run m ρ)

end Cert.KernelIdeal.Run

end
-- ==== Proof.Spec.lean ====
/-
  The network both programs compute, as one function on the extended reals.

  Three dense layers; before each product both operands are quantised per tensor: with M the largest
  magnitude of the tensor, the step is s = max (M / 3) eps, and an entry x becomes
  clip (roundeven (x / s), -4, 3) * s.  The kernel's program uses that value; the reference adds the
  rounding error back onto the entry, x + (q - x), which is the same extended real whenever x is a real
  number (and is not when x is infinite).  The first two layers end in a positive part, the last does not.
  The largest-magnitude functional is a parameter here (`Mx`): nothing below opens it.
-/
import Idealize.ShloMosaic.PureOps.Ideal
import Idealize.ShloMosaic.Lib.ValueIdx

noncomputable section

namespace Cert.Spec

open Idealize.ShloMosaic

/-- A matrix of extended reals by row and column. -/
abbrev Mat (a b : Nat) : Type := Fin a → Fin b → EReal
/-- A vector of extended reals. -/
abbrev Vc (a : Nat) : Type := Fin a → EReal

/-- A rank-2 array read by row and column. -/
def toMat {a b : Nat} (t : (⟨2, ![a, b]⟩ : Shape).Idx → EReal) : Mat a b := fun i j => t (ValueIdx.ix2 i j)
/-- A matrix as a rank-2 array. -/
def ofMat {a b : Nat} (t : Mat a b) : (⟨2, ![a, b]⟩ : Shape).Idx → EReal := fun i => t (i 0) (i 1)
/-- A rank-1 array read by position. -/
def toVc {a : Nat} (t : (⟨1, ![a]⟩ : Shape).Idx → EReal) : Vc a := fun i => t (ValueIdx.ix1 i)

/-- The words the programs share: 3, the floor of the step, -4 and 0. -/
def c3 : EReal := Ideal.ofBits .f32 0x40400000#32
def cEps : EReal := Ideal.ofBits .f32 0x322BCC77#32
def cM4 : EReal := Ideal.ofBits .f32 0xC0800000#32
def c0 : EReal := Ideal.ofBits .f32 0x00000000#32

/-- The quantisation step of a tensor whose largest magnitude is `M`. -/
def step (M : EReal) : EReal := max (Ideal.div M c3) cEps

/-- One entry quantised with step `s`: round to the nearest multiple, clipped to [-4, 3] multiples. -/
def quant (s x : EReal) : EReal :=
  min c3 (max cM4 (Ideal.liftRound Ideal.roundHalfEven (Ideal.div x s))) * s

/-- The same entry with the rounding error added back onto it. -/
def quantST (s x : EReal) : EReal := x + (quant s x - x)

/-- A dense layer with its weight stored by output rows: row i of `a` against row j of `w`, plus the bias. -/
def lin {M K N : Nat} (a : Mat M K) (w : Mat N K) (b : Vc N) : Mat M N :=
  fun i j => (∑ k : Fin K, a i k * w j k) + b j

/-- The positive part. -/
def relu (x : EReal) : EReal := max x c0

/-- The largest magnitude of a tensor, for the three shapes that are quantised. -/
structure Mx where
  A : Mat 4096 1024 → EReal
  B : Mat 4096 4096 → EReal
  C : Mat 1000 4096 → EReal

/-- The network over an entry quantiser `Q s x`. -/
def net (Q : EReal → EReal → EReal) (mx : Mx)
    (x : Mat 4096 1024) (W0 : Mat 4096 1024) (b0 : Vc 4096) (W1 : Mat 4096 4096) (b1 : Vc 4096)
    (W2 : Mat 1000 4096) (b2 : Vc 1000) : Mat 4096 1000 :=
  let h1 : Mat 4096 4096 := fun i j =>
    relu (lin (fun i k => Q (step (mx.A x)) (x i k)) (fun j k => Q (step (mx.A W0)) (W0 j k)) b0 i j)
  let h2 : Mat 4096 4096 := fun i j =>
    relu (lin (fun i k => Q (step (mx.B h1)) (h1 i k)) (fun j k => Q (step (mx.B W1)) (W1 j k)) b1 i j)
  lin (fun i k => Q (step (mx.B h2)) (h2 i k)) (fun j k => Q (step (mx.C W2)) (W2 j k)) b2

/-- What the kernel's program computes. -/
def netK : Mx → Mat 4096 1024 → Mat 4096 1024 → Vc 4096 → Mat 4096 4096 → Vc 4096 → Mat 1000 4096 → Vc 1000 → Mat 4096 1000 :=
  net quant
/-- What the reference computes. -/
def netR : Mx → Mat 4096 1024 → Mat 4096 1024 → Vc 4096 → Mat 4096 4096 → Vc 4096 → Mat 1000 4096 → Vc 1000 → Mat 4096 1000 :=
  net quantST

end Cert.Spec

end
-- ==== Proof.HostChain.lean ====
/-
  The kernel program's host operations read back as functions, at the extended reals.

  Between its three kernel regions the program quantises each region's operands per tensor: with M the largest
  magnitude of the tensor and s = max (M / 3) eps, an entry x becomes clip (roundeven (x / s), -4, 3) * s.
  The bias vectors are reshaped to rows, the last layer's weight and bias are padded with zeros, and the last
  region's result is cut back to its first 1000 columns. Each buffer an operand of a region is read from is
  stated here as one function of the launch contents (or of what the previous region left).
-/
import proofs.«135747_j2697239461893_2_alg».proof.Proof.RegionsKernelIdeal
import proofs.«135747_j2697239461893_2_alg».proof.Proof.Spec
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostChain

open Cert.KernelIdeal Cert.KernelIdeal.Gen Idealize.ShloMosaic Idealize.ShloMosaic.TcCoe Cert.Spec
open Idealize.ShloMosaic.ValueIdx

/-! ## The quantisation as the operations write it -/

/-- A matrix read back as an array and again as a matrix is itself. -/
theorem ofMat_toMat {a b : Nat} (t : (⟨2, ![a, b]⟩ : Shape).Idx → EReal) : ofMat (toMat t) = t := by
  funext i
  exact congrArg t (eq_ix2 i).symm

/-- The largest magnitude of a tensor, as the program's reduction computes it. -/
def mxOf {a b : Nat} (hr : (⟨2, ![a, b]⟩ : Shape).ReducesTo [0, 1] S_) (x : FVec Ideal ⟨2, ![a, b]⟩ .f32) : FVec Ideal S_ .f32 :=
  Host.reduce FloatOps.maximumf (Host.absf (F := Ideal) x) (constant (F := Ideal) S_ .f32 0xFF800000#32) hr h_S_

/-- The quantisation step of a tensor, as the scalar array the program holds. -/
def sOf {a b : Nat} (hr : (⟨2, ![a, b]⟩ : Shape).ReducesTo [0, 1] S_) (x : FVec Ideal ⟨2, ![a, b]⟩ .f32) : FVec Ideal S_ .f32 :=
  maximumf (F := Ideal)
    (Host.divf (F := Ideal)
      (Host.reduce FloatOps.maximumf (Host.absf (F := Ideal) x) (constant (F := Ideal) S_ .f32 0xFF800000#32) hr h_S_)
      (constant (F := Ideal) S_ .f32 0x40400000#32))
    (constant (F := Ideal) S_ .f32 0x322BCC77#32)

/-- The quantised tensor, as the operations write it, over the step `s`. -/
def qOf {a b : Nat} (hb : S_.BroadcastsInDim ⟨2, ![a, b]⟩ (![] : Fin 0 → Fin 2)) (s : FVec Ideal S_ .f32)
    (x : FVec Ideal ⟨2, ![a, b]⟩ .f32) : FVec Ideal ⟨2, ![a, b]⟩ .bf16 :=
  truncf .bf16
    (mulf (F := Ideal)
      (minimumf (F := Ideal)
        (broadcastInDim ⟨2, ![a, b]⟩ ![] hb (id (constant (F := Ideal) S_ .f32 0x40400000#32)))
        (maximumf (F := Ideal)
          (broadcastInDim ⟨2, ![a, b]⟩ ![] hb (id (constant (F := Ideal) S_ .f32 0xC0800000#32)))
          (Host.roundeven (F := Ideal) (Host.divf (F := Ideal) x (broadcastInDim ⟨2, ![a, b]⟩ ![] hb s)))))
      (broadcastInDim ⟨2, ![a, b]⟩ ![] hb s))
    bitsLt_bf16_f32

/-- The step array's one entry is the step of the largest magnitude. -/
theorem sOf_apply {a b : Nat} (hr : (⟨2, ![a, b]⟩ : Shape).ReducesTo [0, 1] S_) (x : FVec Ideal ⟨2, ![a, b]⟩ .f32) :
    sOf hr x ix0 = step (mxOf hr x ix0) := by
  unfold sOf mxOf
  generalize Host.reduce FloatOps.maximumf (Host.absf (F := Ideal) x) (constant (F := Ideal) S_ .f32 0xFF800000#32) hr h_S_ = R
  rfl

/-- An entry of the quantised tensor is the entry quantised with the step array's one entry. -/
theorem qOf_apply {a b : Nat} (hb : S_.BroadcastsInDim ⟨2, ![a, b]⟩ (![] : Fin 0 → Fin 2)) (s : FVec Ideal S_ .f32)
    (x : FVec Ideal ⟨2, ![a, b]⟩ .f32) (i : (⟨2, ![a, b]⟩ : Shape).Idx) :
    qOf hb s x i = quant (s ix0) (x i) := by
  have hs : broadcastInDim ⟨2, ![a, b]⟩ ![] hb s i = s ix0 :=
    broadcastInDim_apply _ hb s i ix0 (fun k => k.elim0)
  show min (Ideal.ofBits .f32 0x40400000#32)
      (max (Ideal.ofBits .f32 0xC0800000#32)
        (Ideal.liftRound Ideal.roundHalfEven (Ideal.div (x i) (broadcastInDim ⟨2, ![a, b]⟩ ![] hb s i))))
      * broadcastInDim ⟨2, ![a, b]⟩ ![] hb s i = _
  rw [hs]
  rfl

/-- The largest-magnitude functional of the three quantised shapes, as this program's reductions compute it. -/
def mxK : Cert.Spec.Mx where
  A t := Host.reduce (FloatOps.maximumf (F := Ideal) (φ := .f32)) (Host.absf (F := Ideal) (s := S4096x1024) (φ := .f32) (ofMat t)) (constant (F := Ideal) S_ .f32 0xFF800000#32) reducesTo_S4096x1024_S_d0_1 h_S_ ValueIdx.ix0
  B t := Host.reduce (FloatOps.maximumf (F := Ideal) (φ := .f32)) (Host.absf (F := Ideal) (s := S4096x4096) (φ := .f32) (ofMat t)) (constant (F := Ideal) S_ .f32 0xFF800000#32) reducesTo_S4096x4096_S_d0_1 h_S_ ValueIdx.ix0
  C t := Host.reduce (FloatOps.maximumf (F := Ideal) (φ := .f32)) (Host.absf (F := Ideal) (s := S1000x4096) (φ := .f32) (ofMat t)) (constant (F := Ideal) S_ .f32 0xFF800000#32) reducesTo_S1000x4096_S_d0_1 h_S_ ValueIdx.ix0

theorem mxK_A (x : S4096x1024.Idx → EReal) : mxK.A (toMat x) = mxOf reducesTo_S4096x1024_S_d0_1 x ix0 := by
  simp only [mxK, mxOf, ofMat_toMat]
theorem mxK_B (x : S4096x4096.Idx → EReal) : mxK.B (toMat x) = mxOf reducesTo_S4096x4096_S_d0_1 x ix0 := by
  simp only [mxK, mxOf, ofMat_toMat]
theorem mxK_C (x : S1000x4096.Idx → EReal) : mxK.C (toMat x) = mxOf reducesTo_S1000x4096_S_d0_1 x ix0 := by
  simp only [mxK, mxOf, ofMat_toMat]

/-- The whole quantisation of a tensor read at an entry. -/
theorem qOf_sOf_apply {a b : Nat} (hr : (⟨2, ![a, b]⟩ : Shape).ReducesTo [0, 1] S_)
    (hb : S_.BroadcastsInDim ⟨2, ![a, b]⟩ (![] : Fin 0 → Fin 2)) (x : FVec Ideal ⟨2, ![a, b]⟩ .f32)
    (i : (⟨2, ![a, b]⟩ : Shape).Idx) :
    qOf hb (sOf hr x) x i = quant (step (mxOf hr x ix0)) (x i) := by
  rw [qOf_apply, sOf_apply]

variable (m : (ℓ : Loc nD τ sig) → Buf (Elt Ideal) ℓ)

/-! ## Region 0's operands -/

/-- The first operand before the first region: the input quantised, over the launch contents. -/
theorem V5_v10 (c : Dev nD) :
    (V5 m c main_v10 : S4096x1024.Idx → EReal)
      = qOf bcast_S_S4096x1024 (sOf reducesTo_S4096x1024_S_d0_1 (V0 m c main_arg0)) (V0 m c main_arg0) := by
  dsimp only [V5, V4, V3, V2, V1]
  generalize V0 m c = W
  after_results_simp
  rfl

/-- The first region's left operand is the input, each entry quantised with the input's step. -/
theorem V9_v10 (c : Dev nD) :
    (V9 m c main_v10 : S4096x1024.Idx → EReal)
      = fun i => quant (step (mxK.A (toMat (m ((c.tc : Thread nD τ).loc main_arg0)))))
          ((m ((c.tc : Thread nD τ).loc main_arg0) : S4096x1024.Idx → EReal) i) := by
  rw [V9_of m c main_v10 (by decide), V8_of m c main_v10 (by decide), V7_of m c main_v10 (by decide),
    V6_of m c main_v10 (by decide), V5_v10]
  funext i
  rw [qOf_sOf_apply, mxK_A]

/-- The first weight quantised, over the contents before its stretch. -/
theorem V9_v21_aux (c : Dev nD) :
    (V9 m c main_v21 : S4096x1024.Idx → EReal)
      = qOf bcast_S_S4096x1024 (sOf reducesTo_S4096x1024_S_d0_1 (V4 m c main_arg1)) (V4 m c main_arg1) := by
  dsimp only [V9, V8, V7, V6, V5]
  generalize V4 m c = W
  after_results_simp
  rfl

/-- The first region's right operand is the first weight, each entry quantised with the weight's step. -/
theorem V9_v21 (c : Dev nD) :
    (V9 m c main_v21 : S4096x1024.Idx → EReal)
      = fun i => quant (step (mxK.A (toMat (m ((c.tc : Thread nD τ).loc main_arg1)))))
          ((m ((c.tc : Thread nD τ).loc main_arg1) : S4096x1024.Idx → EReal) i) := by
  rw [V9_v21_aux, V4_of m c main_arg1 (by decide), V3_of m c main_arg1 (by decide), V2_of m c main_arg1 (by decide),
    V1_of m c main_arg1 (by decide)]
  funext i
  rw [qOf_sOf_apply, mxK_A]

/-- The first bias as a row: a shape cast of the argument. -/
theorem V9_v22_aux (c : Dev nD) :
    (V9 m c main_v22 : S1x4096.Idx → EReal)
      = shapeCast S1x4096 (V8 m c main_arg2 : S4096.Idx → EReal) shapeCasts_S4096_S1x4096 := by
  dsimp only [V9]
  generalize V8 m c = W
  after_results
  rfl

/-- The first region's bias row reads the bias vector at the column. -/
theorem V9_v22 (c : Dev nD) :
    (V9 m c main_v22 : S1x4096.Idx → EReal)
      = fun i => (m ((c.tc : Thread nD τ).loc main_arg2) : S4096.Idx → EReal) (ix1 ⟨(i 1).val, idx2_lt1 i⟩) := by
  rw [V9_v22_aux, V8_of m c main_arg2 (by decide), V7_of m c main_arg2 (by decide), V6_of m c main_arg2 (by decide),
    V5_of m c main_arg2 (by decide), V4_of m c main_arg2 (by decide), V3_of m c main_arg2 (by decide),
    V2_of m c main_arg2 (by decide), V1_of m c main_arg2 (by decide)]
  funext i
  exact (congrArg _ (eq_ix2 i)).trans (shapeCast_a_1a_apply _ _ ⟨(i 0).val, idx2_lt0 i⟩ ⟨(i 1).val, idx2_lt1 i⟩)

end Cert.KernelIdeal.HostChain
-- ==== Proof.HostChainB.lean ====
/-
  The kernel program's host operations between and after its later regions, read back as functions at the
  extended reals: the operands of the second and third regions (what the previous region left, quantised; the
  weights quantised; the biases as rows, the last ones padded with zeros) and the result cut to 1000 columns.
-/
import proofs.«135747_j2697239461893_2_alg».proof.Proof.HostChain

noncomputable section

namespace Cert.KernelIdeal.HostChain

open Cert.KernelIdeal Cert.KernelIdeal.Gen Idealize.ShloMosaic Idealize.ShloMosaic.TcCoe Cert.Spec
open Idealize.ShloMosaic.ValueIdx

variable (m : (ℓ : Loc nD τ sig) → Buf (Elt Ideal) ℓ) (outs : Outs (F := Ideal))

/-! ## Region 1's operands -/

/-- What the first region left, quantised, over the contents after that region. -/
theorem V15_v34 (c : Dev nD) :
    (V15 m outs c main_v34 : S4096x4096.Idx → EReal)
      = qOf bcast_S_S4096x4096 (sOf reducesTo_S4096x4096_S_d0_1 (V10 m outs c main_v23)) (V10 m outs c main_v23) := by
  dsimp only [V15, V14, V13, V12, V11]
  generalize V10 m outs c = W
  after_results_simp
  rfl

/-- After the first region its result buffer holds what the region left. -/
theorem V10_v23 (c : Dev nD) : V10 m outs c main_v23 = outs 10 main_v23 c := by
  simp only [V10, Function.update_self]

/-- The second region's left operand is what the first region left, each entry quantised with that tensor's step. -/
theorem V19_v34 (c : Dev nD) :
    (V19 m outs c main_v34 : S4096x4096.Idx → EReal)
      = fun i => quant (step (mxK.B (toMat (outs 10 main_v23 c : S4096x4096.Idx → EReal))))
          ((outs 10 main_v23 c : S4096x4096.Idx → EReal) i) := by
  rw [V19_of m outs c main_v34 (by decide), V18_of m outs c main_v34 (by decide), V17_of m outs c main_v34 (by decide),
    V16_of m outs c main_v34 (by decide),
    V15_v34, V10_v23]
  funext i
  rw [qOf_sOf_apply, mxK_B]

/-- The second weight quantised, over the contents before its stretch. -/
theorem V19_v45_aux (c : Dev nD) :
    (V19 m outs c main_v45 : S4096x4096.Idx → EReal)
      = qOf bcast_S_S4096x4096 (sOf reducesTo_S4096x4096_S_d0_1 (V14 m outs c main_arg3)) (V14 m outs c main_arg3) := by
  dsimp only [V19, V18, V17, V16, V15]
  generalize V14 m outs c = W
  after_results_simp
  rfl

/-- The second weight's buffer still holds its launch contents before its stretch. -/
theorem V14_arg3 (c : Dev nD) : V14 m outs c main_arg3 = m ((c.tc : Thread nD τ).loc main_arg3) := by
  rw [V14_of m outs c main_arg3 (by decide), V13_of m outs c main_arg3 (by decide), V12_of m outs c main_arg3 (by decide),
    V11_of m outs c main_arg3 (by decide), V10_of m outs c main_arg3 (by decide), V9_of m c main_arg3 (by decide),
    V8_of m c main_arg3 (by decide), V7_of m c main_arg3 (by decide), V6_of m c main_arg3 (by decide),
    V5_of m c main_arg3 (by decide), V4_of m c main_arg3 (by decide), V3_of m c main_arg3 (by decide),
    V2_of m c main_arg3 (by decide), V1_of m c main_arg3 (by decide)]

/-- The second region's right operand is the second weight, each entry quantised with the weight's step. -/
theorem V19_v45 (c : Dev nD) :
    (V19 m outs c main_v45 : S4096x4096.Idx → EReal)
      = fun i => quant (step (mxK.B (toMat (m ((c.tc : Thread nD τ).loc main_arg3)))))
          ((m ((c.tc : Thread nD τ).loc main_arg3) : S4096x4096.Idx → EReal) i) := by
  rw [V19_v45_aux, V14_arg3]
  funext i
  rw [qOf_sOf_apply, mxK_B]

/-- The second bias as a row: a shape cast of the argument. -/
theorem V19_v46_aux (c : Dev nD) :
    (V19 m outs c main_v46 : S1x4096.Idx → EReal)
      = shapeCast S1x4096 (V18 m outs c main_arg4 : S4096.Idx → EReal) shapeCasts_S4096_S1x4096 := by
  dsimp only [V19]
  generalize V18 m outs c = W
  after_results
  rfl

/-- The second bias's buffer still holds its launch contents. -/
theorem V18_arg4 (c : Dev nD) : V18 m outs c main_arg4 = m ((c.tc : Thread nD τ).loc main_arg4) := by
  rw [V18_of m outs c main_arg4 (by decide), V17_of m outs c main_arg4 (by decide), V16_of m outs c main_arg4 (by decide),
    V15_of m outs c main_arg4 (by decide), V14_of m outs c main_arg4 (by decide), V13_of m outs c main_arg4 (by decide),
    V12_of m outs c main_arg4 (by decide), V11_of m outs c main_arg4 (by decide), V10_of m outs c main_arg4 (by decide),
    V9_of m c main_arg4 (by decide), V8_of m c main_arg4 (by decide), V7_of m c main_arg4 (by decide),
    V6_of m c main_arg4 (by decide), V5_of m c main_arg4 (by decide), V4_of m c main_arg4 (by decide),
    V3_of m c main_arg4 (by decide), V2_of m c main_arg4 (by decide), V1_of m c main_arg4 (by decide)]

/-- The second region's bias row reads the bias vector at the column. -/
theorem V19_v46 (c : Dev nD) :
    (V19 m outs c main_v46 : S1x4096.Idx → EReal)
      = fun i => (m ((c.tc : Thread nD τ).loc main_arg4) : S4096.Idx → EReal) (ix1 ⟨(i 1).val, idx2_lt1 i⟩) := by
  rw [V19_v46_aux, V18_arg4]
  funext i
  exact (congrArg _ (eq_ix2 i)).trans (shapeCast_a_1a_apply _ _ ⟨(i 0).val, idx2_lt0 i⟩ ⟨(i 1).val, idx2_lt1 i⟩)

/-! ## Region 2's operands -/

/-- What the second region left, quantised, over the contents after that region. -/
theorem V25_v58 (c : Dev nD) :
    (V25 m outs c main_v58 : S4096x4096.Idx → EReal)
      = qOf bcast_S_S4096x4096 (sOf reducesTo_S4096x4096_S_d0_1 (V20 m outs c main_v47)) (V20 m outs c main_v47) := by
  dsimp only [V25, V24, V23, V22, V21]
  generalize V20 m outs c = W
  after_results_simp
  rfl

/-- After the second region its result buffer holds what the region left. -/
theorem V20_v47 (c : Dev nD) : V20 m outs c main_v47 = outs 20 main_v47 c := by
  simp only [V20, Function.update_self]

/-- The third region's left operand is what the second region left, each entry quantised with that tensor's step. -/
theorem V33_v58 (c : Dev nD) :
    (V33 m outs c main_v58 : S4096x4096.Idx → EReal)
      = fun i => quant (step (mxK.B (toMat (outs 20 main_v47 c : S4096x4096.Idx → EReal))))
          ((outs 20 main_v47 c : S4096x4096.Idx → EReal) i) := by
  rw [V33_of m outs c main_v58 (by decide), V32_of m outs c main_v58 (by decide), V31_of m outs c main_v58 (by decide),
    V30_of m outs c main_v58 (by decide), V29_of m outs c main_v58 (by decide), V28_of m outs c main_v58 (by decide),
    V27_of m outs c main_v58 (by decide), V26_of m outs c main_v58 (by decide),
    V25_v58, V20_v47]
  funext i
  rw [qOf_sOf_apply, mxK_B]

/-- The padding value, the integer zero converted, is the extended real zero. -/
theorem padVal (φ : FTy) (j : S_.Idx) : sitofp (F := Ideal) φ (constantI S_ 32 0#32) j = (0 : EReal) := by
  show (((0#32 : BitVec 32).toInt : ℝ) : EReal) = 0
  rw [BitVec.toInt_zero, Int.cast_zero, EReal.coe_zero]

/-- The third weight quantised and padded, over the contents before its stretch. -/
theorem V30_v70_aux (c : Dev nD) :
    (V30 m outs c main_v70 : S1024x4096.Idx → EReal)
      = pad S1024x4096 ![0, 0] ![24, 0] ![0, 0]
          (qOf bcast_S_S1000x4096 (sOf reducesTo_S1000x4096_S_d0_1 (V24 m outs c main_arg5)) (V24 m outs c main_arg5))
          (sitofp (F := Ideal) .bf16 (constantI S_ 32 0#32)) pads_S1000x4096_S1024x4096_0240_000 h_S_ := by
  dsimp only [V30, V29, V28, V27, V26, V25]
  generalize V24 m outs c = W
  after_results_simp
  rfl

/-- The third weight's buffer still holds its launch contents before its stretch. -/
theorem V24_arg5 (c : Dev nD) : V24 m outs c main_arg5 = m ((c.tc : Thread nD τ).loc main_arg5) := by
  rw [V24_of m outs c main_arg5 (by decide), V23_of m outs c main_arg5 (by decide), V22_of m outs c main_arg5 (by decide),
    V21_of m outs c main_arg5 (by decide), V20_of m outs c main_arg5 (by decide), V19_of m outs c main_arg5 (by decide),
    V18_of m outs c main_arg5 (by decide), V17_of m outs c main_arg5 (by decide), V16_of m outs c main_arg5 (by decide),
    V15_of m outs c main_arg5 (by decide), V14_of m outs c main_arg5 (by decide), V13_of m outs c main_arg5 (by decide),
    V12_of m outs c main_arg5 (by decide), V11_of m outs c main_arg5 (by decide), V10_of m outs c main_arg5 (by decide),
    V9_of m c main_arg5 (by decide), V8_of m c main_arg5 (by decide), V7_of m c main_arg5 (by decide),
    V6_of m c main_arg5 (by decide), V5_of m c main_arg5 (by decide), V4_of m c main_arg5 (by decide),
    V3_of m c main_arg5 (by decide), V2_of m c main_arg5 (by decide), V1_of m c main_arg5 (by decide)]

/-- The third region's right operand: the third weight, each entry quantised with the weight's step, in its first
    1000 rows, and zero in the 24 rows below. -/
theorem V33_v70 (c : Dev nD) :
    (V33 m outs c main_v70 : S1024x4096.Idx → EReal)
      = fun i => if h : (i 0).val < 1000 then
          quant (step (mxK.C (toMat (m ((c.tc : Thread nD τ).loc main_arg5)))))
            ((m ((c.tc : Thread nD τ).loc main_arg5) : S1000x4096.Idx → EReal) (ix2 ⟨(i 0).val, h⟩ ⟨(i 1).val, idx2_lt1 i⟩))
        else (0 : EReal) := by
  rw [V33_of m outs c main_v70 (by decide), V32_of m outs c main_v70 (by decide), V31_of m outs c main_v70 (by decide),
    V30_v70_aux, V24_arg5]
  funext i
  by_cases h : (i 0).val < 1000
  · rw [dif_pos h]
    refine (pad_apply_of_inside _ _ _ _ _ _ _ i (ix2 ⟨(i 0).val, h⟩ ⟨(i 1).val, idx2_lt1 i⟩) (fun a => ?_)).trans ?_
    · match a with
      | ⟨0, _⟩ => show (i 0).val = 0 + (i 0).val * (0 + 1); omega
      | ⟨1, _⟩ => show (i 1).val = 0 + (i 1).val * (0 + 1); omega
    · rw [qOf_sOf_apply, mxK_C]
  · rw [dif_neg h]
    refine (pad_apply_of_not_inside _ _ _ _ _ _ _ i (0 : Fin 2) (fun hin => h ?_)).trans (padVal _ _)
    have h3 : ((i 0).val - 0) / (0 + 1) < 1000 := hin.2.2
    omega

/-- The third bias padded and as a row, over the contents before its stretch. -/
theorem V33_v72_aux (c : Dev nD) :
    (V33 m outs c main_v72 : S1x1024.Idx → EReal)
      = shapeCast S1x1024
          (pad S1024 ![0] ![24] ![0] (V30 m outs c main_arg6 : S1000.Idx → EReal)
            (sitofp (F := Ideal) .f32 (constantI S_ 32 0#32)) pads_S1000_S1024_0240 h_S_)
          shapeCasts_S1024_S1x1024 := by
  dsimp only [V33, V32, V31]
  generalize V30 m outs c = W
  after_results
  rfl

/-- The third bias's buffer still holds its launch contents before its stretch. -/
theorem V30_arg6 (c : Dev nD) : V30 m outs c main_arg6 = m ((c.tc : Thread nD τ).loc main_arg6) := by
  rw [V30_of m outs c main_arg6 (by decide), V29_of m outs c main_arg6 (by decide), V28_of m outs c main_arg6 (by decide),
    V27_of m outs c main_arg6 (by decide), V26_of m outs c main_arg6 (by decide), V25_of m outs c main_arg6 (by decide),
    V24_of m outs c main_arg6 (by decide), V23_of m outs c main_arg6 (by decide), V22_of m outs c main_arg6 (by decide),
    V21_of m outs c main_arg6 (by decide), V20_of m outs c main_arg6 (by decide), V19_of m outs c main_arg6 (by decide),
    V18_of m outs c main_arg6 (by decide), V17_of m outs c main_arg6 (by decide), V16_of m outs c main_arg6 (by decide),
    V15_of m outs c main_arg6 (by decide), V14_of m outs c main_arg6 (by decide), V13_of m outs c main_arg6 (by decide),
    V12_of m outs c main_arg6 (by decide), V11_of m outs c main_arg6 (by decide), V10_of m outs c main_arg6 (by decide),
    V9_of m c main_arg6 (by decide), V8_of m c main_arg6 (by decide), V7_of m c main_arg6 (by decide),
    V6_of m c main_arg6 (by decide), V5_of m c main_arg6 (by decide), V4_of m c main_arg6 (by decide),
    V3_of m c main_arg6 (by decide), V2_of m c main_arg6 (by decide), V1_of m c main_arg6 (by decide)]

/-- The third region's bias row reads the bias vector at the column in its first 1000 columns, and zero in the 24 after. -/
theorem V33_v72 (c : Dev nD) :
    (V33 m outs c main_v72 : S1x1024.Idx → EReal)
      = fun i => if h : (i 1).val < 1000 then
          (m ((c.tc : Thread nD τ).loc main_arg6) : S1000.Idx → EReal) (ix1 ⟨(i 1).val, h⟩)
        else (0 : EReal) := by
  rw [V33_v72_aux, V30_arg6]
  funext i
  refine ((congrArg _ (eq_ix2 i)).trans (shapeCast_a_1a_apply _ _ ⟨(i 0).val, idx2_lt0 i⟩ ⟨(i 1).val, idx2_lt1 i⟩)).trans ?_
  by_cases h : (i 1).val < 1000
  · rw [dif_pos h]
    exact pad_apply_of_inside _ _ _ _ _ _ _ (ix1 ⟨(i 1).val, idx2_lt1 i⟩) (ix1 ⟨(i 1).val, h⟩) (fun a => by
      match a with
      | ⟨0, _⟩ => show (i 1).val = 0 + (i 1).val * (0 + 1); omega)
  · rw [dif_neg h]
    refine (pad_apply_of_not_inside _ _ _ _ _ _ _ (ix1 ⟨(i 1).val, idx2_lt1 i⟩) (0 : Fin 1) (fun hin => h ?_)).trans (padVal _ _)
    have h3 : ((i 1).val - 0) / (0 + 1) < 1000 := hin.2.2
    omega

/-! ## The result -/

/-- The result is a slice of the third region's result buffer. -/
theorem V35_v74_aux (c : Dev nD) :
    (V35 m outs c main_v74 : S4096x1000.Idx → EReal)
      = extractStridedSlice S4096x1000 ![0, 0] (V34 m outs c main_v73 : S4096x1024.Idx → EReal)
          slices_S4096x1024_S4096x1000_0_0 := by
  dsimp only [V35]
  generalize V34 m outs c = W
  after_results

/-- After the third region its result buffer holds what the region left. -/
theorem V34_v73 (c : Dev nD) : V34 m outs c main_v73 = outs 34 main_v73 c := by
  simp only [V34, Function.update_self]

/-- The result reads what the third region left at the same row and column: its first 1000 columns. -/
theorem V35_v74 (c : Dev nD) :
    (V35 m outs c main_v74 : S4096x1000.Idx → EReal)
      = fun i => (outs 34 main_v73 c : S4096x1024.Idx → EReal)
          (ix2 ⟨(i 0).val, idx2_lt0 i⟩ ⟨(i 1).val, Nat.lt_of_lt_of_le (idx2_lt1 i) (by decide)⟩) := by
  rw [V35_v74_aux, V34_v73]
  funext i
  exact (congrArg _ (eq_ix2 i)).trans
    (slice2_axis1_apply 0 _ _ ⟨(i 0).val, idx2_lt0 i⟩ ⟨(i 1).val, idx2_lt1 i⟩
      ⟨(i 1).val, Nat.lt_of_lt_of_le (idx2_lt1 i) (by decide)⟩ (Nat.zero_add _).symm)

end Cert.KernelIdeal.HostChain
-- ==== Proof.LibRealScale.lean ====
/-
  Real numbers among the extended reals.

  * An f32 word whose exponent field is not all ones (neither an infinity nor a NaN pattern) denotes a real number
    (`ofBits_real`) — so a program's finite literals never have to be evaluated to know they are real.
  * A real factor moves across a finite sum of real terms, whatever its sign (`pooled_scale`): for reals `p e` and `t`,
    `(z + ∑ e ∈ S, p e) * t = z + ∑ e ∈ S, p e * t` with `z = 0` the value the sum starts from. On the extended reals
    this fails when the sum meets both infinities, which is why the terms are asked to be real.
-/
import Idealize.ShloMosaic.PureOps.Ideal
import Idealize.ShloMosaic.PureOps.Ideal.Laws

noncomputable section

open scoped BigOperators

namespace Cert.Lib.RealScale

open Idealize.ShloMosaic

/-- An f32 word whose exponent field is not all ones denotes a real number. -/
theorem ofBits_real (b : BitVec 32) (h : (b.extractLsb' 23 8).toNat ≠ 255) :
    ∃ r : ℝ, Ideal.ofBits .f32 b = (r : EReal) := by
  unfold Ideal.ofBits Ideal.ieee
  simp only []
  rw [if_neg (by simpa using h)]
  split <;> exact ⟨_, rfl⟩

/-- A REAL FACTOR ACROSS A SUM OF REALS: for real terms `p e` and a real factor `t`,
    `(z + ∑ e ∈ S, p e) * t = z + ∑ e ∈ S, p e * t`, where `z` is the zero a running sum starts from. -/
theorem pooled_scale {ι : Type*} (S : Finset ι) (P : ι → EReal) (ts z : EReal) (hz : z = 0)
    (hP : ∀ e ∈ S, ∃ r : ℝ, P e = (r : EReal)) (hts : ∃ t : ℝ, ts = (t : EReal)) :
    (z + ∑ e ∈ S, P e) * ts = z + ∑ e ∈ S, P e * ts := by
  classical
  obtain ⟨t, rfl⟩ := hts
  subst hz
  rw [zero_add, zero_add]
  have key : ∀ (S' : Finset ι), S' ⊆ S → (∃ r : ℝ, ∑ e ∈ S', P e = (r : EReal)) ∧
      (∑ e ∈ S', P e) * (t : EReal) = ∑ e ∈ S', P e * (t : EReal) := by
    intro S'
    refine Finset.induction_on S' ?_ ?_
    · intro _; exact ⟨⟨0, by simp⟩, by simp⟩
    · intro a s ha ih hs
      obtain ⟨⟨r, hr⟩, ih2⟩ := ih (fun x hx => hs (Finset.mem_insert_of_mem hx))
      obtain ⟨q, hq⟩ := hP a (hs (Finset.mem_insert_self a s))
      rw [Finset.sum_insert ha, Finset.sum_insert ha, ← ih2, hr, hq]
      refine ⟨⟨q + r, by rw [EReal.coe_add]⟩, ?_⟩
      rw [← EReal.coe_add, ← EReal.coe_mul, ← EReal.coe_mul, ← EReal.coe_mul, ← EReal.coe_add, add_mul]
  exact (key S (Finset.Subset.refl S)).2

end Cert.Lib.RealScale

end
-- ==== Proof.Bridge.lean ====
/-
  The law that joins the two programs: on real inputs the reference's network equals the kernel's.

  The reference spells a quantised entry as x + (q - x), the kernel as q.  On the extended reals the two agree
  whenever x is a real number and q is a real number (they differ at x = ±∞, where x + (q - x) meets both
  infinities).  So realness is carried through the network:
  * the four shared words 3, the floor of the step, -4 and 0 are real numbers, and 3 is positive;
  * the step max (M / 3) eps is a real number for every M below +∞ (M / 3 is then -∞ or real, and eps is real);
  * a quantised entry min 3 (max (-4) r) * s is a real number for every real step s and EVERY extended real r,
    since the clip lies between the reals -4 and 3;
  * a positive part of a real, and a dense layer (finite sums of products of reals, plus a real bias) of reals,
    are real.
  Layer by layer the hidden activations of the two networks are then the same real matrices.
-/
import proofs.«135747_j2697239461893_2_alg».proof.Proof.Spec
import proofs.«135747_j2697239461893_2_alg».proof.Proof.LibRealScale
import Idealize.ShloMosaic.PureOps.Ideal.Laws
import Mathlib.Algebra.BigOperators.Fin
import Mathlib.Tactic.Linarith

noncomputable section

open scoped BigOperators

namespace Cert.Spec

open Idealize.ShloMosaic

/-- Every entry of the matrix is a real number. -/
def IsRealMat {a b : Nat} (t : Mat a b) : Prop := ∀ i j, ∃ r : ℝ, t i j = (r : EReal)
/-- Every entry of the vector is a real number. -/
def IsRealVc {a : Nat} (t : Vc a) : Prop := ∀ i, ∃ r : ℝ, t i = (r : EReal)

/-! ### The shared words -/

/-- The word of 3 denotes the real 3. -/
theorem c3_eq : c3 = ((3 : ℝ) : EReal) := by
  unfold c3
  simp [Ideal.ofBits, Ideal.ieee, -EReal.coe_mul]; norm_num

/-- The floor of the step is a real number. -/
theorem cEps_real : ∃ r : ℝ, cEps = (r : EReal) :=
  Cert.Lib.RealScale.ofBits_real _ (by decide)

/-- The word of -4 is a real number. -/
theorem cM4_real : ∃ r : ℝ, cM4 = (r : EReal) :=
  Cert.Lib.RealScale.ofBits_real _ (by decide)

/-- The zero word denotes 0. -/
theorem c0_eq : c0 = ((0 : ℝ) : EReal) := by
  unfold c0
  rw [Ideal.ofBits_zero_f32, EReal.coe_zero]

/-! ### Realness through the operations -/

/-- The maximum of two reals is a real. -/
theorem max_real {x y : EReal} (hx : ∃ r : ℝ, x = (r : EReal)) (hy : ∃ r : ℝ, y = (r : EReal)) :
    ∃ r : ℝ, max x y = (r : EReal) := by
  obtain ⟨p, rfl⟩ := hx
  obtain ⟨q, rfl⟩ := hy
  rcases le_total (p : EReal) (q : EReal) with h | h
  · exact ⟨q, max_eq_right h⟩
  · exact ⟨p, max_eq_left h⟩

/-- The step of a tensor whose largest magnitude is below +∞ is a real number. -/
theorem step_real (M : EReal) (hM : M ≠ ⊤) : ∃ r : ℝ, step M = (r : EReal) := by
  obtain ⟨e, he⟩ := cEps_real
  unfold step Ideal.div
  rw [c3_eq, he]
  have h3 : ((3 : ℝ) : EReal) ≠ 0 := by
    intro h; have := EReal.coe_eq_zero.mp h; norm_num at this
  rw [if_neg h3, ← EReal.coe_inv]
  induction M using EReal.rec with
  | bot =>
    have hpos : (0 : EReal) < (((3 : ℝ)⁻¹ : ℝ) : EReal) := by
      exact_mod_cast (by norm_num : (0 : ℝ) < (3 : ℝ)⁻¹)
    rw [EReal.bot_mul_of_pos hpos]
    exact ⟨e, max_eq_right bot_le⟩
  | coe m =>
    rw [← EReal.coe_mul]
    exact max_real ⟨_, rfl⟩ ⟨_, rfl⟩
  | top => exact absurd rfl hM

/-- A quantised entry is a real number whenever the step is: the clip lies between two reals. -/
theorem quant_real (s x : EReal) (hs : ∃ r : ℝ, s = (r : EReal)) : ∃ r : ℝ, quant s x = (r : EReal) := by
  obtain ⟨t, rfl⟩ := hs
  obtain ⟨m, hm⟩ := cM4_real
  unfold quant
  rw [c3_eq, hm]
  generalize Ideal.liftRound Ideal.roundHalfEven (Ideal.div x (t : EReal)) = y
  have hc : ∃ c : ℝ, min ((3 : ℝ) : EReal) (max (m : EReal) y) = (c : EReal) := by
    have hne_top : min ((3 : ℝ) : EReal) (max (m : EReal) y) ≠ ⊤ :=
      ne_top_of_le_ne_top (EReal.coe_ne_top 3) (min_le_left _ _)
    have hne_bot : min ((3 : ℝ) : EReal) (max (m : EReal) y) ≠ ⊥ := by
      have hlt : (⊥ : EReal) < min ((3 : ℝ) : EReal) (max (m : EReal) y) :=
        lt_min (EReal.bot_lt_coe 3) (lt_of_lt_of_le (EReal.bot_lt_coe m) (le_max_left _ _))
      exact ne_of_gt hlt
    exact ⟨_, (EReal.coe_toReal hne_top hne_bot).symm⟩
  obtain ⟨c, hc⟩ := hc
  rw [hc, ← EReal.coe_mul]
  exact ⟨_, rfl⟩

/-- Adding the rounding error back onto a REAL entry gives the quantised entry, for a real step. -/
theorem quantST_eq (s x : EReal) (hs : ∃ r : ℝ, s = (r : EReal)) (hx : ∃ r : ℝ, x = (r : EReal)) :
    quantST s x = quant s x := by
  obtain ⟨q, hq⟩ := quant_real s x hs
  obtain ⟨r, rfl⟩ := hx
  unfold quantST
  rw [hq, ← EReal.coe_sub, ← EReal.coe_add]
  congr 1
  ring

/-- Both spellings of a quantised matrix agree on a real matrix with a real step. -/
theorem qrow_eq {a b : Nat} (s : EReal) (t : Mat a b) (hs : ∃ r : ℝ, s = (r : EReal)) (ht : IsRealMat t) :
    (fun i k => quantST s (t i k)) = (fun i k => quant s (t i k)) := by
  funext i k
  exact quantST_eq s (t i k) hs (ht i k)

/-- A finite sum of reals is a real. -/
theorem sum_real {ι : Type*} (S : Finset ι) (f : ι → EReal) (hf : ∀ k ∈ S, ∃ r : ℝ, f k = (r : EReal)) :
    ∃ r : ℝ, ∑ k ∈ S, f k = (r : EReal) := by
  classical
  revert hf
  refine Finset.induction_on S ?_ ?_
  · intro _; exact ⟨0, by simp⟩
  · intro a s ha ih hf
    obtain ⟨r, hr⟩ := ih (fun k hk => hf k (Finset.mem_insert_of_mem hk))
    obtain ⟨q, hq⟩ := hf a (Finset.mem_insert_self a s)
    rw [Finset.sum_insert ha, hr, hq, ← EReal.coe_add]
    exact ⟨_, rfl⟩

/-- A dense layer of real matrices with a real bias is a real matrix. -/
theorem lin_real {M K N : Nat} (a : Mat M K) (w : Mat N K) (b : Vc N)
    (ha : IsRealMat a) (hw : IsRealMat w) (hb : IsRealVc b) : IsRealMat (lin a w b) := by
  intro i j
  unfold lin
  obtain ⟨s, hs⟩ := sum_real Finset.univ (fun k => a i k * w j k) (fun k _ => by
    obtain ⟨p, hp⟩ := ha i k
    obtain ⟨q, hq⟩ := hw j k
    exact ⟨p * q, by rw [hp, hq, EReal.coe_mul]⟩)
  obtain ⟨c, hc⟩ := hb j
  rw [hs, hc, ← EReal.coe_add]
  exact ⟨_, rfl⟩

/-- The positive part of a real is a real. -/
theorem relu_real {x : EReal} (hx : ∃ r : ℝ, x = (r : EReal)) : ∃ r : ℝ, relu x = (r : EReal) := by
  unfold relu
  exact max_real hx ⟨0, c0_eq⟩

/-- A hidden layer over an entry quantiser: the positive part of a dense layer of quantised operands. -/
def hid {M K N : Nat} (Q : EReal → EReal → EReal) (sa sw : EReal) (a : Mat M K) (w : Mat N K) (b : Vc N) : Mat M N :=
  fun i j => relu (lin (fun i k => Q sa (a i k)) (fun j k => Q sw (w j k)) b i j)

/-- A hidden layer over quantised operands with real steps and a real bias is a real matrix. -/
theorem hid_real {M K N : Nat} (sa sw : EReal) (a : Mat M K) (w : Mat N K) (b : Vc N)
    (hsa : ∃ r : ℝ, sa = (r : EReal)) (hsw : ∃ r : ℝ, sw = (r : EReal)) (hb : IsRealVc b) :
    IsRealMat (hid quant sa sw a w b) := by
  intro i j
  unfold hid
  exact relu_real (lin_real _ _ b (fun i k => quant_real sa (a i k) hsa) (fun j k => quant_real sw (w j k) hsw) hb i j)

/-- On real operands with real steps the two spellings give the same hidden layer. -/
theorem hid_congr {M K N : Nat} (sa sw : EReal) (a : Mat M K) (w : Mat N K) (b : Vc N)
    (hsa : ∃ r : ℝ, sa = (r : EReal)) (hsw : ∃ r : ℝ, sw = (r : EReal)) (ha : IsRealMat a) (hw : IsRealMat w) :
    hid quantST sa sw a w b = hid quant sa sw a w b := by
  unfold hid
  rw [qrow_eq sa a hsa ha, qrow_eq sw w hsw hw]

/-- The network as two hidden layers and a last dense layer. -/
theorem net_hid (Q : EReal → EReal → EReal) (mx : Mx)
    (x W0 : Mat 4096 1024) (b0 : Vc 4096) (W1 : Mat 4096 4096) (b1 : Vc 4096) (W2 : Mat 1000 4096) (b2 : Vc 1000) :
    net Q mx x W0 b0 W1 b1 W2 b2 =
      lin (fun i k => Q
          (step (mx.B (hid Q (step (mx.B (hid Q (step (mx.A x)) (step (mx.A W0)) x W0 b0))) (step (mx.B W1))
            (hid Q (step (mx.A x)) (step (mx.A W0)) x W0 b0) W1 b1)))
          (hid Q (step (mx.B (hid Q (step (mx.A x)) (step (mx.A W0)) x W0 b0))) (step (mx.B W1))
            (hid Q (step (mx.A x)) (step (mx.A W0)) x W0 b0) W1 b1 i k))
        (fun j k => Q (step (mx.C W2)) (W2 j k)) b2 := rfl

/-! ### The two networks -/

/-- On real inputs, with a largest-magnitude functional that is below +∞ on real tensors, the reference's network is
    the kernel's. -/
theorem net_eq (mx : Mx) (hA : ∀ t, IsRealMat t → mx.A t ≠ ⊤) (hB : ∀ t, IsRealMat t → mx.B t ≠ ⊤)
    (hC : ∀ t, IsRealMat t → mx.C t ≠ ⊤)
    (x W0 : Mat 4096 1024) (b0 : Vc 4096) (W1 : Mat 4096 4096) (b1 : Vc 4096) (W2 : Mat 1000 4096) (b2 : Vc 1000)
    (hx : IsRealMat x) (hW0 : IsRealMat W0) (hb0 : IsRealVc b0) (hW1 : IsRealMat W1) (hb1 : IsRealVc b1)
    (hW2 : IsRealMat W2) (hb2 : IsRealVc b2) :
    netR mx x W0 b0 W1 b1 W2 b2 = netK mx x W0 b0 W1 b1 W2 b2 := by
  have sx := step_real _ (hA x hx)
  have sW0 := step_real _ (hA W0 hW0)
  have sW1 := step_real _ (hB W1 hW1)
  have sW2 := step_real _ (hC W2 hW2)
  -- the first hidden layer: the same real matrix in both networks
  have e1 := hid_congr _ _ x W0 b0 sx sW0 hx hW0
  have r1 := hid_real _ _ x W0 b0 sx sW0 hb0
  have s1 := step_real _ (hB _ r1)
  -- the second hidden layer
  have e2 := hid_congr _ _ _ W1 b1 s1 sW1 r1 hW1
  have r2 := hid_real _ _ (hid quant (step (mx.A x)) (step (mx.A W0)) x W0 b0) W1 b1 s1 sW1 hb1
  have s2 := step_real _ (hB _ r2)
  unfold netR netK
  rw [net_hid, net_hid, e1, e2, qrow_eq _ _ s2 r2, qrow_eq _ W2 sW2 hW2]

end Cert.Spec

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«135747_j2697239461893_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.R0Value.lean ====
/-
  The value of the first dense layer's region at the extended reals.

  The region's grid is 4 x 4 x 1. Point t = 4 i + j reads rows 1024 i … 1024 i + 1023 of the input (all 1024 columns), rows
  1024 j … 1024 j + 1023 of the weight, which is stored by output rows, and entries 1024 j … 1024 j + 1023 of the bias row; it
  zeroes an accumulator, adds the product of the two blocks into it, and stores the accumulator plus the bias row, taken to its
  positive part, to block (i, j) of the result, which is written back at every point. Entry (p, q) of that block is therefore
  max (0 + ∑ k, x (1024 i + p, k) · w (1024 j + q, k) + b (1024 j + q)) 0: the layer's entry (1024 i + p, 1024 j + q). The sixteen
  blocks tile the result, so the array the region leaves is the layer of the three operand arrays, entry by entry. Over the
  extended reals 0 + x = x, so nothing here asks the entries to be finite.
-/
import proofs.«135747_j2697239461893_2_alg».proof.Proof.R0
import proofs.«135747_j2697239461893_2_alg».proof.Proof.Spec
import proofs.«135747_j2697239461893_2_alg».proof.Proof.LibBlockOps
import Idealize.ShloMosaic.Lib.Pipeline.Value
import Idealize.ShloMosaic.Lib.ValueLayout
import Idealize.ShloMosaic.Lib.Tactic

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.SL.Sem
open Idealize.ShloMosaic.Pipeline (Dat)

variable {F : FTy → Type} [FloatOps F]

/-- The offsets of a load or store of a whole block are zero on both axes. -/
theorem hz0 : (![0, 0] : Fin 2 → Nat) = fun _ => 0 := funext fun a => by fin_cases a <;> rfl

/-- A load of the whole buffer after stores the last of which was a store of the whole buffer reads that store's payload. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What one point leaves in its output block: the zero block, plus the product of the two operand blocks, plus the bias row, taken to its positive part. -/
theorem outBoth_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz : condZ i) (hl : condL i) (x3 : Vec F S1024x1024 .bf16) (x4 : Vec F S1024x1024 .bf16) (x5 : Vec F S1x1024 .f32) :
    outBoth c i arg3 harg3 arg4 harg4 arg5 harg5 arg6 harg6 arg7 harg7 hz hl x3 x4 x5 = k0_pay3 (k0_pay2 k0_pay1 x3 x4) x5 := by
  unfold outBoth
  rw [View.read_writes_eq_canon _ _ _ (coverBoth c i arg3 harg3 arg4 harg4 arg5 harg5 arg6 harg6 arg7 harg7 hz hl x3 x4 x5)]
  unfold runBoth
  dsimp only
  sl_unfold_words
  rw [View.canon_unit_zero hz0, readCov_cons_unit_zero (S := S1024x1024) _ hz0, View.readCov_unit_zero (S := S1024x1024) _ hz0]
  simp only [View.readAt_eq_ld, harg3.read_unread, harg4.read_unread, harg5.read_unread, View.ld_unit_zero (S := S1024x1024) hz0, View.ld_unit_zero (S := S1x1024) hz0]

/-! ## The stored block at an entry, at the extended reals -/

open Idealize.ShloMosaic.ValueIdx in
/-- The zero block, at an entry. -/
theorem pay1_apply (p q : Fin 1024) :
    (k0_pay1 (F := Ideal) : S1024x1024.Idx → EReal) (ix2 p q) = 0 := by
  unfold k0_pay1
  simp only [shapeCast_self]
  exact Ideal.ofBits_zero_f32

open Idealize.ShloMosaic.ValueIdx in
/-- An accumulator block plus the product of a block of the left operand with a block of the right operand stored by output rows, at entry
    (p, q): the accumulator's entry plus the inner product of row p of the one with row q of the other. -/
theorem pay2_apply (a : Vec Ideal S1024x1024 .f32) (x3 x4 : Vec Ideal S1024x1024 .bf16) (p q : Fin 1024) :
    (k0_pay2 (F := Ideal) a x3 x4 : S1024x1024.Idx → EReal) (ix2 p q)
      = (a (ix2 p q) : EReal) + ∑ kk : Fin 1024, (x3 (ix2 p kk) : EReal) * (x4 (ix2 q kk) : EReal) := by
  unfold k0_pay2
  simp only [shapeCast_self]
  exact congrArg (fun z : EReal => (a (ix2 p q) : EReal) + z)
    (Cert.Lib.BlockOps.matmul_rows_apply dot_S1024x1024_S1024x1024_S1024x1024_1_1_0_0_n_n_wf none x3 x4 p q)

open Idealize.ShloMosaic.ValueIdx in
/-- An accumulator block plus the bias row repeated down the rows, taken to its positive part, at entry (p, q). -/
theorem pay3_apply (a : Vec Ideal S1024x1024 .f32) (x5 : Vec Ideal S1x1024 .f32) (p q : Fin 1024) :
    (k0_pay3 (F := Ideal) a x5 : S1024x1024.Idx → EReal) (ix2 p q)
      = max ((a (ix2 p q) : EReal) + (x5 (ix2 (0 : Fin 1) q) : EReal)) (Ideal.ofBits .f32 0x00000000#32) := by
  unfold k0_pay3
  simp only [shapeCast_self]
  exact congrArg (fun z : EReal => max ((a (ix2 p q) : EReal) + z) (Ideal.ofBits .f32 0x00000000#32))
    (broadcastTo_1b_ab_apply x5 broadcasts_S1x1024_S1024x1024 p q)

open Idealize.ShloMosaic.ValueIdx in
/-- One point's output block at entry (p, q): the positive part of the inner product of the two rows plus the bias entry. -/
theorem out_apply (x3 x4 : Vec Ideal S1024x1024 .bf16) (x5 : Vec Ideal S1x1024 .f32) (p q : Fin 1024) :
    (k0_pay3 (F := Ideal) (k0_pay2 (F := Ideal) (k0_pay1 (F := Ideal)) x3 x4) x5 : S1024x1024.Idx → EReal) (ix2 p q)
      = Cert.Spec.relu ((∑ kk : Fin 1024, (x3 (ix2 p kk) : EReal) * (x4 (ix2 q kk) : EReal)) + (x5 (ix2 (0 : Fin 1) q) : EReal)) := by
  rw [pay3_apply, pay2_apply, pay1_apply, zero_add]
  rfl

/-! ## From the blocks to the array -/

open Idealize.ShloMosaic.ValueIdx

/-- The layer as one function of the three operand arrays: entry (r, s) is the positive part of the inner product of row r of the
    input with row s of the weight, plus entry s of the bias row. -/
def G (A W : S4096x1024.Idx → EReal) (b : S1x4096.Idx → EReal) : S4096x4096.Idx → EReal :=
  fun i => Cert.Spec.relu (Cert.Spec.lin (Cert.Spec.toMat A) (Cert.Spec.toMat W) (fun j => b (ix2 (0 : Fin 1) j)) (i 0) (i 1))

/-- One point's output block at entry (p, q), when its three operand blocks are the rows r of the input, the rows s of the weight and
    the entries s of the bias: the layer's entry (r, s). -/
theorem point_entry (A W : S4096x1024.Idx → EReal) (b : S1x4096.Idx → EReal)
    (x3 x4 : Vec Ideal S1024x1024 .bf16) (x5 : Vec Ideal S1x1024 .f32) (p q : Fin 1024) (r s : Fin 4096)
    (h3 : ∀ kk : Fin 1024, (x3 (ix2 p kk) : EReal) = A (ix2 r kk))
    (h4 : ∀ kk : Fin 1024, (x4 (ix2 q kk) : EReal) = W (ix2 s kk))
    (h5 : (x5 (ix2 (0 : Fin 1) q) : EReal) = b (ix2 (0 : Fin 1) s)) :
    (k0_pay3 (F := Ideal) (k0_pay2 (F := Ideal) (k0_pay1 (F := Ideal)) x3 x4) x5 : S1024x1024.Idx → EReal) (ix2 p q)
      = G A W b (ix2 r s) := by
  rw [out_apply, h5, Finset.sum_congr rfl (fun kk _ => by rw [h3 kk, h4 kk])]
  rfl

/-- The printed index maps over the grid: point t = 4 i + j reads block (i, 0) of the input, block (j, 0) of the weight, block (0, j) of
    the bias row, and writes block (i, j) of the result. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

variable (V : (c : Dev nD) → (b : Ref sig .tc) → Buf (Elt Ideal) ((c : Thread nD τ).loc b))

/-- The input's block at point t, at (p, kk): row (t / 4) · 1024 + p of the input. -/
theorem iblk0_apply (c : Dev nD) (t : Fin cfg0.N) (p kk : Fin 1024) (r : Fin 4096) (hr : r.val = t.val / 4 * 1024 + p.val) :
    ((iblk V c 0 t : Vec Ideal S1024x1024 .bf16) (ix2 p kk) : EReal) = (V c main_v10 : S4096x1024.Idx → EReal) (ix2 r kk) := by
  obtain ⟨e0, e1, -⟩ := idx_facts t
  unfold iblk
  rw [View.read_apply]
  show V c main_v10 (((cfg0.win 0).blk t).view.emb (ix2 p kk)) = V c main_v10 (ix2 r kk)
  refine congrArg (V c main_v10) (funext fun a => Fin.ext ?_)
  match a with
  | ⟨0, _⟩ => show win0_0.index t (0 : Fin 2) * 1024 + 1 * p.val = r.val; omega
  | ⟨1, _⟩ => show win0_0.index t (1 : Fin 2) * 1024 + 1 * kk.val = kk.val; omega

/-- The weight's block at point t, at (q, kk): row (t % 4) · 1024 + q of the weight. -/
theorem iblk1_apply (c : Dev nD) (t : Fin cfg0.N) (q kk : Fin 1024) (s : Fin 4096) (hs : s.val = t.val % 4 * 1024 + q.val) :
    ((iblk V c 1 t : Vec Ideal S1024x1024 .bf16) (ix2 q kk) : EReal) = (V c main_v21 : S4096x1024.Idx → EReal) (ix2 s kk) := by
  obtain ⟨-, -, e2, e3, -⟩ := idx_facts t
  unfold iblk
  rw [View.read_apply]
  show V c main_v21 (((cfg0.win 1).blk t).view.emb (ix2 q kk)) = V c main_v21 (ix2 s kk)
  refine congrArg (V c main_v21) (funext fun a => Fin.ext ?_)
  match a with
  | ⟨0, _⟩ => show win0_1.index t (0 : Fin 2) * 1024 + 1 * q.val = s.val; omega
  | ⟨1, _⟩ => show win0_1.index t (1 : Fin 2) * 1024 + 1 * kk.val = kk.val; omega

/-- The bias row's block at point t, at (0, q): entry (t % 4) · 1024 + q of the bias row. -/
theorem iblk2_apply (c : Dev nD) (t : Fin cfg0.N) (q : Fin 1024) (s : Fin 4096) (hs : s.val = t.val % 4 * 1024 + q.val) :
    ((iblk V c 2 t : Vec Ideal S1x1024 .f32) (ix2 (0 : Fin 1) q) : EReal) = (V c main_v22 : S1x4096.Idx → EReal) (ix2 (0 : Fin 1) s) := by
  obtain ⟨-, -, -, -, e4, e5, -⟩ := idx_facts t
  unfold iblk
  rw [View.read_apply]
  show V c main_v22 (((cfg0.win 2).blk t).view.emb (ix2 (0 : Fin 1) q)) = V c main_v22 (ix2 (0 : Fin 1) s)
  refine congrArg (V c main_v22) (funext fun a => Fin.ext ?_)
  match a with
  | ⟨0, _⟩ => show win0_2.index t (0 : Fin 2) * 1 + 1 * 0 = 0; omega
  | ⟨1, _⟩ => show win0_2.index t (1 : Fin 2) * 1024 + 1 * q.val = s.val; omega

/-- What point t writes back is block t of the layer of the operand arrays. -/
theorem flushed_eq (c : Dev nD) (t : Fin cfg0.N) :
    (dat (F := Ideal) V c).flushed 3 t
      = ((cfg0.win 3).blk t).view.read (Elt Ideal) (G (V c main_v10) (V c main_v21) (V c main_v22)) := by
  show (cfg0.win 3).cut (grid0.coords t) ((dat (F := Ideal) V c).after 3 t) = _
  rw [after3]
  unfold outAt
  rw [outBoth_eq c (grid0.coords t) (ms0 t) (hs0 t) (ms1 t) (hs1 t) (ms2 t) (hs2 t) (ms3 t) (hs3 t) scM (Memref.isWhole_whole _) (hcondZ t) (hcondL t) (iblk V c 0 t) (iblk V c 1 t) (iblk V c 2 t)]
  obtain ⟨-, -, -, -, -, -, e6, e7⟩ := idx_facts t
  have ht : t.val < 16 := Nat.lt_of_lt_of_eq t.isLt N_0
  funext j
  show (k0_pay3 (F := Ideal) (k0_pay2 (F := Ideal) (k0_pay1 (F := Ideal)) (iblk V c 0 t) (iblk V c 1 t)) (iblk V c 2 t) : S1024x1024.Idx → EReal) j
    = G (V c main_v10) (V c main_v21) (V c main_v22) (((cfg0.win 3).blk t).view.emb j)
  obtain ⟨p, q, rfl⟩ : ∃ (p q : Fin 1024), j = ix2 p q := ⟨j 0, j 1, eq_ix2 j⟩
  have hemb : ((cfg0.win 3).blk t).view.emb (ix2 p q)
      = (ix2 (⟨t.val / 4 * 1024 + p.val, by omega⟩ : Fin 4096) (⟨t.val % 4 * 1024 + q.val, by omega⟩ : Fin 4096) : S4096x4096.Idx) := by
    funext a; apply Fin.ext
    match a with
    | ⟨0, _⟩ => show win0_3.index t (0 : Fin 2) * 1024 + 1 * p.val = t.val / 4 * 1024 + p.val; omega
    | ⟨1, _⟩ => show win0_3.index t (1 : Fin 2) * 1024 + 1 * q.val = t.val % 4 * 1024 + q.val; omega
  exact (point_entry (V c main_v10) (V c main_v21) (V c main_v22) (iblk V c 0 t) (iblk V c 1 t) (iblk V c 2 t) p q
      ⟨t.val / 4 * 1024 + p.val, by omega⟩ ⟨t.val % 4 * 1024 + q.val, by omega⟩
      (fun kk => iblk0_apply V c t p kk _ rfl) (fun kk => iblk1_apply V c t q kk _ rfl) (iblk2_apply V c t q _ rfl)).trans
    (congrArg (G (V c main_v10) (V c main_v21) (V c main_v22)) hemb.symm)

/-- An entry of the result is in point t's block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v23).slice (win0_3.rect t)).set ↔ _
  rw [View.set_slice_whole, Rect.mem_set_unit]
  exact Iff.rfl

/-- Every entry (r, s) of the result is in the block of the point 4 (r / 1024) + s / 1024, and every point writes its block back. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  obtain ⟨t, tv⟩ : ∃ t : Fin cfg0.N, t.val = (i 0).val / 1024 * 4 + (i 1).val / 1024 := ⟨⟨(i 0).val / 1024 * 4 + (i 1).val / 1024, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the region: the layer of the three operand arrays as the region finds them, entry by entry. -/
theorem result (c : Dev nD) :
    ((Cert.KernelIdeal.R0.dat (F := Ideal) V c).arrAt 3 cfg0.N : S4096x4096.Idx → EReal)
      = fun i => Cert.Spec.relu (Cert.Spec.lin (Cert.Spec.toMat (V c main_v10 : S4096x1024.Idx → EReal)) (Cert.Spec.toMat (V c main_v21 : S4096x1024.Idx → EReal)) (fun j => (V c main_v22 : S1x4096.Idx → EReal) (ValueIdx.ix2 0 j)) (i 0) (i 1)) :=
  (Cert.KernelIdeal.R0.dat (F := Ideal) V c).arrAt_eq_of_cover 3 (G (V c main_v10) (V c main_v21) (V c main_v22)) (fun t _ => flushed_eq V c t) cover

end Cert.KernelIdeal.R0V

end
-- ==== Proof.R1Value.lean ====
/-
  The value of region 1 over the extended reals: the array the region leaves in its output is the dense layer
  `relu (A · Wᵀ + b)` of its three operand arrays.

  The grid is 4 x 4 x 4 and point `t = (i · 4 + j) · 4 + k` works on block `(i, k)` of `A`, block `(j, k)` of `W`
  (stored by output rows), block `j` of the bias row and block `(i, j)` of the output, all blocks 1024 x 1024 (the
  bias 1 x 1024). Over `k` the body keeps an accumulator: where `k = 0` it is reset to zero first, at every point
  the product of the two operand blocks (row `p` of the first against row `q` of the second) is added to it, and where
  `k = 3` the accumulator plus the bias row, taken to its positive part, is stored to the output block and written
  back. Below: what each control case leaves, as the printed payloads of the blocks it read; the three payloads at an
  entry over the extended reals; each block read as entries of its array; the accumulator after the four points of
  one output block, which is `0` plus the four block products in order; a sum over 4096 positions as four blocks of
  1024, which makes that the whole inner product of a row of `A` with a row of `W`; and the output array from the
  blocks written back, every entry `(r, s)` lying in the block of the point `(r / 1024, s / 1024, 3)`. Addition on the
  extended reals is associative and `0 + x = x`, so nothing here asks an entry to be finite.
-/
import proofs.«135747_j2697239461893_2_alg».proof.Proof.R1
import proofs.«135747_j2697239461893_2_alg».proof.Proof.Spec
import Idealize.ShloMosaic.Lib.Pipeline.Value
import Idealize.ShloMosaic.Lib.ValueLayout
import Idealize.ShloMosaic.Lib.Tactic
import proofs.«135747_j2697239461893_2_alg».proof.Proof.LibBlockOps

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.Tactic Idealize.SL.Sem
open Idealize.ShloMosaic.Pipeline (Dat)
open Idealize.ShloMosaic.ValueIdx

/-! ## What each control case leaves, as the payloads of the blocks it read -/

section Pieces
variable {F : FTy → Type} [FloatOps F]

/-- The zero offsets, however spelt. -/
theorem hz : (![0, 0] : Fin 2 → Nat) = fun _ => 0 := funext fun a => by fin_cases a <;> rfl

/-- A middle point leaves in the accumulator the product added onto what it held. -/
theorem soutMid_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : ¬condZ i) (hl : ¬condL i) (x3 : Vec F S1024x1024 .bf16) (x4 : Vec F S1024x1024 .bf16) (xs : Vec F S1024x1024 .f32) :
    soutMid c i arg3 harg3 arg4 harg4 arg5 harg5 arg6 harg6 arg7 harg7 hz' hl x3 x4 xs = k1_pay2 xs x3 x4 := by
  unfold soutMid
  rw [View.read_writes_eq_canon _ _ _ (scoverMid c i arg3 harg3 arg4 harg4 arg5 harg5 arg6 harg6 arg7 harg7 hz' hl x3 x4 xs)]
  unfold runMid
  dsimp only
  rw [View.canon_unit_zero hz]
  simp only [View.readAt_eq_ld, harg3.read_unread, harg4.read_unread, harg7.read_unread, View.ld_unit_zero (S := S1024x1024) hz]

/-- A first point leaves in the accumulator the product added onto the zero block it has just stored and read back. -/
theorem soutFirst_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : condZ i) (hl : ¬condL i) (x3 : Vec F S1024x1024 .bf16) (x4 : Vec F S1024x1024 .bf16) :
    soutFirst c i arg3 harg3 arg4 harg4 arg5 harg5 arg6 harg6 arg7 harg7 hz' hl x3 x4 = k1_pay2 (k1_pay1 (F := F)) x3 x4 := by
  unfold soutFirst
  rw [View.read_writes_eq_canon _ _ _ (scoverFirst c i arg3 harg3 arg4 harg4 arg5 harg5 arg6 harg6 arg7 harg7 hz' hl x3 x4)]
  unfold runFirst
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A last point leaves in the accumulator the product added onto what it held, -/
theorem soutLast_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : ¬condZ i) (hl : condL i) (x3 : Vec F S1024x1024 .bf16) (x4 : Vec F S1024x1024 .bf16) (x5 : Vec F S1x1024 .f32) (xs : Vec F S1024x1024 .f32) :
    soutLast c i arg3 harg3 arg4 harg4 arg5 harg5 arg6 harg6 arg7 harg7 hz' hl x3 x4 x5 xs = k1_pay2 xs x3 x4 := by
  unfold soutLast
  rw [View.read_writes_eq_canon _ _ _ (scoverLast c i arg3 harg3 arg4 harg4 arg5 harg5 arg6 harg6 arg7 harg7 hz' hl x3 x4 x5 xs)]
  unfold runLast
  dsimp only
  sl_unfold_words
  rw [View.canon_unit_zero (S := S1024x1024) hz]
  simp only [View.readAt_eq_ld, harg3.read_unread, harg4.read_unread, harg7.read_unread, View.ld_unit_zero (S := S1024x1024) hz]

/-- and in the output block that accumulator plus the bias row, taken to its positive part. -/
theorem outLast_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : ¬condZ i) (hl : condL i) (x3 : Vec F S1024x1024 .bf16) (x4 : Vec F S1024x1024 .bf16) (x5 : Vec F S1x1024 .f32) (xs : Vec F S1024x1024 .f32) :
    outLast c i arg3 harg3 arg4 harg4 arg5 harg5 arg6 harg6 arg7 harg7 hz' hl x3 x4 x5 xs = k1_pay3 (k1_pay2 xs x3 x4) x5 := by
  unfold outLast
  rw [View.read_writes_eq_canon _ _ _ (coverLast c i arg3 harg3 arg4 harg4 arg5 harg5 arg6 harg6 arg7 harg7 hz' hl x3 x4 x5 xs)]
  unfold runLast
  dsimp only
  sl_unfold_words
  rw [View.canon_unit_zero (S := S1024x1024) hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz]

end Pieces

/-! ## The three payloads at an entry, over the extended reals -/

/-- The zero block. -/
theorem pay1_apply (p q : Fin 1024) : k1_pay1 (F := Ideal) (ix2 p q) = 0 := by
  unfold k1_pay1
  try dsimp only
  rw [shapeCast_self, broadcast_apply]
  exact Ideal.ofBits_zero_f32

/-- The accumulator plus the product into zero of the two blocks, both contracted on their second axis. -/
theorem pay2_apply (xs : Vec Ideal S1024x1024 .f32) (x3 x4 : Vec Ideal S1024x1024 .bf16) (p q : Fin 1024) :
    k1_pay2 (F := Ideal) xs x3 x4 (ix2 p q) = xs (ix2 p q) + ∑ kk : Fin 1024, x3 (ix2 p kk) * x4 (ix2 q kk) := by
  unfold k1_pay2
  try dsimp only
  rw [shapeCast_self, shapeCast_self, shapeCast_self, addf_apply]
  exact congrArg (xs (ix2 p q) + ·)
    (Cert.Lib.BlockOps.matmul_rows_apply dot_S1024x1024_S1024x1024_S1024x1024_1_1_0_0_n_n.wf none x3 x4 p q)

/-- The accumulator plus the bias row repeated down the rows, with its positive part. -/
theorem pay3_apply (v16 : Vec Ideal S1024x1024 .f32) (v17 : Vec Ideal S1x1024 .f32) (p q : Fin 1024) :
    k1_pay3 (F := Ideal) v16 v17 (ix2 p q)
      = max (v16 (ix2 p q) + v17 (ix2 (0 : Fin 1) q)) (Ideal.ofBits .f32 0x00000000#32) := by
  unfold k1_pay3
  try dsimp only
  rw [maximumf_apply, addf_apply, broadcast_apply, shapeCast_self, broadcastTo_1b_ab_apply]
  rfl

/-! ## The blocks the windows read, as entries of the operand arrays -/

section Value
variable (V : (c : Dev nD) → (b : Ref sig .tc) → Buf (Elt Ideal) ((c : Thread nD τ).loc b))

/-- The block index maps over the grid: point `t` is `(t / 16, t / 4 % 4, t % 4)`. -/
theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4)

/-- Entry `(p, kk)` of the first operand's block at point `t` is entry `(1024 (t / 16) + p, 1024 (t % 4) + kk)` of the array. -/
theorem iblk0_apply (c : Dev nD) (t : Fin cfg1.N) (p kk : Fin 1024) (r k : Fin 4096)
    (hr : r.val = 1024 * (t.val / 16) + p.val) (hk : k.val = 1024 * (t.val % 4) + kk.val) :
    ((iblk V c 0 t : Vec Ideal S1024x1024 .bf16) (ix2 p kk) : EReal) = Cert.Spec.toMat (V c main_v34 : S4096x4096.Idx → EReal) r k := by
  obtain ⟨e0, e1, -⟩ := idx_facts t
  unfold iblk
  rw [View.read_apply]
  show V c main_v34 _ = V c main_v34 _
  refine congrArg _ (funext fun a => Fin.ext ?_)
  match a with
  | ⟨0, _⟩ => show win1_0.index t 0 * 1024 + 1 * p.val = r.val; rw [e0, hr]; omega
  | ⟨1, _⟩ => show win1_0.index t 1 * 1024 + 1 * kk.val = k.val; rw [e1, hk]; omega

/-- Entry `(q, kk)` of the second operand's block at point `t` is entry `(1024 (t / 4 % 4) + q, 1024 (t % 4) + kk)` of the array. -/
theorem iblk1_apply (c : Dev nD) (t : Fin cfg1.N) (q kk : Fin 1024) (r k : Fin 4096)
    (hr : r.val = 1024 * (t.val / 4 % 4) + q.val) (hk : k.val = 1024 * (t.val % 4) + kk.val) :
    ((iblk V c 1 t : Vec Ideal S1024x1024 .bf16) (ix2 q kk) : EReal) = Cert.Spec.toMat (V c main_v45 : S4096x4096.Idx → EReal) r k := by
  obtain ⟨-, -, e0, e1, -⟩ := idx_facts t
  unfold iblk
  rw [View.read_apply]
  show V c main_v45 _ = V c main_v45 _
  refine congrArg _ (funext fun a => Fin.ext ?_)
  match a with
  | ⟨0, _⟩ => show win1_1.index t 0 * 1024 + 1 * q.val = r.val; rw [e0, hr]; omega
  | ⟨1, _⟩ => show win1_1.index t 1 * 1024 + 1 * kk.val = k.val; rw [e1, hk]; omega

/-- Entry `(0, q)` of the bias row's block at point `t` is entry `(0, 1024 (t / 4 % 4) + q)` of the row. -/
theorem iblk2_apply (c : Dev nD) (t : Fin cfg1.N) (q : Fin 1024) (r : Fin 4096)
    (hr : r.val = 1024 * (t.val / 4 % 4) + q.val) :
    ((iblk V c 2 t : Vec Ideal S1x1024 .f32) (ix2 (0 : Fin 1) q) : EReal) = (V c main_v46 : S1x4096.Idx → EReal) (ix2 (0 : Fin 1) r) := by
  obtain ⟨-, -, -, -, e0, e1, -⟩ := idx_facts t
  unfold iblk
  rw [View.read_apply]
  show V c main_v46 _ = V c main_v46 _
  refine congrArg _ (funext fun a => Fin.ext ?_)
  match a with
  | ⟨0, _⟩ => show win1_2.index t 0 * 1 + 1 * 0 = 0; rw [e0]
  | ⟨1, _⟩ => show win1_2.index t 1 * 1024 + 1 * q.val = r.val; rw [e1, hr]; omega

/-! ## The accumulator and the output block, entry by entry -/

/-- The three input blocks of point `t`, the accumulator after position `n`, and the output block's buffer there, as arrays of extended reals. -/
def blkA (c : Dev nD) (t : Fin cfg1.N) : S1024x1024.Idx → EReal := iblk V c 0 t
def blkW (c : Dev nD) (t : Fin cfg1.N) : S1024x1024.Idx → EReal := iblk V c 1 t
def blkB (c : Dev nD) (t : Fin cfg1.N) : S1x1024.Idx → EReal := iblk V c 2 t
def accAt (c : Dev nD) (n : ℕ) (hn : n < cfg1.N) : S1024x1024.Idx → EReal := (outsAt V c n hn).2
def outAt (c : Dev nD) (n : ℕ) (hn : n < cfg1.N) : S1024x1024.Idx → EReal := (outsAt V c n hn).1

/-- The product of the two operand blocks of point `t`, at entry `(p, q)`: row `p` of the first against row `q` of the second. -/
def blockProd (c : Dev nD) (t : Fin cfg1.N) (p q : Fin 1024) : EReal :=
  ∑ kk : Fin 1024, blkA V c t (ix2 p kk) * blkW V c t (ix2 q kk)

/-- Where the contraction index is 0 the accumulator is reset: it ends at `0 +` this point's block product. -/
theorem acc_first (c : Dev nD) (t : Fin cfg1.N) (h0 : t.val % 4 = 0) (p q : Fin 1024) :
    accAt V c t.val t.isLt (ix2 p q) = 0 + blockProd V c t p q := by
  have h3 : ¬t.val % 4 = 3 := by omega
  unfold accAt
  rw [outsAt_first V c t h0 h3]
  dsimp only
  rw [soutFirst_eq (F := Ideal) c (grid1.coords t) (ms0 t) (hs0 t) (ms1 t) (hs1 t) (ms2 t) (hs2 t) (ms3 t) (hs3 t) scM (Memref.isWhole_whole _) ((hcondZ t).mpr h0) (fun h => h3 ((hcondL t).mp h)) (iblk V c 0 t) (iblk V c 1 t)]
  exact (pay2_apply (k1_pay1 (F := Ideal)) (blkA V c t) (blkW V c t) p q).trans
    (congrArg (fun z : EReal => z + blockProd V c t p q) (pay1_apply p q))

/-- Elsewhere it grows by this point's block product over what the point before left. -/
theorem acc_step (c : Dev nD) (t : Fin cfg1.N) (h0 : ¬t.val % 4 = 0) (p q : Fin 1024) :
    accAt V c t.val t.isLt (ix2 p q)
      = accAt V c (t.val - 1) (Nat.lt_of_le_of_lt (Nat.sub_le _ _) t.isLt) (ix2 p q) + blockProd V c t p q := by
  unfold accAt
  by_cases h3 : t.val % 4 = 3
  · rw [outsAt_last V c t h0 h3]
    dsimp only
    rw [soutLast_eq (F := Ideal) c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2]
    exact pay2_apply (accAt V c (t.val - 1) (Nat.lt_of_le_of_lt (Nat.sub_le _ _) t.isLt)) (blkA V c t) (blkW V c t) p q
  · rw [outsAt_mid V c t h0 h3]
    dsimp only
    rw [soutMid_eq (F := Ideal) c (grid1.coords t) (ms0 t) (hs0 t) (ms1 t) (hs1 t) (ms2 t) (hs2 t) (ms3 t) (hs3 t) scM (Memref.isWhole_whole _) (fun h => h0 ((hcondZ t).mp h)) (fun h => h3 ((hcondL t).mp h)) (iblk V c 0 t) (iblk V c 1 t) (outsAt V c (t.val - 1) (Nat.lt_of_le_of_lt (Nat.sub_le _ _) t.isLt)).2]
    exact pay2_apply (accAt V c (t.val - 1) (Nat.lt_of_le_of_lt (Nat.sub_le _ _) t.isLt)) (blkA V c t) (blkW V c t) p q

/-- Where the contraction index is the last, the output block is the accumulator plus the bias row, taken to its positive part. -/
theorem out_last (c : Dev nD) (t : Fin cfg1.N) (h3 : t.val % 4 = 3) (p q : Fin 1024) :
    outAt V c t.val t.isLt (ix2 p q)
      = max (accAt V c t.val t.isLt (ix2 p q) + blkB V c t (ix2 (0 : Fin 1) q)) (Ideal.ofBits .f32 0x00000000#32) := by
  have h0 : ¬t.val % 4 = 0 := by omega
  unfold outAt accAt
  rw [outsAt_last V c t h0 h3]
  dsimp only
  rw [outLast_eq (F := Ideal) c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2,
    soutLast_eq (F := Ideal) c (grid1.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2]
  exact pay3_apply _ (blkB V c t) p q

/-! ## From the blocks to the array -/

/-- A sum over 4096 positions as 4 blocks of 1024. -/
theorem sum_blocks (f : Fin 4096 → EReal) :
    ∑ k : Fin 4096, f k
      = ∑ s : Fin 4, ∑ kk : Fin 1024, f ⟨1024 * s.val + kk.val, by have := s.isLt; have := kk.isLt; omega⟩ := by
  rw [← Equiv.sum_comp (finProdFinEquiv : Fin 4 × Fin 1024 ≃ Fin 4096) f, Fintype.sum_prod_type]
  refine Finset.sum_congr rfl fun s _ => Finset.sum_congr rfl fun kk _ => congrArg f (Fin.ext ?_)
  show kk.val + 1024 * s.val = 1024 * s.val + kk.val
  omega

/-- The part of the inner product of row `r` of the first operand with row `s` of the second that runs over the `b`-th block of 1024 positions. -/
def part (c : Dev nD) (r s : Fin 4096) (b : Fin 4) : EReal :=
  ∑ kk : Fin 1024, Cert.Spec.toMat (V c main_v34 : S4096x4096.Idx → EReal) r ⟨1024 * b.val + kk.val, by have := b.isLt; have := kk.isLt; omega⟩
      * Cert.Spec.toMat (V c main_v45 : S4096x4096.Idx → EReal) s ⟨1024 * b.val + kk.val, by have := b.isLt; have := kk.isLt; omega⟩

/-- The block product of a point whose contraction index is `b` is that part. -/
theorem blockProd_eq (c : Dev nD) (u : Fin cfg1.N) (p q : Fin 1024) (r s : Fin 4096) (b : Fin 4)
    (hr : r.val = 1024 * (u.val / 16) + p.val) (hs : s.val = 1024 * (u.val / 4 % 4) + q.val) (hb : u.val % 4 = b.val) :
    blockProd V c u p q = part V c r s b := by
  unfold blockProd blkA blkW part
  refine Finset.sum_congr rfl fun kk _ => ?_
  rw [iblk0_apply V c u p kk r ⟨1024 * b.val + kk.val, by have := b.isLt; have := kk.isLt; omega⟩ hr (by rw [hb]),
    iblk1_apply V c u q kk s ⟨1024 * b.val + kk.val, by have := b.isLt; have := kk.isLt; omega⟩ hs (by rw [hb])]

/-- The whole inner product is the four parts. -/
theorem inner_eq_parts (c : Dev nD) (r s : Fin 4096) :
    ∑ k : Fin 4096, Cert.Spec.toMat (V c main_v34 : S4096x4096.Idx → EReal) r k * Cert.Spec.toMat (V c main_v45 : S4096x4096.Idx → EReal) s k = part V c r s 0 + part V c r s 1 + part V c r s 2 + part V c r s 3 := by
  rw [sum_blocks (fun k => Cert.Spec.toMat (V c main_v34 : S4096x4096.Idx → EReal) r k * Cert.Spec.toMat (V c main_v45 : S4096x4096.Idx → EReal) s k), Fin.sum_univ_four]
  rfl

/-- The output block of a point whose contraction index is the last, entry by entry: the dense layer's entry, with its positive part. -/
theorem flushed_entry (c : Dev nD) (t : Fin cfg1.N) (h3 : t.val % 4 = 3) (p q : Fin 1024) (r s : Fin 4096)
    (hr : r.val = 1024 * (t.val / 16) + p.val) (hs : s.val = 1024 * (t.val / 4 % 4) + q.val) :
    outAt V c t.val t.isLt (ix2 p q)
      = Cert.Spec.relu (Cert.Spec.lin (Cert.Spec.toMat (V c main_v34 : S4096x4096.Idx → EReal)) (Cert.Spec.toMat (V c main_v45 : S4096x4096.Idx → EReal)) (fun j => (V c main_v46 : S1x4096.Idx → EReal) (ix2 0 j)) r s) := by
  have hN : cfg1.N = 64 := N_1
  have ht := t.isLt
  have a3 := acc_step V c t (by omega) p q
  have a2 := acc_step V c ⟨t.val - 1, by omega⟩ (by show ¬(t.val - 1) % 4 = 0; omega) p q
  have a1 := acc_step V c ⟨t.val - 1 - 1, by omega⟩ (by show ¬(t.val - 1 - 1) % 4 = 0; omega) p q
  have a0 := acc_first V c ⟨t.val - 1 - 1 - 1, by omega⟩ (by show (t.val - 1 - 1 - 1) % 4 = 0; omega) p q
  dsimp only at a2 a1 a0
  rw [out_last V c t h3 p q, a3, a2, a1, a0]
  rw [blockProd_eq V c ⟨t.val - 1 - 1 - 1, by omega⟩ p q r s 0 (by show r.val = 1024 * ((t.val - 1 - 1 - 1) / 16) + p.val; omega) (by show s.val = 1024 * ((t.val - 1 - 1 - 1) / 4 % 4) + q.val; omega) (by show (t.val - 1 - 1 - 1) % 4 = 0; omega),
    blockProd_eq V c ⟨t.val - 1 - 1, by omega⟩ p q r s 1 (by show r.val = 1024 * ((t.val - 1 - 1) / 16) + p.val; omega) (by show s.val = 1024 * ((t.val - 1 - 1) / 4 % 4) + q.val; omega) (by show (t.val - 1 - 1) % 4 = 1; omega),
    blockProd_eq V c ⟨t.val - 1, by omega⟩ p q r s 2 (by show r.val = 1024 * ((t.val - 1) / 16) + p.val; omega) (by show s.val = 1024 * ((t.val - 1) / 4 % 4) + q.val; omega) (by show (t.val - 1) % 4 = 2; omega),
    blockProd_eq V c t p q r s 3 hr hs h3,
    show blkB V c t (ix2 (0 : Fin 1) q) = (V c main_v46 : S1x4096.Idx → EReal) (ix2 (0 : Fin 1) s) from iblk2_apply V c t q s hs]
  unfold Cert.Spec.relu Cert.Spec.lin Cert.Spec.c0
  rw [inner_eq_parts V c r s, zero_add]

/-- The array the region leaves in its output: the dense layer of the three operand arrays, with its positive part. -/
def G (c : Dev nD) : S4096x4096.Idx → EReal := fun i =>
  Cert.Spec.relu (Cert.Spec.lin (Cert.Spec.toMat (V c main_v34 : S4096x4096.Idx → EReal)) (Cert.Spec.toMat (V c main_v45 : S4096x4096.Idx → EReal)) (fun j => (V c main_v46 : S1x4096.Idx → EReal) (ix2 0 j)) (i 0) (i 1))

/-- What a point whose contraction index is the last writes back is its block of that array. -/
theorem flushed_eq (c : Dev nD) (t : Fin cfg1.N) (hf : (cfg1.win 3).flush t = true) :
    (dat (F := Ideal) V c).flushed 3 t = ((cfg1.win 3).blk t).view.read (Elt Ideal) (G V c) := by
  have h3 : t.val % 4 = 3 := (flush1_3 t).mp hf
  obtain ⟨-, -, -, -, -, -, e0, e1⟩ := idx_facts t
  show (cfg1.win 3).cut (grid1.coords t) ((dat V c).after 3 t) = _
  rw [after3]
  refine funext fun (y : S1024x1024.Idx) => ?_
  obtain ⟨p, q, rfl⟩ : ∃ (p q : Fin 1024), y = ix2 p q := ⟨y 0, y 1, eq_ix2 y⟩
  rw [View.read_apply]
  show outAt V c t.val t.isLt (ix2 p q) = G V c (((cfg1.win 3).blk t).view.emb (ix2 p q))
  exact flushed_entry V c t h3 p q _ _
    (by show win1_3.index t 0 * 1024 + 1 * p.val = _; rw [e0]; omega)
    (by show win1_3.index t 1 * 1024 + 1 * q.val = _; rw [e1]; omega)

/-- Every entry of the output array lies in the block of the point `(r / 1024, s / 1024, 3)`, which writes back. -/
theorem cover (c : Dev nD) (i : S4096x4096.Idx) :
    ∃ t : Fin cfg1.N, (cfg1.win 3).flush t = true ∧ i ∈ ((cfg1.win 3).blk t).view.set := by
  have hN : cfg1.N = 64 := N_1
  have hi0 : (i 0).val < 4096 := (i 0).isLt
  have hi1 : (i 1).val < 4096 := (i 1).isLt
  obtain ⟨t, htv⟩ : ∃ t : Fin cfg1.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e0, e1⟩ := idx_facts t
  refine ⟨t, (flush1_3 t).mpr (by omega), ?_⟩
  show i ∈ ((View.whole main_v47).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [e0]; omega
  | ⟨1, _⟩ =>
    show win1_3.index t 1 * 1024 ≤ (i 1).val ∧ (i 1).val < win1_3.index t 1 * 1024 + 1024
    rw [e1]; omega

/-- The output array after the region. -/
theorem result (c : Dev nD) :
    ((Cert.KernelIdeal.R1.dat (F := Ideal) V c).arrAt 3 cfg1.N : S4096x4096.Idx → EReal)
      = fun i => Cert.Spec.relu (Cert.Spec.lin (Cert.Spec.toMat (V c main_v34 : S4096x4096.Idx → EReal)) (Cert.Spec.toMat (V c main_v45 : S4096x4096.Idx → EReal)) (fun j => (V c main_v46 : S1x4096.Idx → EReal) (ValueIdx.ix2 0 j)) (i 0) (i 1)) :=
  (dat (F := Ideal) V c).arrAt_eq_of_cover 3 (G V c) (fun t hf => flushed_eq V c t hf) (cover c)

end Value

end Cert.KernelIdeal.R1V

end
-- ==== Proof.R2Value.lean ====
/-
  The value of region 2 over the extended reals: the array the region leaves in its output is the dense layer
  `A · Wᵀ + b` of its three operand arrays (no positive part).

  The grid is 4 x 1 x 4 and point `t = i · 4 + k` works on block `(i, k)` of `A` (4096 x 4096), block `(0, k)` of `W`
  (1024 x 4096, stored by output rows), the whole bias row (1 x 1024) and block `(i, 0)` of the output (4096 x 1024),
  all blocks 1024 x 1024. Over `k` the body keeps an accumulator: where `k = 0` it is reset to zero first, at every
  point the product of the two operand blocks (row `p` of the first against row `q` of the second) is added to it, and
  where `k = 3` the accumulator plus the bias row is stored to the output block and written back. Below: what each
  control case leaves, as the printed payloads of the blocks it read; the three payloads at an entry over the extended
  reals; each block read as entries of its array; the accumulator after the four points of one output block, which
  is `0` plus the four block products in order; a sum over 4096 positions as four blocks of 1024, which makes that the
  whole inner product of a row of `A` with a row of `W`; and the output array from the blocks written back, every
  entry `(r, s)` lying in the block of the point `(r / 1024, 0, 3)`. Addition on the extended reals is associative and
  `0 + x = x`, so nothing here asks an entry to be finite.
-/
import proofs.«135747_j2697239461893_2_alg».proof.Proof.R2
import proofs.«135747_j2697239461893_2_alg».proof.Proof.Spec
import Idealize.ShloMosaic.Lib.Pipeline.Value
import Idealize.ShloMosaic.Lib.ValueLayout
import Idealize.ShloMosaic.Lib.Tactic
import proofs.«135747_j2697239461893_2_alg».proof.Proof.LibBlockOps

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.Tactic Idealize.SL.Sem
open Idealize.ShloMosaic.Pipeline (Dat)
open Idealize.ShloMosaic.ValueIdx

/-! ## What each control case leaves, as the payloads of the blocks it read -/

section Pieces
variable {F : FTy → Type} [FloatOps F]

/-- The zero offsets, however spelt. -/
theorem hz : (![0, 0] : Fin 2 → Nat) = fun _ => 0 := funext fun a => by fin_cases a <;> rfl

/-- A middle point leaves in the accumulator the product added onto what it held. -/
theorem soutMid_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : ¬condZ i) (hl : ¬condL i) (x3 : Vec F S1024x1024 .bf16) (x4 : Vec F S1024x1024 .bf16) (xs : Vec F S1024x1024 .f32) :
    soutMid c i arg3 harg3 arg4 harg4 arg5 harg5 arg6 harg6 arg7 harg7 hz' hl x3 x4 xs = k2_pay2 xs x3 x4 := by
  unfold soutMid
  rw [View.read_writes_eq_canon _ _ _ (scoverMid c i arg3 harg3 arg4 harg4 arg5 harg5 arg6 harg6 arg7 harg7 hz' hl x3 x4 xs)]
  unfold runMid
  dsimp only
  rw [View.canon_unit_zero hz]
  simp only [View.readAt_eq_ld, harg3.read_unread, harg4.read_unread, harg7.read_unread, View.ld_unit_zero (S := S1024x1024) hz]

/-- A first point leaves in the accumulator the product added onto the zero block it has just stored and read back. -/
theorem soutFirst_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : condZ i) (hl : ¬condL i) (x3 : Vec F S1024x1024 .bf16) (x4 : Vec F S1024x1024 .bf16) :
    soutFirst c i arg3 harg3 arg4 harg4 arg5 harg5 arg6 harg6 arg7 harg7 hz' hl x3 x4 = k2_pay2 (k2_pay1 (F := F)) x3 x4 := by
  unfold soutFirst
  rw [View.read_writes_eq_canon _ _ _ (scoverFirst c i arg3 harg3 arg4 harg4 arg5 harg5 arg6 harg6 arg7 harg7 hz' hl x3 x4)]
  unfold runFirst
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A last point leaves in the accumulator the product added onto what it held, -/
theorem soutLast_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : ¬condZ i) (hl : condL i) (x3 : Vec F S1024x1024 .bf16) (x4 : Vec F S1024x1024 .bf16) (x5 : Vec F S1x1024 .f32) (xs : Vec F S1024x1024 .f32) :
    soutLast c i arg3 harg3 arg4 harg4 arg5 harg5 arg6 harg6 arg7 harg7 hz' hl x3 x4 x5 xs = k2_pay2 xs x3 x4 := by
  unfold soutLast
  rw [View.read_writes_eq_canon _ _ _ (scoverLast c i arg3 harg3 arg4 harg4 arg5 harg5 arg6 harg6 arg7 harg7 hz' hl x3 x4 x5 xs)]
  unfold runLast
  dsimp only
  sl_unfold_words
  rw [View.canon_unit_zero (S := S1024x1024) hz]
  simp only [View.readAt_eq_ld, harg3.read_unread, harg4.read_unread, harg7.read_unread, View.ld_unit_zero (S := S1024x1024) hz]

/-- and in the output block that accumulator plus the bias row. -/
theorem outLast_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hz' : ¬condZ i) (hl : condL i) (x3 : Vec F S1024x1024 .bf16) (x4 : Vec F S1024x1024 .bf16) (x5 : Vec F S1x1024 .f32) (xs : Vec F S1024x1024 .f32) :
    outLast c i arg3 harg3 arg4 harg4 arg5 harg5 arg6 harg6 arg7 harg7 hz' hl x3 x4 x5 xs = k2_pay3 (k2_pay2 xs x3 x4) x5 := by
  unfold outLast
  rw [View.read_writes_eq_canon _ _ _ (coverLast c i arg3 harg3 arg4 harg4 arg5 harg5 arg6 harg6 arg7 harg7 hz' hl x3 x4 x5 xs)]
  unfold runLast
  dsimp only
  sl_unfold_words
  rw [View.canon_unit_zero (S := S1024x1024) hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz]

end Pieces

/-! ## The three payloads at an entry, over the extended reals -/

/-- The zero block. -/
theorem pay1_apply (p q : Fin 1024) : k2_pay1 (F := Ideal) (ix2 p q) = 0 := by
  unfold k2_pay1
  try dsimp only
  rw [shapeCast_self, broadcast_apply]
  exact Ideal.ofBits_zero_f32

/-- The accumulator plus the product into zero of the two blocks, both contracted on their second axis. -/
theorem pay2_apply (xs : Vec Ideal S1024x1024 .f32) (x3 x4 : Vec Ideal S1024x1024 .bf16) (p q : Fin 1024) :
    k2_pay2 (F := Ideal) xs x3 x4 (ix2 p q) = xs (ix2 p q) + ∑ kk : Fin 1024, x3 (ix2 p kk) * x4 (ix2 q kk) := by
  unfold k2_pay2
  try dsimp only
  rw [shapeCast_self, shapeCast_self, shapeCast_self, addf_apply]
  exact congrArg (xs (ix2 p q) + ·)
    (Cert.Lib.BlockOps.matmul_rows_apply dot_S1024x1024_S1024x1024_S1024x1024_1_1_0_0_n_n.wf none x3 x4 p q)

/-- The accumulator plus the bias row repeated down the rows. -/
theorem pay3_apply (v16 : Vec Ideal S1024x1024 .f32) (v17 : Vec Ideal S1x1024 .f32) (p q : Fin 1024) :
    k2_pay3 (F := Ideal) v16 v17 (ix2 p q) = v16 (ix2 p q) + v17 (ix2 (0 : Fin 1) q) := by
  unfold k2_pay3
  try dsimp only
  rw [addf_apply, shapeCast_self, broadcastTo_1b_ab_apply]

/-! ## The blocks the windows read, as entries of the operand arrays -/

section Value
variable (V : (c : Dev nD) → (b : Ref sig .tc) → Buf (Elt Ideal) ((c : Thread nD τ).loc b))

/-- The block index maps over the grid: point `t` is `(t / 4, 0, t % 4)`. -/
theorem idx_facts : ∀ t : Fin cfg2.N,
    win2_0.index t (0 : Fin 2) = t.val / 4 ∧ win2_0.index t (1 : Fin 2) = t.val % 4
    ∧ win2_1.index t (0 : Fin 2) = 0 ∧ win2_1.index t (1 : Fin 2) = t.val % 4
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N,
    win2_0.index t (0 : Fin 2) = t.val / 4 ∧ win2_0.index t (1 : Fin 2) = t.val % 4
    ∧ win2_1.index t (0 : Fin 2) = 0 ∧ win2_1.index t (1 : Fin 2) = t.val % 4
    ∧ win2_2.index t (0 : Fin 2) = 0 ∧ win2_2.index t (1 : Fin 2) = 0
    ∧ win2_3.index t (0 : Fin 2) = t.val / 4 ∧ win2_3.index t (1 : Fin 2) = 0)

/-- Entry `(p, kk)` of the first operand's block at point `t` is entry `(1024 (t / 4) + p, 1024 (t % 4) + kk)` of the array. -/
theorem iblk0_apply (c : Dev nD) (t : Fin cfg2.N) (p kk : Fin 1024) (r k : Fin 4096)
    (hr : r.val = 1024 * (t.val / 4) + p.val) (hk : k.val = 1024 * (t.val % 4) + kk.val) :
    ((iblk V c 0 t : Vec Ideal S1024x1024 .bf16) (ix2 p kk) : EReal) = Cert.Spec.toMat (V c main_v58 : S4096x4096.Idx → EReal) r k := by
  obtain ⟨e0, e1, -⟩ := idx_facts t
  unfold iblk
  rw [View.read_apply]
  show V c main_v58 _ = V c main_v58 _
  refine congrArg _ (funext fun a => Fin.ext ?_)
  match a with
  | ⟨0, _⟩ => show win2_0.index t 0 * 1024 + 1 * p.val = r.val; rw [e0, hr]; omega
  | ⟨1, _⟩ => show win2_0.index t 1 * 1024 + 1 * kk.val = k.val; rw [e1, hk]; omega

/-- Entry `(q, kk)` of the second operand's block at point `t` is entry `(q, 1024 (t % 4) + kk)` of the array. -/
theorem iblk1_apply (c : Dev nD) (t : Fin cfg2.N) (q kk : Fin 1024) (r : Fin 1024) (k : Fin 4096)
    (hr : r.val = q.val) (hk : k.val = 1024 * (t.val % 4) + kk.val) :
    ((iblk V c 1 t : Vec Ideal S1024x1024 .bf16) (ix2 q kk) : EReal) = Cert.Spec.toMat (V c main_v70 : S1024x4096.Idx → EReal) r k := by
  obtain ⟨-, -, e0, e1, -⟩ := idx_facts t
  unfold iblk
  rw [View.read_apply]
  show V c main_v70 _ = V c main_v70 _
  refine congrArg _ (funext fun a => Fin.ext ?_)
  match a with
  | ⟨0, _⟩ => show win2_1.index t 0 * 1024 + 1 * q.val = r.val; rw [e0, hr]; omega
  | ⟨1, _⟩ => show win2_1.index t 1 * 1024 + 1 * kk.val = k.val; rw [e1, hk]; omega

/-- The bias row's block at every point is the whole row. -/
theorem iblk2_apply (c : Dev nD) (t : Fin cfg2.N) (q : Fin 1024) (r : Fin 1024) (hr : r.val = q.val) :
    ((iblk V c 2 t : Vec Ideal S1x1024 .f32) (ix2 (0 : Fin 1) q) : EReal) = (V c main_v72 : S1x1024.Idx → EReal) (ix2 (0 : Fin 1) r) := by
  obtain ⟨-, -, -, -, e0, e1, -⟩ := idx_facts t
  unfold iblk
  rw [View.read_apply]
  show V c main_v72 _ = V c main_v72 _
  refine congrArg _ (funext fun a => Fin.ext ?_)
  match a with
  | ⟨0, _⟩ => show win2_2.index t 0 * 1 + 1 * 0 = 0; rw [e0]
  | ⟨1, _⟩ => show win2_2.index t 1 * 1024 + 1 * q.val = r.val; rw [e1, hr]; omega

/-! ## The accumulator and the output block, entry by entry -/

/-- The three input blocks of point `t`, the accumulator after position `n`, and the output block's buffer there, as arrays of extended reals. -/
def blkA (c : Dev nD) (t : Fin cfg2.N) : S1024x1024.Idx → EReal := iblk V c 0 t
def blkW (c : Dev nD) (t : Fin cfg2.N) : S1024x1024.Idx → EReal := iblk V c 1 t
def blkB (c : Dev nD) (t : Fin cfg2.N) : S1x1024.Idx → EReal := iblk V c 2 t
def accAt (c : Dev nD) (n : ℕ) (hn : n < cfg2.N) : S1024x1024.Idx → EReal := (outsAt V c n hn).2
def outAt (c : Dev nD) (n : ℕ) (hn : n < cfg2.N) : S1024x1024.Idx → EReal := (outsAt V c n hn).1

/-- The product of the two operand blocks of point `t`, at entry `(p, q)`: row `p` of the first against row `q` of the second. -/
def blockProd (c : Dev nD) (t : Fin cfg2.N) (p q : Fin 1024) : EReal :=
  ∑ kk : Fin 1024, blkA V c t (ix2 p kk) * blkW V c t (ix2 q kk)

/-- Where the contraction index is 0 the accumulator is reset: it ends at `0 +` this point's block product. -/
theorem acc_first (c : Dev nD) (t : Fin cfg2.N) (h0 : t.val % 4 = 0) (p q : Fin 1024) :
    accAt V c t.val t.isLt (ix2 p q) = 0 + blockProd V c t p q := by
  have h3 : ¬t.val % 4 = 3 := by omega
  unfold accAt
  rw [outsAt_first V c t h0 h3]
  dsimp only
  rw [soutFirst_eq (F := Ideal) c (grid2.coords t) (ms0 t) (hs0 t) (ms1 t) (hs1 t) (ms2 t) (hs2 t) (ms3 t) (hs3 t) scM (Memref.isWhole_whole _) ((hcondZ t).mpr h0) (fun h => h3 ((hcondL t).mp h)) (iblk V c 0 t) (iblk V c 1 t)]
  exact (pay2_apply (k2_pay1 (F := Ideal)) (blkA V c t) (blkW V c t) p q).trans
    (congrArg (fun z : EReal => z + blockProd V c t p q) (pay1_apply p q))

/-- Elsewhere it grows by this point's block product over what the point before left. -/
theorem acc_step (c : Dev nD) (t : Fin cfg2.N) (h0 : ¬t.val % 4 = 0) (p q : Fin 1024) :
    accAt V c t.val t.isLt (ix2 p q)
      = accAt V c (t.val - 1) (Nat.lt_of_le_of_lt (Nat.sub_le _ _) t.isLt) (ix2 p q) + blockProd V c t p q := by
  unfold accAt
  by_cases h3 : t.val % 4 = 3
  · rw [outsAt_last V c t h0 h3]
    dsimp only
    rw [soutLast_eq (F := Ideal) c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2]
    exact pay2_apply (accAt V c (t.val - 1) (Nat.lt_of_le_of_lt (Nat.sub_le _ _) t.isLt)) (blkA V c t) (blkW V c t) p q
  · rw [outsAt_mid V c t h0 h3]
    dsimp only
    rw [soutMid_eq (F := Ideal) c (grid2.coords t) (ms0 t) (hs0 t) (ms1 t) (hs1 t) (ms2 t) (hs2 t) (ms3 t) (hs3 t) scM (Memref.isWhole_whole _) (fun h => h0 ((hcondZ t).mp h)) (fun h => h3 ((hcondL t).mp h)) (iblk V c 0 t) (iblk V c 1 t) (outsAt V c (t.val - 1) (Nat.lt_of_le_of_lt (Nat.sub_le _ _) t.isLt)).2]
    exact pay2_apply (accAt V c (t.val - 1) (Nat.lt_of_le_of_lt (Nat.sub_le _ _) t.isLt)) (blkA V c t) (blkW V c t) p q

/-- Where the contraction index is the last, the output block is the accumulator plus the bias row. -/
theorem out_last (c : Dev nD) (t : Fin cfg2.N) (h3 : t.val % 4 = 3) (p q : Fin 1024) :
    outAt V c t.val t.isLt (ix2 p q)
      = accAt V c t.val t.isLt (ix2 p q) + blkB V c t (ix2 (0 : Fin 1) q) := by
  have h0 : ¬t.val % 4 = 0 := by omega
  unfold outAt accAt
  rw [outsAt_last V c t h0 h3]
  dsimp only
  rw [outLast_eq (F := Ideal) c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2,
    soutLast_eq (F := Ideal) c (grid2.coords t) (ms0 t) (hs0 t) (ms1 t) (hs1 t) (ms2 t) (hs2 t) (ms3 t) (hs3 t) scM (Memref.isWhole_whole _) (fun h => h0 ((hcondZ t).mp h)) ((hcondL t).mpr h3) (iblk V c 0 t) (iblk V c 1 t) (iblk V c 2 t) (outsAt V c (t.val - 1) (Nat.lt_of_le_of_lt (Nat.sub_le _ _) t.isLt)).2]
  exact pay3_apply _ (blkB V c t) p q

/-! ## From the blocks to the array -/

/-- A sum over 4096 positions as 4 blocks of 1024. -/
theorem sum_blocks (f : Fin 4096 → EReal) :
    ∑ k : Fin 4096, f k
      = ∑ s : Fin 4, ∑ kk : Fin 1024, f ⟨1024 * s.val + kk.val, by have := s.isLt; have := kk.isLt; omega⟩ := by
  rw [← Equiv.sum_comp (finProdFinEquiv : Fin 4 × Fin 1024 ≃ Fin 4096) f, Fintype.sum_prod_type]
  refine Finset.sum_congr rfl fun s _ => Finset.sum_congr rfl fun kk _ => congrArg f (Fin.ext ?_)
  show kk.val + 1024 * s.val = 1024 * s.val + kk.val
  omega

/-- The part of the inner product of row `r` of the first operand with row `s` of the second that runs over the `b`-th block of 1024 positions. -/
def part (c : Dev nD) (r : Fin 4096) (s : Fin 1024) (b : Fin 4) : EReal :=
  ∑ kk : Fin 1024, Cert.Spec.toMat (V c main_v58 : S4096x4096.Idx → EReal) r ⟨1024 * b.val + kk.val, by have := b.isLt; have := kk.isLt; omega⟩
      * Cert.Spec.toMat (V c main_v70 : S1024x4096.Idx → EReal) s ⟨1024 * b.val + kk.val, by have := b.isLt; have := kk.isLt; omega⟩

/-- The block product of a point whose contraction index is `b` is that part. -/
theorem blockProd_eq (c : Dev nD) (u : Fin cfg2.N) (p q : Fin 1024) (r : Fin 4096) (s : Fin 1024) (b : Fin 4)
    (hr : r.val = 1024 * (u.val / 4) + p.val) (hs : s.val = q.val) (hb : u.val % 4 = b.val) :
    blockProd V c u p q = part V c r s b := by
  unfold blockProd blkA blkW part
  refine Finset.sum_congr rfl fun kk _ => ?_
  rw [iblk0_apply V c u p kk r ⟨1024 * b.val + kk.val, by have := b.isLt; have := kk.isLt; omega⟩ hr (by rw [hb]),
    iblk1_apply V c u q kk s ⟨1024 * b.val + kk.val, by have := b.isLt; have := kk.isLt; omega⟩ hs (by rw [hb])]

/-- The whole inner product is the four parts. -/
theorem inner_eq_parts (c : Dev nD) (r : Fin 4096) (s : Fin 1024) :
    ∑ k : Fin 4096, Cert.Spec.toMat (V c main_v58 : S4096x4096.Idx → EReal) r k * Cert.Spec.toMat (V c main_v70 : S1024x4096.Idx → EReal) s k = part V c r s 0 + part V c r s 1 + part V c r s 2 + part V c r s 3 := by
  rw [sum_blocks (fun k => Cert.Spec.toMat (V c main_v58 : S4096x4096.Idx → EReal) r k * Cert.Spec.toMat (V c main_v70 : S1024x4096.Idx → EReal) s k), Fin.sum_univ_four]
  rfl

/-- The output block of a point whose contraction index is the last, entry by entry: the dense layer's entry. -/
theorem flushed_entry (c : Dev nD) (t : Fin cfg2.N) (h3 : t.val % 4 = 3) (p q : Fin 1024) (r : Fin 4096) (s : Fin 1024)
    (hr : r.val = 1024 * (t.val / 4) + p.val) (hs : s.val = q.val) :
    outAt V c t.val t.isLt (ix2 p q)
      = Cert.Spec.lin (Cert.Spec.toMat (V c main_v58 : S4096x4096.Idx → EReal)) (Cert.Spec.toMat (V c main_v70 : S1024x4096.Idx → EReal)) (fun j => (V c main_v72 : S1x1024.Idx → EReal) (ix2 0 j)) r s := by
  have hN : cfg2.N = 16 := N_2
  have ht := t.isLt
  have a3 := acc_step V c t (by omega) p q
  have a2 := acc_step V c ⟨t.val - 1, by omega⟩ (by show ¬(t.val - 1) % 4 = 0; omega) p q
  have a1 := acc_step V c ⟨t.val - 1 - 1, by omega⟩ (by show ¬(t.val - 1 - 1) % 4 = 0; omega) p q
  have a0 := acc_first V c ⟨t.val - 1 - 1 - 1, by omega⟩ (by show (t.val - 1 - 1 - 1) % 4 = 0; omega) p q
  dsimp only at a2 a1 a0
  rw [out_last V c t h3 p q, a3, a2, a1, a0]
  rw [blockProd_eq V c ⟨t.val - 1 - 1 - 1, by omega⟩ p q r s 0 (by show r.val = 1024 * ((t.val - 1 - 1 - 1) / 4) + p.val; omega) hs (by show (t.val - 1 - 1 - 1) % 4 = 0; omega),
    blockProd_eq V c ⟨t.val - 1 - 1, by omega⟩ p q r s 1 (by show r.val = 1024 * ((t.val - 1 - 1) / 4) + p.val; omega) hs (by show (t.val - 1 - 1) % 4 = 1; omega),
    blockProd_eq V c ⟨t.val - 1, by omega⟩ p q r s 2 (by show r.val = 1024 * ((t.val - 1) / 4) + p.val; omega) hs (by show (t.val - 1) % 4 = 2; omega),
    blockProd_eq V c t p q r s 3 hr hs h3,
    show blkB V c t (ix2 (0 : Fin 1) q) = (V c main_v72 : S1x1024.Idx → EReal) (ix2 (0 : Fin 1) s) from iblk2_apply V c t q s hs]
  unfold Cert.Spec.lin
  rw [inner_eq_parts V c r s, zero_add]

/-- The array the region leaves in its output: the dense layer of the three operand arrays. -/
def G (c : Dev nD) : S4096x1024.Idx → EReal := fun i =>
  Cert.Spec.lin (Cert.Spec.toMat (V c main_v58 : S4096x4096.Idx → EReal)) (Cert.Spec.toMat (V c main_v70 : S1024x4096.Idx → EReal)) (fun j => (V c main_v72 : S1x1024.Idx → EReal) (ix2 0 j)) (i 0) (i 1)

/-- What a point whose contraction index is the last writes back is its block of that array. -/
theorem flushed_eq (c : Dev nD) (t : Fin cfg2.N) (hf : (cfg2.win 3).flush t = true) :
    (dat (F := Ideal) V c).flushed 3 t = ((cfg2.win 3).blk t).view.read (Elt Ideal) (G V c) := by
  have h3 : t.val % 4 = 3 := (flush2_3 t).mp hf
  obtain ⟨-, -, -, -, -, -, e0, e1⟩ := idx_facts t
  show (cfg2.win 3).cut (grid2.coords t) ((dat V c).after 3 t) = _
  rw [after3]
  refine funext fun (y : S1024x1024.Idx) => ?_
  obtain ⟨p, q, rfl⟩ : ∃ (p q : Fin 1024), y = ix2 p q := ⟨y 0, y 1, eq_ix2 y⟩
  rw [View.read_apply]
  show outAt V c t.val t.isLt (ix2 p q) = G V c (((cfg2.win 3).blk t).view.emb (ix2 p q))
  exact flushed_entry V c t h3 p q _ _
    (by show win2_3.index t 0 * 1024 + 1 * p.val = _; rw [e0]; omega)
    (by show win2_3.index t 1 * 1024 + 1 * q.val = _; rw [e1]; omega)

/-- Every entry of the output array lies in the block of the point `(r / 1024, 0, 3)`, which writes back. -/
theorem cover (c : Dev nD) (i : S4096x1024.Idx) :
    ∃ t : Fin cfg2.N, (cfg2.win 3).flush t = true ∧ i ∈ ((cfg2.win 3).blk t).view.set := by
  have hN : cfg2.N = 16 := N_2
  have hi0 : (i 0).val < 4096 := (i 0).isLt
  have hi1 : (i 1).val < 1024 := (i 1).isLt
  obtain ⟨t, htv⟩ : ∃ t : Fin cfg2.N, t.val = 4 * ((i 0).val / 1024) + 3 :=
    ⟨⟨4 * ((i 0).val / 1024) + 3, by omega⟩, rfl⟩
  obtain ⟨-, -, -, -, -, -, e0, e1⟩ := idx_facts t
  refine ⟨t, (flush2_3 t).mpr (by omega), ?_⟩
  show i ∈ ((View.whole main_v73).slice (win2_3.rect t)).set
  rw [View.set_slice_whole, Rect.mem_set_unit]
  intro a
  match a with
  | ⟨0, _⟩ =>
    show win2_3.index t 0 * 1024 ≤ (i 0).val ∧ (i 0).val < win2_3.index t 0 * 1024 + 1024
    rw [e0]; omega
  | ⟨1, _⟩ =>
    show win2_3.index t 1 * 1024 ≤ (i 1).val ∧ (i 1).val < win2_3.index t 1 * 1024 + 1024
    rw [e1]; omega

/-- The output array after the region. -/
theorem result (c : Dev nD) :
    ((Cert.KernelIdeal.R2.dat (F := Ideal) V c).arrAt 3 cfg2.N : S4096x1024.Idx → EReal)
      = fun i => Cert.Spec.lin (Cert.Spec.toMat (V c main_v58 : S4096x4096.Idx → EReal)) (Cert.Spec.toMat (V c main_v70 : S1024x4096.Idx → EReal)) (fun j => (V c main_v72 : S1x1024.Idx → EReal) (ValueIdx.ix2 0 j)) (i 0) (i 1) :=
  (dat (F := Ideal) V c).arrAt_eq_of_cover 3 (G V c) (fun t hf => flushed_eq V c t hf) (cover c)

end Value

end Cert.KernelIdeal.R2V

end
-- ==== Proof.KValue.lean ====
/-
  The idealized kernel program's result as one function of its arguments: the three regions' results, read through
  the host operations between them, are the specification's two hidden layers and last dense layer over quantised
  operands; the padded rows of the last weight and bias never reach the sliced result.
-/
import proofs.«135747_j2697239461893_2_alg».proof.Proof.RunB
import proofs.«135747_j2697239461893_2_alg».proof.Proof.HostChainB
import proofs.«135747_j2697239461893_2_alg».proof.Proof.Bridge
import proofs.«135747_j2697239461893_2_alg».proof.Proof.R0Value
import proofs.«135747_j2697239461893_2_alg».proof.Proof.R1Value
import proofs.«135747_j2697239461893_2_alg».proof.Proof.R2Value

set_option maxRecDepth 16384

noncomputable section

namespace Cert.KernelIdeal.KV

open Cert.KernelIdeal Cert.KernelIdeal.Gen Cert.KernelIdeal.Run Cert.KernelIdeal.HostChain Cert.Spec
open Idealize.ShloMosaic Idealize.ShloMosaic.TcCoe Idealize.ShloMosaic.ValueIdx Idealize.SL.Sem

variable (m : (ℓ : Loc nD τ sig) → Buf (Elt Ideal) ℓ) (c : Dev nD)

/-- The arguments as matrices and vectors. -/
def xM : Mat 4096 1024 := toMat (m ((c.tc : Thread nD τ).loc main_arg0) : S4096x1024.Idx → EReal)
def w0M : Mat 4096 1024 := toMat (m ((c.tc : Thread nD τ).loc main_arg1) : S4096x1024.Idx → EReal)
def b0V : Vc 4096 := toVc (m ((c.tc : Thread nD τ).loc main_arg2) : S4096.Idx → EReal)
def w1M : Mat 4096 4096 := toMat (m ((c.tc : Thread nD τ).loc main_arg3) : S4096x4096.Idx → EReal)
def b1V : Vc 4096 := toVc (m ((c.tc : Thread nD τ).loc main_arg4) : S4096.Idx → EReal)
def w2M : Mat 1000 4096 := toMat (m ((c.tc : Thread nD τ).loc main_arg5) : S1000x4096.Idx → EReal)
def b2V : Vc 1000 := toVc (m ((c.tc : Thread nD τ).loc main_arg6) : S1000.Idx → EReal)
/-- The two hidden layers. -/
def h1 : Mat 4096 4096 := hid quant (step (mxK.A (xM m c))) (step (mxK.A (w0M m c))) (xM m c) (w0M m c) (b0V m c)
def h2 : Mat 4096 4096 := hid quant (step (mxK.B (h1 m c))) (step (mxK.B (w1M m c))) (h1 m c) (w1M m c) (b1V m c)

theorem toMat_ofMat {a b : Nat} (t : Mat a b) : toMat (ofMat t) = t := rfl

/-- Region 0 leaves the first hidden layer. -/
theorem O10_eq : (O10 m c : S4096x4096.Idx → EReal) = ofMat (h1 m c) := by
  unfold O10
  rw [Cert.KernelIdeal.R0V.result (Ve0 m) c]
  rw [show (Ve0 m c main_v10 : S4096x1024.Idx → EReal) = V9 m c main_v10 from rfl, show (Ve0 m c main_v21 : S4096x1024.Idx → EReal) = V9 m c main_v21 from rfl,
    show (Ve0 m c main_v22 : S1x4096.Idx → EReal) = V9 m c main_v22 from rfl, V9_v10 m c, V9_v21 m c, V9_v22 m c]
  rfl

/-- Region 1 leaves the second hidden layer. -/
theorem O20_eq : (theOuts m 20 main_v47 c : S4096x4096.Idx → EReal) = ofMat (h2 m c) := by
  rw [ho1 m c, Cert.KernelIdeal.R1V.result (Ve1 m (theOuts m)) c]
  rw [show (Ve1 m (theOuts m) c main_v34 : S4096x4096.Idx → EReal) = V19 m (theOuts m) c main_v34 from rfl,
    show (Ve1 m (theOuts m) c main_v45 : S4096x4096.Idx → EReal) = V19 m (theOuts m) c main_v45 from rfl,
    show (Ve1 m (theOuts m) c main_v46 : S1x4096.Idx → EReal) = V19 m (theOuts m) c main_v46 from rfl,
    V19_v34 m (theOuts m) c, V19_v45 m (theOuts m) c, V19_v46 m (theOuts m) c, ho0 m c]
  rw [show ((R0.dat (Ve0 m) c).arrAt 3 cfg0.N : S4096x4096.Idx → EReal) = O10 m c from rfl, O10_eq m c, toMat_ofMat]
  rfl

/-- Region 2 leaves the last dense layer over the padded weight and bias. -/
theorem O34_eq : (theOuts m 34 main_v73 c : S4096x1024.Idx → EReal)
    = fun i => lin (fun i k => quant (step (mxK.B (h2 m c))) (h2 m c i k))
        (toMat (fun i : S1024x4096.Idx => if h : (i 0).val < 1000 then quant (step (mxK.C (w2M m c))) ((m ((c.tc : Thread nD τ).loc main_arg5) : S1000x4096.Idx → EReal) (ix2 ⟨(i 0).val, h⟩ ⟨(i 1).val, idx2_lt1 i⟩)) else (0 : EReal)))
        (fun j => (fun i : S1x1024.Idx => if h : (i 1).val < 1000 then (m ((c.tc : Thread nD τ).loc main_arg6) : S1000.Idx → EReal) (ix1 ⟨(i 1).val, h⟩) else (0 : EReal)) (ix2 0 j)) (i 0) (i 1) := by
  rw [ho2 m c, Cert.KernelIdeal.R2V.result (Ve2 m (theOuts m)) c]
  rw [show (Ve2 m (theOuts m) c main_v58 : S4096x4096.Idx → EReal) = V33 m (theOuts m) c main_v58 from rfl,
    show (Ve2 m (theOuts m) c main_v70 : S1024x4096.Idx → EReal) = V33 m (theOuts m) c main_v70 from rfl,
    show (Ve2 m (theOuts m) c main_v72 : S1x1024.Idx → EReal) = V33 m (theOuts m) c main_v72 from rfl,
    V33_v58 m (theOuts m) c, V33_v70 m (theOuts m) c, V33_v72 m (theOuts m) c, O20_eq m c, toMat_ofMat]
  rfl

/-- The program's result is the specification's network over the kernel's quantiser. -/
theorem result_eq : (V35 m (theOuts m) c main_v74 : S4096x1000.Idx → EReal)
    = ofMat (netK mxK (xM m c) (w0M m c) (b0V m c) (w1M m c) (b1V m c) (w2M m c) (b2V m c)) := by
  rw [V35_v74 m (theOuts m) c, O34_eq m c]
  funext i
  have hi : (i 1).val < 1000 := idx2_lt1 i
  show lin _ _ _ _ _ = netK mxK (xM m c) (w0M m c) (b0V m c) (w1M m c) (b1V m c) (w2M m c) (b2V m c) (i 0) (i 1)
  unfold netK; rw [net_hid]
  unfold lin toMat h2 h1
  refine congrArg₂ (· + ·) (Finset.sum_congr rfl fun x _ => congrArg₂ (· * ·) rfl ?_) ?_
  · exact (dif_pos hi).trans rfl
  · exact (dif_pos hi).trans rfl

end Cert.KernelIdeal.KV

end
-- ==== Proof.RefMx.lean ====
/-
  The largest magnitude of a tensor as the reference computes it, for the three quantised shapes: the absolute
  value of every entry, then a maximum-reduce over both axes started from minus infinity.
-/
import proofs.«135747_j2697239461893_2_alg».proof.Proof.Gen.ReferenceIdeal.Read
import proofs.«135747_j2697239461893_2_alg».proof.Proof.Spec

noncomputable section

namespace Cert.ReferenceIdeal.RefValue

open Cert.ReferenceIdeal Cert.ReferenceIdeal.Gen Cert.ReferenceIdeal.Read Idealize.ShloMosaic Cert.Spec

/-- the largest magnitude of a tensor as the reference computes it (abs, then a maximum-reduce over both axes from -inf) -/
def mxR : Cert.Spec.Mx where
  A t := Host.reduce (FloatOps.maximumf (F := Ideal) (φ := .f32)) (Host.absf (F := Ideal) (s := S4096x1024) (φ := .f32) (ofMat t)) (constant (F := Ideal) S_ .f32 0xFF800000#32) reducesTo_S4096x1024_S_d0_1 h_S_ ValueIdx.ix0
  B t := Host.reduce (FloatOps.maximumf (F := Ideal) (φ := .f32)) (Host.absf (F := Ideal) (s := S4096x4096) (φ := .f32) (ofMat t)) (constant (F := Ideal) S_ .f32 0xFF800000#32) reducesTo_S4096x4096_S_d0_1 h_S_ ValueIdx.ix0
  C t := Host.reduce (FloatOps.maximumf (F := Ideal) (φ := .f32)) (Host.absf (F := Ideal) (s := S1000x4096) (φ := .f32) (ofMat t)) (constant (F := Ideal) S_ .f32 0xFF800000#32) reducesTo_S1000x4096_S_d0_1 h_S_ ValueIdx.ix0

theorem mxR_A (t : Mat 4096 1024) : mxR.A t = Host.reduce (FloatOps.maximumf (F := Ideal) (φ := .f32)) (Host.absf (F := Ideal) (s := S4096x1024) (φ := .f32) (ofMat t)) (constant (F := Ideal) S_ .f32 0xFF800000#32) reducesTo_S4096x1024_S_d0_1 h_S_ ValueIdx.ix0 := by
  simp only [mxR]
theorem mxR_B (t : Mat 4096 4096) : mxR.B t = Host.reduce (FloatOps.maximumf (F := Ideal) (φ := .f32)) (Host.absf (F := Ideal) (s := S4096x4096) (φ := .f32) (ofMat t)) (constant (F := Ideal) S_ .f32 0xFF800000#32) reducesTo_S4096x4096_S_d0_1 h_S_ ValueIdx.ix0 := by
  simp only [mxR]
theorem mxR_C (t : Mat 1000 4096) : mxR.C t = Host.reduce (FloatOps.maximumf (F := Ideal) (φ := .f32)) (Host.absf (F := Ideal) (s := S1000x4096) (φ := .f32) (ofMat t)) (constant (F := Ideal) S_ .f32 0xFF800000#32) reducesTo_S1000x4096_S_d0_1 h_S_ ValueIdx.ix0 := by
  simp only [mxR]

/-- A matrix read back from its array is itself. -/
theorem toMat_ofMat {a b : Nat} (t : Mat a b) : toMat (ofMat t) = t := rfl
/-- An array is the array of its matrix. -/
theorem ofMat_toMat {a b : Nat} (t : (⟨2, ![a, b]⟩ : Shape).Idx → EReal) : ofMat (toMat t) = t := by
  funext i
  exact congrArg t (ValueIdx.eq_ix2 i).symm

end Cert.ReferenceIdeal.RefValue

end
-- ==== Proof.RefValue.lean ====
/-
  The reference program read as the specification's network.  Each of the six quantised tensors is read entry by
  entry: its step is the largest magnitude over 3, floored, and the entry is the entry plus its rounding error.
  The three maximum-reduces are never opened: their operand is shown equal, as a function, to the array of the
  specification's matrix, and the reduce is then the largest-magnitude functional of that matrix by definition.
  Then the three dense layers are read as sums over the contracted axis.
-/
import proofs.«135747_j2697239461893_2_alg».proof.Proof.RefMx

noncomputable section

namespace Cert.ReferenceIdeal.RefValue

open Cert.ReferenceIdeal Cert.ReferenceIdeal.Gen Cert.ReferenceIdeal.Read Idealize.ShloMosaic Cert.Spec

/-- the quantisation step of tensor 1, read off the program: the largest magnitude over 3, floored -/
theorem step_1 (x0 : (⟨S4096x1024, .f32⟩ : BufTy).Contents (Elt Ideal)) (h : Mat 4096 1024) (hh : x0 = ofMat h) (j : S_.Idx) :
    val_main_v3 (F := Ideal) x0 j = step (mxR.A h) := by
  have e : val_main_v1 (F := Ideal) x0 j = mxR.A h := by
    rw [ValueIdx.eq_ix0 j, mxR_A, ← hh]
    unfold val_main_v1 val_main_v0 val_main_cst
    rfl
  rw [val_main_v3_apply, val_main_v2_apply, e, val_main_cst_0_apply, val_main_cst_1_apply]
  generalize mxR.A h = M
  rfl

/-- tensor 1 after the round trip through the quantiser, entry by entry -/
theorem fq_1 (x0 : (⟨S4096x1024, .f32⟩ : BufTy).Contents (Elt Ideal)) (h : Mat 4096 1024) (hh : x0 = ofMat h) :
    val_main_v11 (F := Ideal) x0 = ofMat (fun i k => quantST (step (mxR.A h)) (h i k)) := by
  funext i
  have ex : (x0) i = h (i 0) (i 1) := by rw [hh]; rfl
  rw [val_main_v11_apply, val_main_v10_apply, val_main_v9_apply, val_main_v7_apply, val_main_v8_apply, val_main_call1_v4_apply, val_main_call1_v3_apply, val_main_cst_3_apply,
    val_main_call1_v2_apply, val_main_call1_v1_apply, val_main_call1_v0_apply, val_main_cst_2_apply, val_main_v6_apply, val_main_v5_apply, val_main_v4_apply]
  simp only [step_1 x0 h hh, ex]
  rfl

/-- the quantisation step of tensor 2, read off the program: the largest magnitude over 3, floored -/
theorem step_2 (x1 : (⟨S4096x1024, .f32⟩ : BufTy).Contents (Elt Ideal)) (h : Mat 4096 1024) (hh : x1 = ofMat h) (j : S_.Idx) :
    val_main_v15 (F := Ideal) x1 j = step (mxR.A h) := by
  have e : val_main_v13 (F := Ideal) x1 j = mxR.A h := by
    rw [ValueIdx.eq_ix0 j, mxR_A, ← hh]
    unfold val_main_v13 val_main_v12 val_main_cst_4
    rfl
  rw [val_main_v15_apply, val_main_v14_apply, e, val_main_cst_5_apply, val_main_cst_6_apply]
  generalize mxR.A h = M
  rfl

/-- tensor 2 after the round trip through the quantiser, entry by entry -/
theorem fq_2 (x1 : (⟨S4096x1024, .f32⟩ : BufTy).Contents (Elt Ideal)) (h : Mat 4096 1024) (hh : x1 = ofMat h) :
    val_main_v23 (F := Ideal) x1 = ofMat (fun i k => quantST (step (mxR.A h)) (h i k)) := by
  funext i
  have ex : (x1) i = h (i 0) (i 1) := by rw [hh]; rfl
  rw [val_main_v23_apply, val_main_v22_apply, val_main_v21_apply, val_main_v19_apply, val_main_v20_apply, val_main_call3_v4_apply, val_main_call3_v3_apply, val_main_cst_8_apply,
    val_main_call3_v2_apply, val_main_call3_v1_apply, val_main_call3_v0_apply, val_main_cst_7_apply, val_main_v18_apply, val_main_v17_apply, val_main_v16_apply]
  simp only [step_2 x1 h hh, ex]
  rfl

/-- the quantisation step of tensor 3, read off the program: the largest magnitude over 3, floored -/
theorem step_3 (x0 x1 : (⟨S4096x1024, .f32⟩ : BufTy).Contents (Elt Ideal)) (x2 : (⟨S4096, .f32⟩ : BufTy).Contents (Elt Ideal)) (h : Mat 4096 4096) (hh : val_main_v30 (F := Ideal) x0 x1 x2 = ofMat h) (j : S_.Idx) :
    val_main_v34 (F := Ideal) x0 x1 x2 j = step (mxR.B h) := by
  have e : val_main_v32 (F := Ideal) x0 x1 x2 j = mxR.B h := by
    rw [ValueIdx.eq_ix0 j, mxR_B, ← hh]
    unfold val_main_v32 val_main_v31 val_main_cst_10
    rfl
  rw [val_main_v34_apply, val_main_v33_apply, e, val_main_cst_11_apply, val_main_cst_12_apply]
  generalize mxR.B h = M
  rfl

/-- tensor 3 after the round trip through the quantiser, entry by entry -/
theorem fq_3 (x0 x1 : (⟨S4096x1024, .f32⟩ : BufTy).Contents (Elt Ideal)) (x2 : (⟨S4096, .f32⟩ : BufTy).Contents (Elt Ideal)) (h : Mat 4096 4096) (hh : val_main_v30 (F := Ideal) x0 x1 x2 = ofMat h) :
    val_main_v42 (F := Ideal) x0 x1 x2 = ofMat (fun i k => quantST (step (mxR.B h)) (h i k)) := by
  funext i
  have ex : (val_main_v30 (F := Ideal) x0 x1 x2) i = h (i 0) (i 1) := by rw [hh]; rfl
  rw [val_main_v42_apply, val_main_v41_apply, val_main_v40_apply, val_main_v38_apply, val_main_v39_apply, val_main_call5_v4_apply, val_main_call5_v3_apply, val_main_cst_14_apply,
    val_main_call5_v2_apply, val_main_call5_v1_apply, val_main_call5_v0_apply, val_main_cst_13_apply, val_main_v37_apply, val_main_v36_apply, val_main_v35_apply]
  simp only [step_3 x0 x1 x2 h hh, ex]
  rfl

/-- the quantisation step of tensor 4, read off the program: the largest magnitude over 3, floored -/
theorem step_4 (x3 : (⟨S4096x4096, .f32⟩ : BufTy).Contents (Elt Ideal)) (h : Mat 4096 4096) (hh : x3 = ofMat h) (j : S_.Idx) :
    val_main_v46 (F := Ideal) x3 j = step (mxR.B h) := by
  have e : val_main_v44 (F := Ideal) x3 j = mxR.B h := by
    rw [ValueIdx.eq_ix0 j, mxR_B, ← hh]
    unfold val_main_v44 val_main_v43 val_main_cst_15
    rfl
  rw [val_main_v46_apply, val_main_v45_apply, e, val_main_cst_16_apply, val_main_cst_17_apply]
  generalize mxR.B h = M
  rfl

/-- tensor 4 after the round trip through the quantiser, entry by entry -/
theorem fq_4 (x3 : (⟨S4096x4096, .f32⟩ : BufTy).Contents (Elt Ideal)) (h : Mat 4096 4096) (hh : x3 = ofMat h) :
    val_main_v54 (F := Ideal) x3 = ofMat (fun i k => quantST (step (mxR.B h)) (h i k)) := by
  funext i
  have ex : (x3) i = h (i 0) (i 1) := by rw [hh]; rfl
  rw [val_main_v54_apply, val_main_v53_apply, val_main_v52_apply, val_main_v50_apply, val_main_v51_apply, val_main_call7_v4_apply, val_main_call7_v3_apply, val_main_cst_19_apply,
    val_main_call7_v2_apply, val_main_call7_v1_apply, val_main_call7_v0_apply, val_main_cst_18_apply, val_main_v49_apply, val_main_v48_apply, val_main_v47_apply]
  simp only [step_4 x3 h hh, ex]
  rfl

/-- the quantisation step of tensor 5, read off the program: the largest magnitude over 3, floored -/
theorem step_5 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (h : Mat 4096 4096) (hh : val_main_v61 (F := Ideal) x0 x1 x2 x3 x4 = ofMat h) (j : S_.Idx) :
    val_main_v65 (F := Ideal) x0 x1 x2 x3 x4 j = step (mxR.B h) := by
  have e : val_main_v63 (F := Ideal) x0 x1 x2 x3 x4 j = mxR.B h := by
    rw [ValueIdx.eq_ix0 j, mxR_B, ← hh]
    unfold val_main_v63 val_main_v62 val_main_cst_21
    rfl
  rw [val_main_v65_apply, val_main_v64_apply, e, val_main_cst_22_apply, val_main_cst_23_apply]
  generalize mxR.B h = M
  rfl

/-- tensor 5 after the round trip through the quantiser, entry by entry -/
theorem fq_5 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (h : Mat 4096 4096) (hh : val_main_v61 (F := Ideal) x0 x1 x2 x3 x4 = ofMat h) :
    val_main_v73 (F := Ideal) x0 x1 x2 x3 x4 = ofMat (fun i k => quantST (step (mxR.B h)) (h i k)) := by
  funext i
  have ex : (val_main_v61 (F := Ideal) x0 x1 x2 x3 x4) i = h (i 0) (i 1) := by rw [hh]; rfl
  rw [val_main_v73_apply, val_main_v72_apply, val_main_v71_apply, val_main_v69_apply, val_main_v70_apply, val_main_call9_v4_apply, val_main_call9_v3_apply, val_main_cst_25_apply,
    val_main_call9_v2_apply, val_main_call9_v1_apply, val_main_call9_v0_apply, val_main_cst_24_apply, val_main_v68_apply, val_main_v67_apply, val_main_v66_apply]
  simp only [step_5 x0 x1 x2 x3 x4 h hh, ex]
  rfl

/-- the quantisation step of tensor 6, read off the program: the largest magnitude over 3, floored -/
theorem step_6 (x5 : (⟨S1000x4096, .f32⟩ : BufTy).Contents (Elt Ideal)) (h : Mat 1000 4096) (hh : x5 = ofMat h) (j : S_.Idx) :
    val_main_v77 (F := Ideal) x5 j = step (mxR.C h) := by
  have e : val_main_v75 (F := Ideal) x5 j = mxR.C h := by
    rw [ValueIdx.eq_ix0 j, mxR_C, ← hh]
    unfold val_main_v75 val_main_v74 val_main_cst_26
    rfl
  rw [val_main_v77_apply, val_main_v76_apply, e, val_main_cst_27_apply, val_main_cst_28_apply]
  generalize mxR.C h = M
  rfl

/-- tensor 6 after the round trip through the quantiser, entry by entry -/
theorem fq_6 (x5 : (⟨S1000x4096, .f32⟩ : BufTy).Contents (Elt Ideal)) (h : Mat 1000 4096) (hh : x5 = ofMat h) :
    val_main_v85 (F := Ideal) x5 = ofMat (fun i k => quantST (step (mxR.C h)) (h i k)) := by
  funext i
  have ex : (x5) i = h (i 0) (i 1) := by rw [hh]; rfl
  rw [val_main_v85_apply, val_main_v84_apply, val_main_v83_apply, val_main_v81_apply, val_main_v82_apply, val_main_call11_v4_apply, val_main_call11_v3_apply, val_main_cst_30_apply,
    val_main_call11_v2_apply, val_main_call11_v1_apply, val_main_call11_v0_apply, val_main_cst_29_apply, val_main_v80_apply, val_main_v79_apply, val_main_v78_apply]
  simp only [step_6 x5 h hh, ex]
  rfl

/-- The first hidden layer over a largest-magnitude functional: both operands through the quantiser, the dense layer, the positive part. -/
def H1 (mx : Mx) (x W0 : Mat 4096 1024) (b0 : Vc 4096) : Mat 4096 4096 := fun i j =>
  relu (lin (fun i k => quantST (step (mx.A x)) (x i k)) (fun j k => quantST (step (mx.A W0)) (W0 j k)) b0 i j)

/-- The second hidden layer, from the first one's output. -/
def H2 (mx : Mx) (h1 W1 : Mat 4096 4096) (b1 : Vc 4096) : Mat 4096 4096 := fun i j =>
  relu (lin (fun i k => quantST (step (mx.B h1)) (h1 i k)) (fun j k => quantST (step (mx.B W1)) (W1 j k)) b1 i j)

/-- The reference network is the last dense layer over the two hidden layers. -/
theorem netR_eq (mx : Mx) (x W0 : Mat 4096 1024) (b0 : Vc 4096) (W1 : Mat 4096 4096) (b1 : Vc 4096) (W2 : Mat 1000 4096) (b2 : Vc 1000) :
    netR mx x W0 b0 W1 b1 W2 b2 =
      lin (fun i k => quantST (step (mx.B (H2 mx (H1 mx x W0 b0) W1 b1))) (H2 mx (H1 mx x W0 b0) W1 b1 i k))
        (fun j k => quantST (step (mx.C W2)) (W2 j k)) b2 := rfl

/-- the program's first hidden layer is the specification's -/
theorem h1_eq (x0 x1 : (⟨S4096x1024, .f32⟩ : BufTy).Contents (Elt Ideal)) (x2 : (⟨S4096, .f32⟩ : BufTy).Contents (Elt Ideal)) :
    val_main_v30 (F := Ideal) x0 x1 x2 = ofMat (H1 mxR (toMat x0) (toMat x1) (toVc x2)) := by
  funext i
  obtain ⟨p, q, rfl⟩ : ∃ (p : Fin 4096) (q : Fin 4096), i = ValueIdx.ix2 p q := ⟨i 0, i 1, ValueIdx.eq_ix2 i⟩
  have eb : idx_main_v26 (idx_main_v27 (ValueIdx.ix2 p q)) = ValueIdx.ix1 q :=
    funext fun a => Fin.ext (by match a with | ⟨0, _⟩ => rfl)
  rw [val_main_v30_apply, val_main_v28_apply, val_main_v25_apply, val_main_v27_apply, val_main_v26_apply, val_main_v29_apply,
    val_main_cst_9_apply]
  simp only [val_main_v24_apply, fq_1 x0 (toMat x0) (ofMat_toMat x0).symm, fq_2 x1 (toMat x1) (ofMat_toMat x1).symm]
  show _ = H1 mxR (toMat x0) (toMat x1) (toVc x2) p q
  unfold H1
  generalize step (mxR.A (toMat x0)) = s0
  generalize step (mxR.A (toMat x1)) = s1
  rw [eb]
  rfl

/-- the program's second hidden layer is the specification's -/
theorem h2_eq (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) :
    val_main_v61 (F := Ideal) x0 x1 x2 x3 x4 =
      ofMat (H2 mxR (H1 mxR (toMat x0) (toMat x1) (toVc x2)) (toMat x3) (toVc x4)) := by
  funext i
  obtain ⟨p, q, rfl⟩ : ∃ (p : Fin 4096) (q : Fin 4096), i = ValueIdx.ix2 p q := ⟨i 0, i 1, ValueIdx.eq_ix2 i⟩
  have eb : idx_main_v57 (idx_main_v58 (ValueIdx.ix2 p q)) = ValueIdx.ix1 q :=
    funext fun a => Fin.ext (by match a with | ⟨0, _⟩ => rfl)
  rw [val_main_v61_apply, val_main_v59_apply, val_main_v56_apply, val_main_v58_apply, val_main_v57_apply, val_main_v60_apply,
    val_main_cst_20_apply]
  simp only [val_main_v55_apply, fq_3 x0 x1 x2 _ (h1_eq x0 x1 x2), fq_4 x3 (toMat x3) (ofMat_toMat x3).symm]
  show _ = H2 mxR (H1 mxR (toMat x0) (toMat x1) (toVc x2)) (toMat x3) (toVc x4) p q
  unfold H2
  generalize H1 mxR (toMat x0) (toMat x1) (toVc x2) = h1
  generalize step (mxR.B h1) = s0
  generalize step (mxR.B (toMat x3)) = s1
  rw [eb]
  rfl

/-- the reference program's result is the specification's network over the reference's largest-magnitude functional -/
theorem result_eq (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S1000x4096, .f32⟩ : BufTy).Contents (Elt Ideal)) (x6 : (⟨S1000, .f32⟩ : BufTy).Contents (Elt Ideal)) :
    val_main_v90 (F := Ideal) x0 x1 x2 x3 x4 x5 x6 =
      ofMat (netR mxR (toMat x0) (toMat x1) (toVc x2) (toMat x3) (toVc x4) (toMat x5) (toVc x6)) := by
  rw [netR_eq]
  funext i
  obtain ⟨p, q, rfl⟩ : ∃ (p : Fin 4096) (q : Fin 1000), i = ValueIdx.ix2 p q := ⟨i 0, i 1, ValueIdx.eq_ix2 i⟩
  have eb : idx_main_v88 (idx_main_v89 (ValueIdx.ix2 p q)) = ValueIdx.ix1 q :=
    funext fun a => Fin.ext (by match a with | ⟨0, _⟩ => rfl)
  rw [val_main_v90_apply, val_main_v87_apply, val_main_v89_apply, val_main_v88_apply]
  simp only [val_main_v86_apply, fq_5 x0 x1 x2 x3 x4 _ (h2_eq x0 x1 x2 x3 x4), fq_6 x5 (toMat x5) (ofMat_toMat x5).symm]
  generalize H2 mxR (H1 mxR (toMat x0) (toMat x1) (toVc x2)) (toMat x3) (toVc x4) = h2
  generalize step (mxR.B h2) = s0
  generalize step (mxR.C (toMat x5)) = s1
  rw [eb]
  rfl

end Cert.ReferenceIdeal.RefValue

end
-- ==== Proof.ReduceMax.lean ====
/-
  The largest magnitude of a real tensor is below +∞.

  The maximum-reduce of |t| over every axis is a left fold of max, from the word of -∞, over the entries of |t|.
  The absolute value max r (-r) of a real number is a real number; the word of -∞ is the bottom element; and the
  maximum of two extended reals that are not +∞ is not +∞.  So the fold never reaches +∞.
-/
import proofs.«135747_j2697239461893_2_alg».proof.Proof.Bridge
import Idealize.ShloMosaic.PureOps.Reduce
import Idealize.ShloMosaic.PureOps.Vector
import Idealize.ShloMosaic.Lib.ValueIdx

noncomputable section

namespace Cert.SpecFacts

open Idealize.ShloMosaic Cert.Spec

/-- The f32 word of -∞ denotes the bottom of the extended reals. -/
theorem ofBits_neg_inf_f32 : Ideal.ofBits .f32 0xFF800000#32 = ⊥ := by simp [Ideal.ofBits, Ideal.ieee]

/-- The maximum of two extended reals below +∞ is below +∞. -/
theorem max_ne_top {x y : EReal} (hx : x ≠ ⊤) (hy : y ≠ ⊤) : max x y ≠ ⊤ := by
  rcases le_total x y with h | h
  · rw [max_eq_right h]; exact hy
  · rw [max_eq_left h]; exact hx

/-- A left fold, from a value that is not +∞, of an operation that keeps "not +∞", over values that are not +∞. -/
theorem foldl_ne_top {ι : Type} (g : EReal → EReal → EReal) (hg : ∀ x y, x ≠ ⊤ → y ≠ ⊤ → g x y ≠ ⊤) (f : ι → EReal) :
    ∀ (l : List ι) (init : EReal), init ≠ ⊤ → (∀ i ∈ l, f i ≠ ⊤) → l.foldl (fun r i => g r (f i)) init ≠ ⊤
  | [], _, hi, _ => hi
  | a :: l, init, hi, hf => by
    rw [List.foldl_cons]
    exact foldl_ne_top g hg f l _ (hg _ _ hi (hf a (List.mem_cons_self ..)))
      (fun i hi' => hf i (List.mem_cons_of_mem _ hi'))

/-- The absolute value of a real number is not +∞. -/
theorem abs_ne_top {x : EReal} (hx : ∃ r : ℝ, x = (r : EReal)) : max x (-x) ≠ ⊤ := by
  obtain ⟨r, rfl⟩ := hx
  refine max_ne_top (EReal.coe_ne_top r) ?_
  rw [← EReal.coe_neg]
  exact EReal.coe_ne_top _

/-- The maximum-reduce, from -∞, of the absolute values of a real matrix over every axis is not +∞. -/
theorem reduce_max_abs_ne_top {a b : Nat} {axes : List (Fin (⟨2, ![a, b]⟩ : Shape).rank)}
    (red : (⟨2, ![a, b]⟩ : Shape).ReducesTo axes ⟨0, ![]⟩) (h : 0 < (⟨0, ![]⟩ : Shape).numel)
    (t : Mat a b) (ht : IsRealMat t) :
    Host.reduce (FloatOps.maximumf (F := Ideal) (φ := .f32))
        (Host.absf (F := Ideal) (s := ⟨2, ![a, b]⟩) (φ := .f32) (ofMat t))
        (constant (F := Ideal) ⟨0, ![]⟩ .f32 0xFF800000#32) red h ValueIdx.ix0 ≠ ⊤ := by
  rw [Host.reduce_eq_foldl]
  refine foldl_ne_top (FloatOps.maximumf (F := Ideal) (φ := .f32)) (fun x y hx hy => max_ne_top hx hy)
    (Host.absf (F := Ideal) (s := ⟨2, ![a, b]⟩) (φ := .f32) (ofMat t)) _ _ ?_ ?_
  · show Ideal.ofBits .f32 0xFF800000#32 ≠ ⊤
    rw [ofBits_neg_inf_f32]
    exact bot_ne_top
  · intro i _
    exact abs_ne_top (ht (i 0) (i 1))

end Cert.SpecFacts

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.Finite.lean ====
/-
  The precondition gives realness.

  The precondition is a conjunction of seven tests, one per input array: every entry's absolute value is below the
  word of +∞.  At the extended reals that word is the top element, and an extended real whose absolute value
  max x (-x) is below the top is neither infinity: it is a real number.  A conjunction of one-bit words is 1 exactly
  when each of them is, and an `and`-reduce over every axis is 1 exactly when every element is.
-/
import proofs.«135747_j2697239461893_2_alg».proof.Pre_finite_inputs
import proofs.«135747_j2697239461893_2_alg».proof.Proof.Gen.Pre_finite_inputs
import proofs.«135747_j2697239461893_2_alg».proof.Proof.Bridge
import proofs.«135747_j2697239461893_2_alg».proof.Proof.LibFiniteEntry
import Idealize.ShloMosaic.Lib.ReduceAll

noncomputable section

namespace Cert.SpecFacts

open Idealize.ShloMosaic Cert.Spec Cert.Pre_finite_inputs

/-- The rank-0 shape has one index. -/
instance subsingleton_scalar_idx : Subsingleton S_.Idx := ⟨fun a b => funext fun d => d.elim0⟩

/-- One conjunct: an array whose test `all (|x| < +∞)` is 1 has only real entries. -/
theorem real_of_test {s : Shape} {axes : List (Fin s.rank)} (x : FVec Ideal s .f32)
    (hb : S_.BroadcastsInDim s (![] : Fin 0 → Fin s.rank)) (red : s.ReducesTo axes S_) (hu : 0 < S_.numel)
    (e : Host.reduce IntOp.andi
        (cmpf .olt (Host.absf x) (broadcastInDim s ![] hb (constant (F := Ideal) S_ .f32 0x7F800000#32)))
        (constantI S_ 1 1#1) red hu ValueIdx.ix0 = 1#1) (i : s.Idx) :
    ∃ r : ℝ, (x i : EReal) = (r : EReal) :=
  ProofLib.Finite.all_real_of_all_abs_lt_inf x _ (fun _ => rfl) _ red hu ValueIdx.ix0 e i

/-- The precondition, true, says every input array holds real numbers only. -/
theorem real_of_pre (a0 a1 : FVec Ideal S4096x1024 .f32) (a2 : FVec Ideal S4096 .f32)
    (a3 : FVec Ideal S4096x4096 .f32) (a4 : FVec Ideal S4096 .f32) (a5 : FVec Ideal S1000x4096 .f32)
    (a6 : FVec Ideal S1000 .f32)
    (h : Cert.Pre_finite_inputs.fn (F := Ideal) a0 a1 a2 a3 a4 a5 a6 = (fun _ => 1#1)) :
    IsRealMat (toMat a0) ∧ IsRealMat (toMat a1) ∧ IsRealVc (toVc a2) ∧ IsRealMat (toMat a3) ∧ IsRealVc (toVc a4) ∧
      IsRealMat (toMat a5) ∧ IsRealVc (toVc a6) := by
  have h0 := congrFun h ValueIdx.ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  refine ⟨fun i j => ?_, fun i j => ?_, fun i => ?_, fun i j => ?_, fun i => ?_, fun i j => ?_, fun i => ?_⟩
  · exact real_of_test a0 _ _ _ e0 (ValueIdx.ix2 i j)
  · exact real_of_test a1 _ _ _ e1 (ValueIdx.ix2 i j)
  · exact real_of_test a2 _ _ _ e2 (ValueIdx.ix1 i)
  · exact real_of_test a3 _ _ _ e3 (ValueIdx.ix2 i j)
  · exact real_of_test a4 _ _ _ e4 (ValueIdx.ix1 i)
  · exact real_of_test a5 _ _ _ e5 (ValueIdx.ix2 i j)
  · exact real_of_test a6 _ _ _ e6 (ValueIdx.ix1 i)

end Cert.SpecFacts

end
-- ==== Proof.Alg.lean ====
/-
  The two idealized programs end with equal results. The kernel program's result is the specification's network
  over the quantised entries; the reference's is the same network with each quantised entry written as the entry
  plus its rounding error; on finite inputs every tensor that is quantised is a tensor of real numbers, so the
  two spellings agree entry by entry.
-/
import proofs.«135747_j2697239461893_2_alg».proof.Proof.KValue
import proofs.«135747_j2697239461893_2_alg».proof.Proof.RefValue
import proofs.«135747_j2697239461893_2_alg».proof.Proof.Bridge
import proofs.«135747_j2697239461893_2_alg».proof.Proof.ReduceMax
import proofs.«135747_j2697239461893_2_alg».proof.Proof.Finite
import proofs.«135747_j2697239461893_2_alg».proof.Proof.Gen.ReferenceIdeal.Run
import proofs.«135747_j2697239461893_2_alg».proof.Proof.Gen.ReferenceIdeal.Read
import proofs.«135747_j2697239461893_2_alg».proof.Proof.Gen.KernelIdeal
import proofs.«135747_j2697239461893_2_alg».proof.Proof.Gen.ReferenceIdeal
import proofs.«135747_j2697239461893_2_alg».proof.Proof.Gen.Pre_finite_inputs
import proofs.«135747_j2697239461893_2_alg».proof.Defs

set_option maxRecDepth 16384

noncomputable section

namespace Cert.Proof

open Idealize.ShloMosaic Idealize.ShloMosaic.TcCoe Idealize.SL.Sem Cert.Spec Cert.SpecFacts
open Cert.KernelIdeal.HostChain (mxK)
open Cert.ReferenceIdeal.RefValue (mxR)

/-- Both programs take the largest magnitude of a tensor by the same operations. -/
theorem mx_eq : mxR = mxK := by
  simp only [mxR, mxK]

theorem mxK_A_ne_top (t : Mat 4096 1024) (ht : IsRealMat t) : mxK.A t ≠ ⊤ := by
  simp only [mxK]; exact reduce_max_abs_ne_top _ _ t ht
theorem mxK_B_ne_top (t : Mat 4096 4096) (ht : IsRealMat t) : mxK.B t ≠ ⊤ := by
  simp only [mxK]; exact reduce_max_abs_ne_top _ _ t ht
theorem mxK_C_ne_top (t : Mat 1000 4096) (ht : IsRealMat t) : mxK.C t ≠ ⊤ := by
  simp only [mxK]; exact reduce_max_abs_ne_top _ _ t ht

/-- From memories agreeing on the arguments, under the precondition, both idealized programs run and end with the
    same result, the arguments unchanged. -/
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (ofMat (netK mxK (Cert.KernelIdeal.KV.xM m c) (Cert.KernelIdeal.KV.w0M m c) (Cert.KernelIdeal.KV.b0V m c) (Cert.KernelIdeal.KV.w1M m c) (Cert.KernelIdeal.KV.b1V m c) (Cert.KernelIdeal.KV.w2M m c) (Cert.KernelIdeal.KV.b2V m c)) : Cert.KernelIdeal.S4096x1000.Idx → EReal), ?_, ?_⟩
  · refine (θ_run Cert.KernelIdeal.defs _ _).mono (fun r h c => ?_) (Cert.KernelIdeal.Run.run (F := Ideal) m ρ)
    exact ⟨(h c (Proc.devRef .tc Cert.KernelIdeal.main_v74) (Finset.mem_filter.mpr ⟨StableHlo.devRef_mem_tcRefs Cert.KernelIdeal.main_v74, by decide⟩)).trans (Cert.KernelIdeal.KV.result_eq m c),
      (h c (Proc.devRef .tc Cert.KernelIdeal.main_arg0) (Finset.mem_filter.mpr ⟨StableHlo.devRef_mem_tcRefs Cert.KernelIdeal.main_arg0, by decide⟩)).trans (Cert.KernelIdeal.Gen.V35_main_arg0 m (Cert.KernelIdeal.Run.theOuts m) c),
      (h c (Proc.devRef .tc Cert.KernelIdeal.main_arg1) (Finset.mem_filter.mpr ⟨StableHlo.devRef_mem_tcRefs Cert.KernelIdeal.main_arg1, by decide⟩)).trans (Cert.KernelIdeal.Gen.V35_main_arg1 m (Cert.KernelIdeal.Run.theOuts m) c),
      (h c (Proc.devRef .tc Cert.KernelIdeal.main_arg2) (Finset.mem_filter.mpr ⟨StableHlo.devRef_mem_tcRefs Cert.KernelIdeal.main_arg2, by decide⟩)).trans (Cert.KernelIdeal.Gen.V35_main_arg2 m (Cert.KernelIdeal.Run.theOuts m) c),
      (h c (Proc.devRef .tc Cert.KernelIdeal.main_arg3) (Finset.mem_filter.mpr ⟨StableHlo.devRef_mem_tcRefs Cert.KernelIdeal.main_arg3, by decide⟩)).trans (Cert.KernelIdeal.Gen.V35_main_arg3 m (Cert.KernelIdeal.Run.theOuts m) c),
      (h c (Proc.devRef .tc Cert.KernelIdeal.main_arg4) (Finset.mem_filter.mpr ⟨StableHlo.devRef_mem_tcRefs Cert.KernelIdeal.main_arg4, by decide⟩)).trans (Cert.KernelIdeal.Gen.V35_main_arg4 m (Cert.KernelIdeal.Run.theOuts m) c),
      (h c (Proc.devRef .tc Cert.KernelIdeal.main_arg5) (Finset.mem_filter.mpr ⟨StableHlo.devRef_mem_tcRefs Cert.KernelIdeal.main_arg5, by decide⟩)).trans (Cert.KernelIdeal.Gen.V35_main_arg5 m (Cert.KernelIdeal.Run.theOuts m) c),
      (h c (Proc.devRef .tc Cert.KernelIdeal.main_arg6) (Finset.mem_filter.mpr ⟨StableHlo.devRef_mem_tcRefs Cert.KernelIdeal.main_arg6, by decide⟩)).trans (Cert.KernelIdeal.Gen.V35_main_arg6 m (Cert.KernelIdeal.Run.theOuts m) c)⟩
  · refine (θ_run Cert.ReferenceIdeal.defs _ _).mono (fun r h c => ⟨?_, (h c).2⟩) (Cert.ReferenceIdeal.Value.run (F := Ideal) m' ρ')
    obtain ⟨e0, e1, e2, e3, e4, e5, e6⟩ := hagree c
    obtain ⟨r0, r1, r2, r3, r4, r5, r6⟩ := real_of_pre _ _ _ _ _ _ _ (hpre c)
    rw [(h c).1, Cert.ReferenceIdeal.Read.val_main_v90_eq, Cert.ReferenceIdeal.RefValue.result_eq, e0, e1, e2, e3, e4, e5, e6, mx_eq]
    exact congrArg ofMat (net_eq mxK mxK_A_ne_top mxK_B_ne_top mxK_C_ne_top _ _ _ _ _ _ _ r0 r1 r2 r3 r4 r5 r6)

end Cert.Proof

end
-- ==== Proof.lean ====
/-
  The proof of the certificate's claim for a three-layer quantised dense network: each layer is a blocked product
  on a grid of kernel regions with an accumulator carried across the contraction's blocks, and the host operations
  between the layers quantise each tensor by its largest magnitude. The three frames come from the programs' runs —
  the kernel programs' (at both float instances) over their three regions, the reference's its host operations —;
  the idealization rewrote nothing; and at the ideal instance the kernel program and the reference end with the same
  array: both compute the specification's network, the reference adding each entry's rounding error back onto it,
  which changes nothing on real entries, and finite inputs keep every quantised tensor real.
-/
import proofs.«135747_j2697239461893_2_alg».proof.Defs
import proofs.«135747_j2697239461893_2_alg».proof.Proof.Gen.Kernel
import proofs.«135747_j2697239461893_2_alg».proof.Proof.Gen.KernelIdeal
import proofs.«135747_j2697239461893_2_alg».proof.Proof.Gen.ReferenceIdeal
import proofs.«135747_j2697239461893_2_alg».proof.Proof.Gen.Pre_finite_inputs
import proofs.«135747_j2697239461893_2_alg».proof.Proof.Gen.ReferenceIdeal.Run
import proofs.«135747_j2697239461893_2_alg».proof.Proof.Gen.ReferenceIdeal.Read
import proofs.«135747_j2697239461893_2_alg».proof.Proof.KRunB
import proofs.«135747_j2697239461893_2_alg».proof.Proof.RunB
import proofs.«135747_j2697239461893_2_alg».proof.Proof.Alg

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame (F := Bits) m ρ,
  fun m ρ _ => Cert.KernelIdeal.Run.frame (F := Ideal) m ρ,
  fun m ρ _ => (θ_run Cert.ReferenceIdeal.defs _ _).mono (fun _ h c => (h c).2) (Cert.ReferenceIdeal.Value.run (F := Ideal) m ρ),
  trivial,
  Cert.Proof.algebraic⟩

end Cert.Proof

end
